-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg6 : FVec F S2x128 .f32) (main_arg7 : FVec F S2x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S50000x128 .f32) (main_arg1 : IVec S800000 32) (main_arg2 : IVec S800000 32) (main_arg3 : FVec F S3x128x128 .f32) (main_arg4 : FVec F S3x128x128 .f32) (main_arg5 : FVec F S3x128 .f32) (main_arg6 : FVec F S2x128 .f32) (main_arg7 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 161
  | .vmem => 43
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S3x128x128, .f32⟩
  | 4 => ⟨S3x128x128, .f32⟩
  | 5 => ⟨S3x128, .f32⟩
  | 6 => ⟨S2x128, .f32⟩
  | 7 => ⟨S2x128, .f32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S50000x1, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x128, .f32⟩
  | 32 => ⟨S50000x128, .f32⟩
  | 33 => ⟨S1x128x128, .f32⟩
  | 34 => ⟨S128x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S50000x128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S50000x128, .f32⟩
  | 54 => ⟨S50000x128, .f32⟩
  | 55 => ⟨S50000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S1x128, .f32⟩
  | 75 => ⟨S1x128, .f32⟩
  | 76 => ⟨S1x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S50000x128, .f32⟩
  | 93 => ⟨S1x128x128, .f32⟩
  | 94 => ⟨S128x128, .f32⟩
  | 95 => ⟨S1x128x128, .f32⟩
  | 96 => ⟨S128x128, .f32⟩
  | 97 => ⟨S1x128, .f32⟩
  | 98 => ⟨S128, .f32⟩
  | 99 => ⟨S1x128, .f32⟩
  | 100 => ⟨S50000x128, .f32⟩
  | 101 => ⟨S_, .f32⟩
  | 102 => ⟨S128, .f32⟩
  | 103 => ⟨S_, .f32⟩
  | 104 => ⟨S128, .f32⟩
  | 105 => ⟨S128, .f32⟩
  | 106 => ⟨S_, .i32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S_, .f32⟩
  | 118 => ⟨S_, .f32⟩
  | 119 => ⟨S_, .f32⟩
  | 120 => ⟨S128, .f32⟩
  | 121 => ⟨S128, .f32⟩
  | 122 => ⟨S128, .f32⟩
  | 123 => ⟨S_, .f32⟩
  | 124 => ⟨S_, .i1⟩
  | 125 => ⟨S_, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S1x128, .f32⟩
  | 7 => ⟨S1x128, .f32⟩
  | 8 => ⟨S1x128, .f32⟩
  | 9 => ⟨S50000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S50000x128, .f32⟩
  | 24 => ⟨S50000x128, .f32⟩
  | 25 => ⟨S1x128x128, .f32⟩
  | 26 => ⟨S128x128, .f32⟩
  | 27 => ⟨S1x128x128, .f32⟩
  | 28 => ⟨S128x128, .f32⟩
  | 29 => ⟨S1x128, .f32⟩
  | 30 => ⟨S128, .f32⟩
  | 31 => ⟨S1x128, .f32⟩
  | 32 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S128x128, .f32⟩
  | .local _ .vmem, ⟨40, _⟩ => ⟨S1x128, .f32⟩
  | .local _ .vmem, ⟨41, _⟩ => ⟨S2000x128, .f32⟩
  | .local _ .vmem, ⟨42, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_7 : Ref sig .tc := ⟨.hbm, 78, rfl⟩
abbrev main_v40 : Ref sig .tc := ⟨.hbm, 79, rfl⟩
abbrev main_v41 : Ref sig .tc := ⟨.hbm, 80, rfl⟩
abbrev main_c_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_9 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_10 : Ref sig .tc := ⟨.hbm, 101, rfl⟩
abbrev main_v60 : Ref sig .tc := ⟨.hbm, 102, rfl⟩
abbrev main_cst_11 : Ref sig .tc := ⟨.hbm, 103, rfl⟩
abbrev main_v61 : Ref sig .tc := ⟨.hbm, 104, rfl⟩
abbrev main_v62 : Ref sig .tc := ⟨.hbm, 105, rfl⟩
abbrev main_c_12 : Ref sig .tc := ⟨.hbm, 106, rfl⟩
abbrev main_call1_cst : Ref sig .tc := ⟨.hbm, 107, rfl⟩
abbrev main_call1_v0 : Ref sig .tc := ⟨.hbm, 108, rfl⟩
abbrev main_call1_v1 : Ref sig .tc := ⟨.hbm, 109, rfl⟩
abbrev main_call1_cst_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_v7 : Ref sig .tc := ⟨.hbm, 116, rfl⟩
abbrev main_call1_cst_1 : Ref sig .tc := ⟨.hbm, 117, rfl⟩
abbrev main_call1_v8 : Ref sig .tc := ⟨.hbm, 118, rfl⟩
abbrev main_call1_cst_2 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_call1_cst_3 : Ref sig .tc := ⟨.hbm, 123, rfl⟩
abbrev main_call1_v12 : Ref sig .tc := ⟨.hbm, 124, rfl⟩
abbrev main_call1_cst_4 : Ref sig .tc := ⟨.hbm, 125, rfl⟩
abbrev main_call1_call0_v0 : Ref sig .tc := ⟨.hbm, 126, rfl⟩
abbrev main_call1_call0_v1 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_c_13 : Ref sig .tc := ⟨.hbm, 138, rfl⟩
abbrev main_v73 : Ref sig .tc := ⟨.hbm, 139, rfl⟩
abbrev main_v74 : Ref sig .tc := ⟨.hbm, 140, rfl⟩
abbrev main_c_14 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_cst_15 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S2x128_S1x128_0_0 : S2x128.Slices ![0, 0] S1x128
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v72) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v91) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 204
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S3x128x128, .f32⟩
  | 4 => ⟨S3x128x128, .f32⟩
  | 5 => ⟨S3x128, .f32⟩
  | 6 => ⟨S2x128, .f32⟩
  | 7 => ⟨S2x128, .f32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S50000x1, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128x128, .f32⟩
  | 37 => ⟨S128x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x128, .f32⟩
  | 111 => ⟨S50000x128, .f32⟩
  | 112 => ⟨S1x128x128, .f32⟩
  | 113 => ⟨S128x128, .f32⟩
  | 114 => ⟨S50000x128, .f32⟩
  | 115 => ⟨S1x128x128, .f32⟩
  | 116 => ⟨S128x128, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S50000x128, .f32⟩
  | 125 => ⟨S_, .f32⟩
  | 126 => ⟨S128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S50000x128, .f32⟩
  | 10 => ⟨S50000x128, .f32⟩
  | 11 => ⟨S50000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S1x128x128, .f32⟩
  | 67 => ⟨S128x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_7 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call1_cst : Ref sig .tc := ⟨.hbm, 94, rfl⟩
abbrev main_call1_v0 : Ref sig .tc := ⟨.hbm, 95, rfl⟩
abbrev main_v55 : Ref sig .tc := ⟨.hbm, 96, rfl⟩
abbrev main_c_8 : Ref sig .tc := ⟨.hbm, 97, rfl⟩
abbrev main_v56 : Ref sig .tc := ⟨.hbm, 98, rfl⟩
abbrev main_v57 : Ref sig .tc := ⟨.hbm, 99, rfl⟩
abbrev main_c_9 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_10 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_11 : Ref sig .tc := ⟨.hbm, 125, rfl⟩
abbrev main_v81 : Ref sig .tc := ⟨.hbm, 126, rfl⟩
abbrev main_cst_12 : Ref sig .tc := ⟨.hbm, 127, rfl⟩
abbrev main_v82 : Ref sig .tc := ⟨.hbm, 128, rfl⟩
abbrev main_v83 : Ref sig .tc := ⟨.hbm, 129, rfl⟩
abbrev main_c_13 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_cst_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_cst_1 : Ref sig .tc := ⟨.hbm, 141, rfl⟩
abbrev main_call2_v8 : Ref sig .tc := ⟨.hbm, 142, rfl⟩
abbrev main_call2_cst_2 : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_cst_3 : Ref sig .tc := ⟨.hbm, 147, rfl⟩
abbrev main_call2_v12 : Ref sig .tc := ⟨.hbm, 148, rfl⟩
abbrev main_call2_cst_4 : Ref sig .tc := ⟨.hbm, 149, rfl⟩
abbrev main_call2_call0_v0 : Ref sig .tc := ⟨.hbm, 150, rfl⟩
abbrev main_call2_call0_v1 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_14 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_call3_cst : Ref sig .tc := ⟨.hbm, 173, rfl⟩
abbrev main_call3_v0 : Ref sig .tc := ⟨.hbm, 174, rfl⟩
abbrev main_v104 : Ref sig .tc := ⟨.hbm, 175, rfl⟩
abbrev main_c_15 : Ref sig .tc := ⟨.hbm, 176, rfl⟩
abbrev main_v105 : Ref sig .tc := ⟨.hbm, 177, rfl⟩
abbrev main_v106 : Ref sig .tc := ⟨.hbm, 178, rfl⟩
abbrev main_c_16 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_cst_17 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128_S1x128_0_0 : S2x128.Slices ![0, 0] S1x128
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealised kernel program's run with its result named.

  @main is fourteen segments: stretches of host operations and five pipelined kernel launches. The buffer contents at
  every segment boundary are a fold from the launch memory: a host stretch applies its operations in order, a launch
  replaces its output array by what its write-backs leave and keeps every other buffer. Every weakly fair execution
  ends with every unscoped buffer at the last boundary's contents; read at the result buffer and at the eight
  argument buffers, that is the statement below: the result is the last launch's output array, the arguments are as
  launched.
-/
import proofs.«146949_j14173392077064_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents at it, and the argument arrays are unchanged. -/
theorem run_result : θ_run defs (onTc (τ := τ) (main (F := F))) ⟨m, fun _ => 0, ρ⟩ (fun r => ∀ c : Dev nD,
      r.2.mem ((c.tc : Thread nD τ).loc main_v92) = W14 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v92 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.ValueRun

end
-- ==== Proof.Stages.lean ====
/-
  The host-side stages of the three-layer graph network, each as one function of the arrays it reads.

  Both programs compute, around the dense layers, the same chain of array operations: the clamped in-degree of every
  node (a scatter-add of ones at the edge targets, at least one); the neighbour average (gather the source rows,
  scatter-add them at the targets, divide by the degree); the slice of layer k out of a stacked table; a layer as the
  host writes it (two products, the bias broadcast down the rows, the residual); the column mean and the biased
  column variance of a table; and the normalisation followed by the rectifier. `refOut` composes them three layers deep.
  The terms are the operations in program order, so that reading either program's buffers gives them back verbatim.
-/
import proofs.«146949_j14173392077064_1_alg».proof.Proof.Gen.ReferenceIdeal

noncomputable section

namespace Cert.SageStages

open Idealize.ShloMosaic Cert.ReferenceIdeal Cert.ReferenceIdeal.Facts₀

variable {F : FTy → Type} [FloatOps F]

/-- The in-degree of every node, at least one, as a column. -/
def degOf (dst : (⟨S800000, .i32⟩ : BufTy).Contents (Elt F)) : (⟨S50000x1, .f32⟩ : BufTy).Contents (Elt F) :=
  ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) dst) ((broadcastInDim S800000 ![] bcast_S_S800000 : (⟨S_, .f32⟩ : BufTy).Contents (Elt F) → (⟨S800000, .f32⟩ : BufTy).Contents (Elt F)) (constant (F := F) S_ .f32 0x3F800000#32))) ((broadcastInDim S50000 ![] bcast_S_S50000 : (⟨S_, .f32⟩ : BufTy).Contents (Elt F) → (⟨S50000, .f32⟩ : BufTy).Contents (Elt F)) (constant (F := F) S_ .f32 0x3F800000#32))))

/-- The neighbour average of the table `h` along the edges `src → dst`, given the degree column. -/
def aggOf (h : (⟨S50000x128, .f32⟩ : BufTy).Contents (Elt F)) (src dst : (⟨S800000, .i32⟩ : BufTy).Contents (Elt F)) (deg : (⟨S50000x1, .f32⟩ : BufTy).Contents (Elt F)) : (⟨S50000x128, .f32⟩ : BufTy).Contents (Elt F) :=
  ((Host.divf : (⟨S50000x128, .f32⟩ : BufTy).Contents (Elt F) → (⟨S50000x128, .f32⟩ : BufTy).Contents (Elt F) → (⟨S50000x128, .f32⟩ : BufTy).Contents (Elt F)) (((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) dst) (((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) h ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) (constantI S_ 32 50000#32))) src)))) ((broadcastInDim S50000x128 ![0, 1] bcast_S50000x1_S50000x128_0_1 : (⟨S50000x1, .f32⟩ : BufTy).Contents (Elt F) → (⟨S50000x128, .f32⟩ : BufTy).Contents (Elt F)) deg))

/-- Layer 0 / 1 / 2 of a stacked table of square matrices. -/
def wOf0 (W : (⟨S3x128x128, .f32⟩ : BufTy).Contents (Elt F)) : (⟨S128x128, .f32⟩ : BufTy).Contents (Elt F) :=
  (shapeCast S128x128 (((extractStridedSlice S1x128x128 ![0, 0, 0] · slices_S3x128x128_S1x128x128_0_0_0) : (⟨S3x128x128, .f32⟩ : BufTy).Contents (Elt F) → (⟨S1x128x128, .f32⟩ : BufTy).Contents (Elt F)) W) shapeCasts_S1x128x128_S128x128)
def wOf1 (W : (⟨S3x128x128, .f32⟩ : BufTy).Contents (Elt F)) : (⟨S128x128, .f32⟩ : BufTy).Contents (Elt F) :=
  (shapeCast S128x128 (((extractStridedSlice S1x128x128 ![1, 0, 0] · slices_S3x128x128_S1x128x128_1_0_0) : (⟨S3x128x128, .f32⟩ : BufTy).Contents (Elt F) → (⟨S1x128x128, .f32⟩ : BufTy).Contents (Elt F)) W) shapeCasts_S1x128x128_S128x128)
def wOf2 (W : (⟨S3x128x128, .f32⟩ : BufTy).Contents (Elt F)) : (⟨S128x128, .f32⟩ : BufTy).Contents (Elt F) :=
  (shapeCast S128x128 (((extractStridedSlice S1x128x128 ![2, 0, 0] · slices_S3x128x128_S1x128x128_2_0_0) : (⟨S3x128x128, .f32⟩ : BufTy).Contents (Elt F) → (⟨S1x128x128, .f32⟩ : BufTy).Contents (Elt F)) W) shapeCasts_S1x128x128_S128x128)

/-- Row 0 / 1 / 2 of a stacked table of bias rows, as a vector. -/
def bOf0 (b : (⟨S3x128, .f32⟩ : BufTy).Contents (Elt F)) : (⟨S128, .f32⟩ : BufTy).Contents (Elt F) :=
  (shapeCast S128 (((extractStridedSlice S1x128 ![0, 0] · slices_S3x128_S1x128_0_0) : (⟨S3x128, .f32⟩ : BufTy).Contents (Elt F) → (⟨S1x128, .f32⟩ : BufTy).Contents (Elt F)) b) shapeCasts_S1x128_S128)
def bOf1 (b : (⟨S3x128, .f32⟩ : BufTy).Contents (Elt F)) : (⟨S128, .f32⟩ : BufTy).Contents (Elt F) :=
  (shapeCast S128 (((extractStridedSlice S1x128 ![1, 0] · slices_S3x128_S1x128_1_0) : (⟨S3x128, .f32⟩ : BufTy).Contents (Elt F) → (⟨S1x128, .f32⟩ : BufTy).Contents (Elt F)) b) shapeCasts_S1x128_S128)
def bOf2 (b : (⟨S3x128, .f32⟩ : BufTy).Contents (Elt F)) : (⟨S128, .f32⟩ : BufTy).Contents (Elt F) :=
  (shapeCast S128 (((extractStridedSlice S1x128 ![2, 0] · slices_S3x128_S1x128_2_0) : (⟨S3x128, .f32⟩ : BufTy).Contents (Elt F) → (⟨S1x128, .f32⟩ : BufTy).Contents (Elt F)) b) shapeCasts_S1x128_S128)

/-- Row 0 / 1 of a two-row table (the scales, the shifts), as a vector. -/
def gOf0 (g : (⟨S2x128, .f32⟩ : BufTy).Contents (Elt F)) : (⟨S128, .f32⟩ : BufTy).Contents (Elt F) :=
  (shapeCast S128 (((extractStridedSlice S1x128 ![0, 0] · slices_S2x128_S1x128_0_0) : (⟨S2x128, .f32⟩ : BufTy).Contents (Elt F) → (⟨S1x128, .f32⟩ : BufTy).Contents (Elt F)) g) shapeCasts_S1x128_S128)
def gOf1 (g : (⟨S2x128, .f32⟩ : BufTy).Contents (Elt F)) : (⟨S128, .f32⟩ : BufTy).Contents (Elt F) :=
  (shapeCast S128 (((extractStridedSlice S1x128 ![1, 0] · slices_S2x128_S1x128_1_0) : (⟨S2x128, .f32⟩ : BufTy).Contents (Elt F) → (⟨S1x128, .f32⟩ : BufTy).Contents (Elt F)) g) shapeCasts_S1x128_S128)

/-- A layer as the host writes it: both products, the bias vector broadcast down the rows, the residual. -/
def layerRef (h agg : (⟨S50000x128, .f32⟩ : BufTy).Contents (Elt F)) (w wn : (⟨S128x128, .f32⟩ : BufTy).Contents (Elt F)) (b1 : (⟨S128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) h w) (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) agg wn)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) b1))) h)

/-- The column mean of a table. -/
def meanOf (raw : (⟨S50000x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) raw (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x47435000#32)))

/-- The biased column variance of a table (the mean of the squared deviations from the column mean). -/
def varOf (raw : (⟨S50000x128, .f32⟩ : BufTy).Contents (Elt F)) : (⟨S128, .f32⟩ : BufTy).Contents (Elt F) :=
  (((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant (F := F) S_ .f32 0x47435000#32) : (⟨S_, .f32⟩ : BufTy).Contents (Elt F)) (((sitofp .f32) : (⟨S_, .i32⟩ : BufTy).Contents (Elt F) → (⟨S_, .f32⟩ : BufTy).Contents (Elt F)) (constantI S_ 32 0#32))) ((constant (F := F) S_ .f32 0x00000000#32) : (⟨S_, .f32⟩ : BufTy).Contents (Elt F))) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) raw (((broadcastInDim S50000x128 ![0, 1] bcast_S1x128_S50000x128_0_1) : (⟨S1x128, .f32⟩ : BufTy).Contents (Elt F) → (⟨S50000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) raw ((constant (F := F) S_ .f32 0x00000000#32) : (⟨S_, .f32⟩ : BufTy).Contents (Elt F)))) (((broadcastInDim S1x128 ![] bcast_S_S1x128) : (⟨S_, .f32⟩ : BufTy).Contents (Elt F) → (⟨S1x128, .f32⟩ : BufTy).Contents (Elt F)) ((constant (F := F) S_ .f32 0x47435000#32) : (⟨S_, .f32⟩ : BufTy).Contents (Elt F)))))) ((subf : (⟨S50000x128, .f32⟩ : BufTy).Contents (Elt F) → (⟨S50000x128, .f32⟩ : BufTy).Contents (Elt F) → (⟨S50000x128, .f32⟩ : BufTy).Contents (Elt F)) raw (((broadcastInDim S50000x128 ![0, 1] bcast_S1x128_S50000x128_0_1) : (⟨S1x128, .f32⟩ : BufTy).Contents (Elt F) → (⟨S50000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) raw ((constant (F := F) S_ .f32 0x00000000#32) : (⟨S_, .f32⟩ : BufTy).Contents (Elt F)))) (((broadcastInDim S1x128 ![] bcast_S_S1x128) : (⟨S_, .f32⟩ : BufTy).Contents (Elt F) → (⟨S1x128, .f32⟩ : BufTy).Contents (Elt F)) ((constant (F := F) S_ .f32 0x47435000#32) : (⟨S_, .f32⟩ : BufTy).Contents (Elt F))))))) ((constant (F := F) S_ .f32 0x00000000#32) : (⟨S_, .f32⟩ : BufTy).Contents (Elt F))) (((broadcastInDim S128 ![] bcast_S_S128) : (⟨S_, .f32⟩ : BufTy).Contents (Elt F) → (⟨S128, .f32⟩ : BufTy).Contents (Elt F)) ((subf : (⟨S_, .f32⟩ : BufTy).Contents (Elt F) → (⟨S_, .f32⟩ : BufTy).Contents (Elt F) → (⟨S_, .f32⟩ : BufTy).Contents (Elt F)) ((constant (F := F) S_ .f32 0x47435000#32) : (⟨S_, .f32⟩ : BufTy).Contents (Elt F)) (((sitofp .f32) : (⟨S_, .i32⟩ : BufTy).Contents (Elt F) → (⟨S_, .f32⟩ : BufTy).Contents (Elt F)) (constantI S_ 32 0#32))))) (((broadcastInDim S128 ![] bcast_S_S128) : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) ((constant (F := F) S_ .f32 0x7FC00000#32) : (⟨S_, .f32⟩ : BufTy).Contents (Elt F)))))

/-- The normalisation with scale and shift, then the rectifier, as the host writes it. -/
def normRef (raw : (⟨S50000x128, .f32⟩ : BufTy).Contents (Elt F)) (mu var g1 be1 : (⟨S128, .f32⟩ : BufTy).Contents (Elt F)) : (⟨S50000x128, .f32⟩ : BufTy).Contents (Elt F) :=
  ((maximumf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) raw ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) mu))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) var ((broadcastInDim S128 ![] bcast_S_S128 : (⟨S_, .f32⟩ : BufTy).Contents (Elt F) → (⟨S128, .f32⟩ : BufTy).Contents (Elt F)) (constant (F := F) S_ .f32 0x3727C5AC#32))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) g1))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) be1))) (((broadcastInDim S50000x128 ![] bcast_S_S50000x128) : (⟨S_, .f32⟩ : BufTy).Contents (Elt F) → (⟨S50000x128, .f32⟩ : BufTy).Contents (Elt F)) ((constant (F := F) S_ .f32 0x00000000#32) : (⟨S_, .f32⟩ : BufTy).Contents (Elt F))))

/-- One hidden layer: the dense layer, then its normalisation by its own column statistics. -/
def hidden (h : (⟨S50000x128, .f32⟩ : BufTy).Contents (Elt F)) (src dst : (⟨S800000, .i32⟩ : BufTy).Contents (Elt F)) (w wn : (⟨S128x128, .f32⟩ : BufTy).Contents (Elt F)) (b1 g1 be1 : (⟨S128, .f32⟩ : BufTy).Contents (Elt F)) : (⟨S50000x128, .f32⟩ : BufTy).Contents (Elt F) :=
  normRef (layerRef h (aggOf h src dst (degOf dst)) w wn b1) (meanOf (layerRef h (aggOf h src dst (degOf dst)) w wn b1))
    (varOf (layerRef h (aggOf h src dst (degOf dst)) w wn b1)) g1 be1

/-- The whole network: two hidden layers and a last dense layer. -/
def refOut (feat : (⟨S50000x128, .f32⟩ : BufTy).Contents (Elt F)) (src dst : (⟨S800000, .i32⟩ : BufTy).Contents (Elt F)) (Ws Wn : (⟨S3x128x128, .f32⟩ : BufTy).Contents (Elt F)) (b : (⟨S3x128, .f32⟩ : BufTy).Contents (Elt F)) (gamma beta : (⟨S2x128, .f32⟩ : BufTy).Contents (Elt F)) : (⟨S50000x128, .f32⟩ : BufTy).Contents (Elt F) :=
  layerRef (hidden (hidden feat src dst (wOf0 Ws) (wOf0 Wn) (bOf0 b) (gOf0 gamma) (gOf0 beta)) src dst (wOf1 Ws) (wOf1 Wn) (bOf1 b) (gOf1 gamma) (gOf1 beta))
    (aggOf (hidden (hidden feat src dst (wOf0 Ws) (wOf0 Wn) (bOf0 b) (gOf0 gamma) (gOf0 beta)) src dst (wOf1 Ws) (wOf1 Wn) (bOf1 b) (gOf1 gamma) (gOf1 beta)) src dst (degOf dst))
    (wOf2 Ws) (wOf2 Wn) (bOf2 b)

end Cert.SageStages

end
-- ==== Proof.KHost0.lean ====
/-
  The host operations before the first layer's launch, read at the buffers that launch stages.

  From any contents `W` of the buffers, after the stretch: the neighbour-average buffer holds the average of the node
  table along the edges (with the clamped in-degree column the same stretch computes), the two weight buffers hold
  layer 0 of the stacked tables, the bias buffer holds row 0 of the bias table as a one-row matrix, the degree buffer
  holds the degree column, and a buffer the stretch does not write holds what it held.
-/
import proofs.«146949_j14173392077064_1_alg».proof.Proof.Gen.KernelIdeal.Launch
import proofs.«146949_j14173392077064_1_alg».proof.Proof.Stages
import Idealize.ShloMosaic.Lib.StableHlo.Run

set_option maxRecDepth 16384

noncomputable section

namespace Cert.KernelIdeal.HostRead

open Cert.KernelIdeal Cert.KernelIdeal.Gen
open Idealize.ShloMosaic Idealize.ShloMosaic.StableHlo Idealize.ShloMosaic.TcCoe Idealize.SL.Sem

variable {F : FTy → Type} [FloatOps F]

/-- The buffers the stretch `hostOps0` writes. -/
abbrev hostOps0_W : List (Ref sig .tc) := [main_cst, main_v0, main_cst_0, main_v1, main_v2, main_v3, main_cst_1, main_v4, main_v5, main_v6, main_c, main_v7, main_v8, main_c_2, main_v9, main_v10, main_v11, main_v12, main_v13, main_cst_3, main_v14, main_v15, main_v16, main_v17, main_v18, main_v19, main_v20, main_v21, main_v22, main_v23, main_v24, main_v25]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem hostOps0_keep (W : Valuation τ sig (Elt F)) (r : Ref sig .tc) (h : r ∉ hostOps0_W) :
    after hostOps0 W (Proc.devRef .tc r) = W (Proc.devRef .tc r) :=
  after_of_writes_sub hostOps0 W hostOps0_writes h

/-- The degree column. -/
theorem read0_deg (W : Valuation τ sig (Elt F)) :
    after hostOps0 W (Proc.devRef .tc main_v6 : DevRef τ sig) = Cert.SageStages.degOf (W (Proc.devRef .tc main_arg2 : DevRef τ sig)) := by
  after_results_simp
  rfl
/-- The neighbour average of the input table. -/
theorem read0_agg (W : Valuation τ sig (Elt F)) :
    after hostOps0 W (Proc.devRef .tc main_v18 : DevRef τ sig) = Cert.SageStages.aggOf (W (Proc.devRef .tc main_arg0 : DevRef τ sig)) (W (Proc.devRef .tc main_arg1 : DevRef τ sig)) (W (Proc.devRef .tc main_arg2 : DevRef τ sig)) (Cert.SageStages.degOf (W (Proc.devRef .tc main_arg2 : DevRef τ sig))) := by
  after_results_simp
  rfl
/-- Layer 0 of the self weights. -/
theorem read0_w (W : Valuation τ sig (Elt F)) :
    after hostOps0 W (Proc.devRef .tc main_v20 : DevRef τ sig) = Cert.SageStages.wOf0 (W (Proc.devRef .tc main_arg3 : DevRef τ sig)) := by
  after_results_simp
  rfl
/-- Layer 0 of the neighbour weights. -/
theorem read0_wn (W : Valuation τ sig (Elt F)) :
    after hostOps0 W (Proc.devRef .tc main_v22 : DevRef τ sig) = Cert.SageStages.wOf0 (W (Proc.devRef .tc main_arg4 : DevRef τ sig)) := by
  after_results_simp
  rfl
/-- Row 0 of the biases, as a one-row matrix. -/
theorem read0_b (W : Valuation τ sig (Elt F)) :
    after hostOps0 W (Proc.devRef .tc main_v25 : DevRef τ sig) = shapeCast S1x128 (Cert.SageStages.bOf0 (W (Proc.devRef .tc main_arg5 : DevRef τ sig))) Gen.shapeCasts_S128_S1x128 := by
  after_results_simp
  rfl

end Cert.KernelIdeal.HostRead

end
-- ==== Proof.KHost1.lean ====
/-
  The host operations between a layer's launch and its normalisation's launch, read at the buffers the
  normalisation stages.

  From any contents `W` of the buffers, after the three stretches (the column sums and the mean; the variance, a
  module-local function's operations in line; the slices and the one-row casts): the four statistic buffers hold, as
  one-row matrices, the column mean and the biased column variance of the layer's output and row 0 of the scale and
  shift tables; a buffer none of the stretches writes holds what it held.
-/
import proofs.«146949_j14173392077064_1_alg».proof.Proof.Gen.KernelIdeal.Launch
import proofs.«146949_j14173392077064_1_alg».proof.Proof.Stages
import Idealize.ShloMosaic.Lib.StableHlo.Run

set_option maxRecDepth 16384

noncomputable section

namespace Cert.KernelIdeal.HostRead

open Cert.KernelIdeal Cert.KernelIdeal.Gen
open Idealize.ShloMosaic Idealize.ShloMosaic.StableHlo Idealize.ShloMosaic.TcCoe Idealize.SL.Sem

variable {F : FTy → Type} [FloatOps F]

/-- The buffers the stretch `hostOps1` writes. -/
abbrev hostOps1_W : List (Ref sig .tc) := [main_cst_4, main_v27, main_cst_5, main_v28, main_v29, main_c_6]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem hostOps1_keep (W : Valuation τ sig (Elt F)) (r : Ref sig .tc) (h : r ∉ hostOps1_W) :
    after hostOps1 W (Proc.devRef .tc r) = W (Proc.devRef .tc r) :=
  after_of_writes_sub hostOps1 W hostOps1_writes h
/-- The buffers the stretch `hostOps1_1` writes. -/
abbrev hostOps1_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem hostOps1_1_keep (W : Valuation τ sig (Elt F)) (r : Ref sig .tc) (h : r ∉ hostOps1_1_W) :
    after hostOps1_1 W (Proc.devRef .tc r) = W (Proc.devRef .tc r) :=
  after_of_writes_sub hostOps1_1 W hostOps1_1_writes h
/-- The buffers the stretch `hostOps1_2` writes. -/
abbrev hostOps1_2_W : List (Ref sig .tc) := [main_v31, main_v32, main_v33, main_v34, main_v35, main_v36, main_v37, main_v38]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem hostOps1_2_keep (W : Valuation τ sig (Elt F)) (r : Ref sig .tc) (h : r ∉ hostOps1_2_W) :
    after hostOps1_2 W (Proc.devRef .tc r) = W (Proc.devRef .tc r) :=
  after_of_writes_sub hostOps1_2 W hostOps1_2_writes h
/-- A buffer none of the three stretches writes keeps its contents through them. -/
theorem keepN0 (W : Valuation τ sig (Elt F)) (r : Ref sig .tc) (h1 : r ∉ hostOps1_W) (h2 : r ∉ hostOps1_1_W) (h3 : r ∉ hostOps1_2_W) :
    after hostOps1_2 (after hostOps1_1 (after hostOps1 W)) (Proc.devRef .tc r) = W (Proc.devRef .tc r) :=
  (hostOps1_2_keep _ r h3).trans ((hostOps1_1_keep _ r h2).trans (hostOps1_keep _ r h1))
/-- The column mean, as a one-row matrix. -/
theorem readN0_mean (W : Valuation τ sig (Elt F)) :
    after hostOps1_2 (after hostOps1_1 (after hostOps1 W)) (Proc.devRef .tc main_v35 : DevRef τ sig) = shapeCast S1x128 (Cert.SageStages.meanOf (W (Proc.devRef .tc main_v26 : DevRef τ sig))) Gen.shapeCasts_S128_S1x128 := by
  after_results_simp
  rfl
/-- The biased column variance, as a one-row matrix. -/
theorem readN0_var (W : Valuation τ sig (Elt F)) :
    after hostOps1_2 (after hostOps1_1 (after hostOps1 W)) (Proc.devRef .tc main_v36 : DevRef τ sig) = shapeCast S1x128 (Cert.SageStages.varOf (W (Proc.devRef .tc main_v26 : DevRef τ sig))) Gen.shapeCasts_S128_S1x128 := by
  after_results_simp
  rfl
/-- Row 0 of the scales, as a one-row matrix. -/
theorem readN0_gamma (W : Valuation τ sig (Elt F)) :
    after hostOps1_2 (after hostOps1_1 (after hostOps1 W)) (Proc.devRef .tc main_v37 : DevRef τ sig) = shapeCast S1x128 (Cert.SageStages.gOf0 (W (Proc.devRef .tc main_arg6 : DevRef τ sig))) Gen.shapeCasts_S128_S1x128 := by
  after_results_simp
  rfl
/-- Row 0 of the shifts, as a one-row matrix. -/
theorem readN0_beta (W : Valuation τ sig (Elt F)) :
    after hostOps1_2 (after hostOps1_1 (after hostOps1 W)) (Proc.devRef .tc main_v38 : DevRef τ sig) = shapeCast S1x128 (Cert.SageStages.gOf0 (W (Proc.devRef .tc main_arg7 : DevRef τ sig))) Gen.shapeCasts_S128_S1x128 := by
  after_results_simp
  rfl

end Cert.KernelIdeal.HostRead

end
-- ==== Proof.KHost2.lean ====
/-
  The host operations between a normalisation's launch and the next layer's launch, read at the buffers that
  layer stages.

  From any contents `W` of the buffers, after the stretch: the neighbour-average buffer holds the average of the
  hidden table along the edges, divided by the degree column an earlier stretch left; the two weight buffers hold
  layer 1 of the stacked tables; the bias buffer holds row 1 of the bias table as a one-row matrix; a buffer the
  stretch does not write holds what it held.
-/
import proofs.«146949_j14173392077064_1_alg».proof.Proof.Gen.KernelIdeal.Launch
import proofs.«146949_j14173392077064_1_alg».proof.Proof.Stages
import Idealize.ShloMosaic.Lib.StableHlo.Run

set_option maxRecDepth 16384

noncomputable section

namespace Cert.KernelIdeal.HostRead

open Cert.KernelIdeal Cert.KernelIdeal.Gen
open Idealize.ShloMosaic Idealize.ShloMosaic.StableHlo Idealize.ShloMosaic.TcCoe Idealize.SL.Sem

variable {F : FTy → Type} [FloatOps F]

/-- The buffers the stretch `hostOps2` writes. -/
abbrev hostOps2_W : List (Ref sig .tc) := [main_c_7, main_v40, main_v41, main_c_8, main_v42, main_v43, main_v44, main_v45, main_v46, main_cst_9, main_v47, main_v48, main_v49, main_v50, main_v51, main_v52, main_v53, main_v54, main_v55, main_v56, main_v57, main_v58]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem hostOps2_keep (W : Valuation τ sig (Elt F)) (r : Ref sig .tc) (h : r ∉ hostOps2_W) :
    after hostOps2 W (Proc.devRef .tc r) = W (Proc.devRef .tc r) :=
  after_of_writes_sub hostOps2 W hostOps2_writes h
/-- The neighbour average of the hidden table. -/
theorem readL1_agg (W : Valuation τ sig (Elt F)) :
    after hostOps2 W (Proc.devRef .tc main_v51 : DevRef τ sig) = Cert.SageStages.aggOf (W (Proc.devRef .tc main_v39 : DevRef τ sig)) (W (Proc.devRef .tc main_arg1 : DevRef τ sig)) (W (Proc.devRef .tc main_arg2 : DevRef τ sig)) (W (Proc.devRef .tc main_v6 : DevRef τ sig)) := by
  after_results_simp
  rfl
/-- Layer 1 of the self weights. -/
theorem readL1_w (W : Valuation τ sig (Elt F)) :
    after hostOps2 W (Proc.devRef .tc main_v53 : DevRef τ sig) = Cert.SageStages.wOf1 (W (Proc.devRef .tc main_arg3 : DevRef τ sig)) := by
  after_results_simp
  rfl
/-- Layer 1 of the neighbour weights. -/
theorem readL1_wn (W : Valuation τ sig (Elt F)) :
    after hostOps2 W (Proc.devRef .tc main_v55 : DevRef τ sig) = Cert.SageStages.wOf1 (W (Proc.devRef .tc main_arg4 : DevRef τ sig)) := by
  after_results_simp
  rfl
/-- Row 1 of the biases, as a one-row matrix. -/
theorem readL1_b (W : Valuation τ sig (Elt F)) :
    after hostOps2 W (Proc.devRef .tc main_v58 : DevRef τ sig) = shapeCast S1x128 (Cert.SageStages.bOf1 (W (Proc.devRef .tc main_arg5 : DevRef τ sig))) Gen.shapeCasts_S128_S1x128 := by
  after_results_simp
  rfl

end Cert.KernelIdeal.HostRead

end
-- ==== Proof.KHost3.lean ====
/-
  The host operations between a layer's launch and its normalisation's launch, read at the buffers the
  normalisation stages.

  From any contents `W` of the buffers, after the three stretches (the column sums and the mean; the variance, a
  module-local function's operations in line; the slices and the one-row casts): the four statistic buffers hold, as
  one-row matrices, the column mean and the biased column variance of the layer's output and row 1 of the scale and
  shift tables; a buffer none of the stretches writes holds what it held.
-/
import proofs.«146949_j14173392077064_1_alg».proof.Proof.Gen.KernelIdeal.Launch
import proofs.«146949_j14173392077064_1_alg».proof.Proof.Stages
import Idealize.ShloMosaic.Lib.StableHlo.Run

set_option maxRecDepth 16384

noncomputable section

namespace Cert.KernelIdeal.HostRead

open Cert.KernelIdeal Cert.KernelIdeal.Gen
open Idealize.ShloMosaic Idealize.ShloMosaic.StableHlo Idealize.ShloMosaic.TcCoe Idealize.SL.Sem

variable {F : FTy → Type} [FloatOps F]

/-- The buffers the stretch `hostOps3` writes. -/
abbrev hostOps3_W : List (Ref sig .tc) := [main_cst_10, main_v60, main_cst_11, main_v61, main_v62, main_c_12]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem hostOps3_keep (W : Valuation τ sig (Elt F)) (r : Ref sig .tc) (h : r ∉ hostOps3_W) :
    after hostOps3 W (Proc.devRef .tc r) = W (Proc.devRef .tc r) :=
  after_of_writes_sub hostOps3 W hostOps3_writes h
/-- The buffers the stretch `hostOps3_1` writes. -/
abbrev hostOps3_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v63]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem hostOps3_1_keep (W : Valuation τ sig (Elt F)) (r : Ref sig .tc) (h : r ∉ hostOps3_1_W) :
    after hostOps3_1 W (Proc.devRef .tc r) = W (Proc.devRef .tc r) :=
  after_of_writes_sub hostOps3_1 W hostOps3_1_writes h
/-- The buffers the stretch `hostOps3_2` writes. -/
abbrev hostOps3_2_W : List (Ref sig .tc) := [main_v64, main_v65, main_v66, main_v67, main_v68, main_v69, main_v70, main_v71]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem hostOps3_2_keep (W : Valuation τ sig (Elt F)) (r : Ref sig .tc) (h : r ∉ hostOps3_2_W) :
    after hostOps3_2 W (Proc.devRef .tc r) = W (Proc.devRef .tc r) :=
  after_of_writes_sub hostOps3_2 W hostOps3_2_writes h
/-- A buffer none of the three stretches writes keeps its contents through them. -/
theorem keepN1 (W : Valuation τ sig (Elt F)) (r : Ref sig .tc) (h1 : r ∉ hostOps3_W) (h2 : r ∉ hostOps3_1_W) (h3 : r ∉ hostOps3_2_W) :
    after hostOps3_2 (after hostOps3_1 (after hostOps3 W)) (Proc.devRef .tc r) = W (Proc.devRef .tc r) :=
  (hostOps3_2_keep _ r h3).trans ((hostOps3_1_keep _ r h2).trans (hostOps3_keep _ r h1))
/-- The column mean, as a one-row matrix. -/
theorem readN1_mean (W : Valuation τ sig (Elt F)) :
    after hostOps3_2 (after hostOps3_1 (after hostOps3 W)) (Proc.devRef .tc main_v68 : DevRef τ sig) = shapeCast S1x128 (Cert.SageStages.meanOf (W (Proc.devRef .tc main_v59 : DevRef τ sig))) Gen.shapeCasts_S128_S1x128 := by
  after_results_simp
  rfl
/-- The biased column variance, as a one-row matrix. -/
theorem readN1_var (W : Valuation τ sig (Elt F)) :
    after hostOps3_2 (after hostOps3_1 (after hostOps3 W)) (Proc.devRef .tc main_v69 : DevRef τ sig) = shapeCast S1x128 (Cert.SageStages.varOf (W (Proc.devRef .tc main_v59 : DevRef τ sig))) Gen.shapeCasts_S128_S1x128 := by
  after_results_simp
  rfl
/-- Row 1 of the scales, as a one-row matrix. -/
theorem readN1_gamma (W : Valuation τ sig (Elt F)) :
    after hostOps3_2 (after hostOps3_1 (after hostOps3 W)) (Proc.devRef .tc main_v70 : DevRef τ sig) = shapeCast S1x128 (Cert.SageStages.gOf1 (W (Proc.devRef .tc main_arg6 : DevRef τ sig))) Gen.shapeCasts_S128_S1x128 := by
  after_results_simp
  rfl
/-- Row 1 of the shifts, as a one-row matrix. -/
theorem readN1_beta (W : Valuation τ sig (Elt F)) :
    after hostOps3_2 (after hostOps3_1 (after hostOps3 W)) (Proc.devRef .tc main_v71 : DevRef τ sig) = shapeCast S1x128 (Cert.SageStages.gOf1 (W (Proc.devRef .tc main_arg7 : DevRef τ sig))) Gen.shapeCasts_S128_S1x128 := by
  after_results_simp
  rfl

end Cert.KernelIdeal.HostRead

end
-- ==== Proof.KHost4.lean ====
/-
  The host operations between a normalisation's launch and the next layer's launch, read at the buffers that
  layer stages.

  From any contents `W` of the buffers, after the stretch: the neighbour-average buffer holds the average of the
  hidden table along the edges, divided by the degree column an earlier stretch left; the two weight buffers hold
  layer 2 of the stacked tables; the bias buffer holds row 2 of the bias table as a one-row matrix; a buffer the
  stretch does not write holds what it held.
-/
import proofs.«146949_j14173392077064_1_alg».proof.Proof.Gen.KernelIdeal.Launch
import proofs.«146949_j14173392077064_1_alg».proof.Proof.Stages
import Idealize.ShloMosaic.Lib.StableHlo.Run

set_option maxRecDepth 16384

noncomputable section

namespace Cert.KernelIdeal.HostRead

open Cert.KernelIdeal Cert.KernelIdeal.Gen
open Idealize.ShloMosaic Idealize.ShloMosaic.StableHlo Idealize.ShloMosaic.TcCoe Idealize.SL.Sem

variable {F : FTy → Type} [FloatOps F]

/-- The buffers the stretch `hostOps4` writes. -/
abbrev hostOps4_W : List (Ref sig .tc) := [main_c_13, main_v73, main_v74, main_c_14, main_v75, main_v76, main_v77, main_v78, main_v79, main_cst_15, main_v80, main_v81, main_v82, main_v83, main_v84, main_v85, main_v86, main_v87, main_v88, main_v89, main_v90, main_v91]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents through it. -/
theorem hostOps4_keep (W : Valuation τ sig (Elt F)) (r : Ref sig .tc) (h : r ∉ hostOps4_W) :
    after hostOps4 W (Proc.devRef .tc r) = W (Proc.devRef .tc r) :=
  after_of_writes_sub hostOps4 W hostOps4_writes h
/-- The neighbour average of the hidden table. -/
theorem readL2_agg (W : Valuation τ sig (Elt F)) :
    after hostOps4 W (Proc.devRef .tc main_v84 : DevRef τ sig) = Cert.SageStages.aggOf (W (Proc.devRef .tc main_v72 : DevRef τ sig)) (W (Proc.devRef .tc main_arg1 : DevRef τ sig)) (W (Proc.devRef .tc main_arg2 : DevRef τ sig)) (W (Proc.devRef .tc main_v6 : DevRef τ sig)) := by
  after_results_simp
  rfl
/-- Layer 2 of the self weights. -/
theorem readL2_w (W : Valuation τ sig (Elt F)) :
    after hostOps4 W (Proc.devRef .tc main_v86 : DevRef τ sig) = Cert.SageStages.wOf2 (W (Proc.devRef .tc main_arg3 : DevRef τ sig)) := by
  after_results_simp
  rfl
/-- Layer 2 of the neighbour weights. -/
theorem readL2_wn (W : Valuation τ sig (Elt F)) :
    after hostOps4 W (Proc.devRef .tc main_v88 : DevRef τ sig) = Cert.SageStages.wOf2 (W (Proc.devRef .tc main_arg4 : DevRef τ sig)) := by
  after_results_simp
  rfl
/-- Row 2 of the biases, as a one-row matrix. -/
theorem readL2_b (W : Valuation τ sig (Elt F)) :
    after hostOps4 W (Proc.devRef .tc main_v91 : DevRef τ sig) = shapeCast S1x128 (Cert.SageStages.bOf2 (W (Proc.devRef .tc main_arg5 : DevRef τ sig))) Gen.shapeCasts_S128_S1x128 := by
  after_results_simp
  rfl

end Cert.KernelIdeal.HostRead

end
-- ==== Proof.Spec.lean ====
/-
  The two point-wise formulas of a graph layer with a residual and a batch normalisation, over the extended reals.

  A layer sends row `p` of the node table `h` and of the neighbour average `agg` to
  `((∑ k, h[p,k]·w[k,j]) + (∑ k, agg[p,k]·wn[k,j]) + bias[0,j]) + h[p,j]`; the normalisation sends an entry to
  `max (((x − mean[0,j]) · rsqrt (var[0,j] + ε)) · γ[0,j] + β[0,j]) 0`. Both are stated at explicit coordinates
  (`layerAt`, `normAt`) and as whole arrays read at their two coordinates (`layerAll`, `normAll`), so one
  statement serves a block of rows and the whole table alike.
-/
import Idealize.ShloMosaic.PureOps.Ideal
import Idealize.ShloMosaic.Lib.ValueIdx

noncomputable section

namespace Cert.SageSpec

open Idealize.ShloMosaic Idealize.ShloMosaic.ValueIdx

/-- Entry `(p, j)` of a layer: both products, the bias row, and the residual. -/
def layerAt {a : ℕ} (h agg : (⟨2, ![a, 128]⟩ : Shape).Idx → EReal) (w wn : (⟨2, ![128, 128]⟩ : Shape).Idx → EReal)
    (bias : (⟨2, ![1, 128]⟩ : Shape).Idx → EReal) (p : Fin a) (j : Fin 128) : EReal :=
  (((∑ k : Fin 128, h (ix2 p k) * w (ix2 k j)) + (∑ k : Fin 128, agg (ix2 p k) * wn (ix2 k j))) + bias (ix2 (0 : Fin 1) j))
    + h (ix2 p j)

/-- The layer as a whole array. -/
def layerAll {a : ℕ} (h agg : (⟨2, ![a, 128]⟩ : Shape).Idx → EReal) (w wn : (⟨2, ![128, 128]⟩ : Shape).Idx → EReal)
    (bias : (⟨2, ![1, 128]⟩ : Shape).Idx → EReal) : (⟨2, ![a, 128]⟩ : Shape).Idx → EReal :=
  fun i => layerAt h agg w wn bias (i 0) (i 1)

theorem layerAll_ix2 {a : ℕ} (h agg : (⟨2, ![a, 128]⟩ : Shape).Idx → EReal) (w wn : (⟨2, ![128, 128]⟩ : Shape).Idx → EReal)
    (bias : (⟨2, ![1, 128]⟩ : Shape).Idx → EReal) (p : Fin a) (j : Fin 128) :
    layerAll h agg w wn bias (ix2 p j) = layerAt h agg w wn bias p j := rfl

/-- The variance offset, as the bit pattern both programs carry. -/
def eps : EReal := Ideal.ofBits .f32 0x3727C5AC#32

/-- The rectifier's threshold: the zero word. -/
def zero : EReal := Ideal.ofBits .f32 0x00000000#32

/-- Entry `(p, j)` of the normalisation followed by the rectifier. -/
def normAt {a : ℕ} (x : (⟨2, ![a, 128]⟩ : Shape).Idx → EReal) (mean var gamma beta : (⟨2, ![1, 128]⟩ : Shape).Idx → EReal)
    (p : Fin a) (j : Fin 128) : EReal :=
  max ((((x (ix2 p j) - mean (ix2 (0 : Fin 1) j)) * Ideal.rsqrt (var (ix2 (0 : Fin 1) j) + eps)) * gamma (ix2 (0 : Fin 1) j))
    + beta (ix2 (0 : Fin 1) j)) zero

/-- The normalisation as a whole array. -/
def normAll {a : ℕ} (x : (⟨2, ![a, 128]⟩ : Shape).Idx → EReal) (mean var gamma beta : (⟨2, ![1, 128]⟩ : Shape).Idx → EReal) :
    (⟨2, ![a, 128]⟩ : Shape).Idx → EReal :=
  fun i => normAt x mean var gamma beta (i 0) (i 1)

theorem normAll_ix2 {a : ℕ} (x : (⟨2, ![a, 128]⟩ : Shape).Idx → EReal) (mean var gamma beta : (⟨2, ![1, 128]⟩ : Shape).Idx → EReal)
    (p : Fin a) (j : Fin 128) : normAll x mean var gamma beta (ix2 p j) = normAt x mean var gamma beta p j := rfl

end Cert.SageSpec

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.RegionLayer0.lean ====
/-
  The output array of the first graph layer's region, over the extended reals.

  The region runs the layer's body at 25 points. Point `t` loads rows `2000 t … 2000 t + 1999` of the node table and
  of the neighbour average, the two weight matrices and the bias row, stores one block of 2000 rows, and that block
  is written back as rows `2000 t …` of the output. In order: the products' dimension numbers say "rows times
  columns" (`dotRows0`); the stored block entry by entry (`layerPay0`); the printed index maps over the grid
  (`idxFacts0`); each loaded block as rows of its array or as the whole array (`tile0_*`, `whole0_*`); the stored
  block as a block of the layer of the whole arrays (`layerTile0`, `outIdx0`, `flushed0_eq`); the blocks cover the
  output (`mem_blk0`, `cover0`); the output after the run is the layer of the arrays the region finds (`layer0`).
-/
import proofs.«146949_j14173392077064_1_alg».proof.Proof.Gen.KernelIdeal.Frame
import proofs.«146949_j14173392077064_1_alg».proof.Proof.Spec
import proofs.«146949_j14173392077064_1_alg».proof.Proof.LibRowLayers
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The dimension numbers of the layer's two products say "rows times columns": one contracted axis of extent 128,
    the left operand read at (row, position), the right one at (position, column). -/
theorem dotRows0 : Cert.RowLayers.RowsTimesCols dot_S2000x128_S128x128_S2000x128_1_0_0_1_n_n where
  rank := rfl
  size := rfl
  lhs0 := fun j q => rfl
  lhs1 := fun j q => DotDims.lhsIdx_val_of_single (d := dot_S2000x128_S128x128_S2000x128_1_0_0_1_n_n) (cl := 1) rfl j q
  rhs0 := fun j q => DotDims.rhsIdx_val_of_single (d := dot_S2000x128_S128x128_S2000x128_1_0_0_1_n_n) (cr := 0) rfl j q
  rhs1 := fun j q => rfl

/-- Entry `(p, j)` of what the layer's body stores, from the five blocks it loads: over the extended reals the two
    changes of float format are identities and each product into a zero accumulator is the plain sum of products,
    so the entry is both products, the bias row and the residual added in that order. -/
theorem layerPay0 (x0 x1 : Vec Ideal S2000x128 .f32) (x2 x3 : Vec Ideal S128x128 .f32) (x4 : Vec Ideal S1x128 .f32)
    (p : Fin 2000) (j : Fin 128) :
    k0_pay1 (F := Ideal) x0 x1 x2 x3 x4 (ix2 p j) = Cert.SageSpec.layerAt (a := 2000) x0 x1 x2 x3 x4 p j := by
  unfold k0_pay1
  simp only [shapeCast_self]
  have e1 := congrFun (Cert.RowLayers.rowOf_matmul_zero dotRows0 none
    (truncf .bf16 x0 bitsLt_bf16_f32 : FVec Ideal S2000x128 .bf16) (truncf .bf16 x2 bitsLt_bf16_f32 : FVec Ideal S128x128 .bf16) p) j
  have e2 := congrFun (Cert.RowLayers.rowOf_matmul_zero dotRows0 none
    (truncf .bf16 x1 bitsLt_bf16_f32 : FVec Ideal S2000x128 .bf16) (truncf .bf16 x3 bitsLt_bf16_f32 : FVec Ideal S128x128 .bf16) p) j
  have e3 := broadcastTo_1b_ab_apply (a := 2000) x4 broadcasts_S1x128_S2000x128 p j
  unfold Cert.SageSpec.layerAt
  exact congrArg₂ (· + ·) (congrArg₂ (· + ·) (congrArg₂ (· + ·) e1 e2) e3) rfl

theorem hz0 : (![0, 0] : Fin 2 → Nat) = fun _ => 0 := funext fun a => by fin_cases a <;> rfl

/-- The printed index maps, decided over the grid: the row-tiled windows sit at block `(t, 0)` at point `t`, the small
    whole-array windows at block `(0, 0)`. -/
theorem idxFacts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-- Row `p` of window 0's block at point `t` is row `t · 2000 + p` of its array. -/
theorem tile0_0 (V : (c : Dev nD) → (b : Ref sig .tc) → Buf (Elt Ideal) ((c : Thread nD τ).loc b)) (c : Dev nD) (t : Fin cfg0.N)
    (p : Fin 2000) (k : Fin 128) (P : Fin 50000) (hP : P.val = t.val * 2000 + p.val) :
    (iblk0 V c 0 t : Vec Ideal S2000x128 .f32) (ix2 p k) = (V c main_arg0 : Vec Ideal S50000x128 .f32) (ix2 P k) := by
  have hi := idxFacts0 t
  unfold iblk0
  rw [View.read_apply]
  show V c main_arg0 _ = V c main_arg0 _
  congr 1
  funext a
  apply Fin.ext
  match a with
  | ⟨0, _⟩ => show win0_0.index t (0 : Fin 2) * 2000 + 1 * p.val = P.val; omega
  | ⟨1, _⟩ => show win0_0.index t (1 : Fin 2) * 128 + 1 * k.val = k.val; omega

/-- Row `p` of window 1's block at point `t` is row `t · 2000 + p` of its array. -/
theorem tile0_1 (V : (c : Dev nD) → (b : Ref sig .tc) → Buf (Elt Ideal) ((c : Thread nD τ).loc b)) (c : Dev nD) (t : Fin cfg0.N)
    (p : Fin 2000) (k : Fin 128) (P : Fin 50000) (hP : P.val = t.val * 2000 + p.val) :
    (iblk0 V c 1 t : Vec Ideal S2000x128 .f32) (ix2 p k) = (V c main_v18 : Vec Ideal S50000x128 .f32) (ix2 P k) := by
  have hi := idxFacts0 t
  unfold iblk0
  rw [View.read_apply]
  show V c main_v18 _ = V c main_v18 _
  congr 1
  funext a
  apply Fin.ext
  match a with
  | ⟨0, _⟩ => show win0_1.index t (0 : Fin 2) * 2000 + 1 * p.val = P.val; omega
  | ⟨1, _⟩ => show win0_1.index t (1 : Fin 2) * 128 + 1 * k.val = k.val; omega

/-- Window 2's block at every point is its whole array. -/
theorem whole0_2 (V : (c : Dev nD) → (b : Ref sig .tc) → Buf (Elt Ideal) ((c : Thread nD τ).loc b)) (c : Dev nD) (t : Fin cfg0.N) :
    (iblk0 V c 2 t : Vec Ideal S128x128 .f32) = (V c main_v20 : Vec Ideal S128x128 .f32) := by
  have hi := idxFacts0 t
  funext y
  unfold iblk0
  rw [View.read_apply]
  show V c main_v20 _ = V c main_v20 _
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block at every point is its whole array. -/
theorem whole0_3 (V : (c : Dev nD) → (b : Ref sig .tc) → Buf (Elt Ideal) ((c : Thread nD τ).loc b)) (c : Dev nD) (t : Fin cfg0.N) :
    (iblk0 V c 3 t : Vec Ideal S128x128 .f32) = (V c main_v22 : Vec Ideal S128x128 .f32) := by
  have hi := idxFacts0 t
  funext y
  unfold iblk0
  rw [View.read_apply]
  show V c main_v22 _ = V c main_v22 _
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block at every point is its whole array. -/
theorem whole0_4 (V : (c : Dev nD) → (b : Ref sig .tc) → Buf (Elt Ideal) ((c : Thread nD τ).loc b)) (c : Dev nD) (t : Fin cfg0.N) :
    (iblk0 V c 4 t : Vec Ideal S1x128 .f32) = (V c main_v25 : Vec Ideal S1x128 .f32) := by
  have hi := idxFacts0 t
  funext y
  unfold iblk0
  rw [View.read_apply]
  show V c main_v25 _ = V c main_v25 _
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The body's payload on a tile of rows: if the two row blocks hold rows of `A0`, `A1` from row `P` on and the three
    small blocks are the whole arrays, entry `(p, j)` of the payload is entry `(P, j)` of the layer of the whole arrays. -/
theorem layerTile0 (A0 A1 : Vec Ideal S50000x128 .f32) (A2 A3 : Vec Ideal S128x128 .f32) (A4 : Vec Ideal S1x128 .f32)
    (x0 x1 : Vec Ideal S2000x128 .f32) (x2 x3 : Vec Ideal S128x128 .f32) (x4 : Vec Ideal S1x128 .f32)
    (p : Fin 2000) (j : Fin 128) (P : Fin 50000)
    (h0 : ∀ k : Fin 128, x0 (ix2 p k) = A0 (ix2 P k)) (h1 : ∀ k : Fin 128, x1 (ix2 p k) = A1 (ix2 P k))
    (h2 : x2 = A2) (h3 : x3 = A3) (h4 : x4 = A4) :
    k0_pay1 (F := Ideal) x0 x1 x2 x3 x4 (ix2 p j) = Cert.SageSpec.layerAll (a := 50000) A0 A1 A2 A3 A4 (ix2 P j) := by
  rw [layerPay0, Cert.SageSpec.layerAll_ix2]
  subst h2 h3 h4
  unfold Cert.SageSpec.layerAt
  rw [h0 j]
  refine congrArg₂ (· + ·) (congrArg₂ (· + ·) (congrArg₂ (· + ·) ?_ ?_) rfl) rfl
  · exact Finset.sum_congr rfl fun k _ => by rw [h0 k]
  · exact Finset.sum_congr rfl fun k _ => by rw [h1 k]

/-- Where an element of the output's block at point `t` sits in the array: row `t · 2000 + p`, the same column. -/
theorem outIdx0 (t : Fin cfg0.N) (p : Fin 2000) (j : Fin 128) (P : Fin 50000) (hP : P.val = t.val * 2000 + p.val) :
    ((cfg0.win 5).blk t).view.emb (ix2 p j) = (ix2 P j : S50000x128.Idx) := by
  have hi := idxFacts0 t
  funext a
  apply Fin.ext
  match a with
  | ⟨0, _⟩ => show win0_5.index t (0 : Fin 2) * 2000 + 1 * p.val = P.val; omega
  | ⟨1, _⟩ => show win0_5.index t (1 : Fin 2) * 128 + 1 * j.val = j.val; omega

/-- What point `t` writes back is block `t` of the layer of the arrays as the region finds them. -/
theorem flushed0_eq (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal) (Cert.SageSpec.layerAll (a := 50000) (V c main_arg0) (V c main_v18) (V c main_v20) (V c main_v22) (V c main_v25)) := by
  show (cfg0.win 5).cut (grid0.coords t) ((dat0 (F := Ideal) V c).after 5 t) = _
  rw [after0_5]
  unfold out0_5
  rw [View.canon_unit_zero hz0]
  simp only [View.ld_unit_zero (S := S2000x128) hz0, View.ld_unit_zero (S := S128x128) hz0, View.ld_unit_zero (S := S1x128) hz0]
  refine funext fun (y : S2000x128.Idx) => ?_
  obtain ⟨p, j, rfl⟩ : ∃ (p : Fin 2000) (j : Fin 128), y = ix2 p j := ⟨y 0, y 1, eq_ix2 y⟩
  have hN : cfg0.N = 25 := N_0
  obtain ⟨P, hP⟩ : ∃ P : Fin 50000, P.val = t.val * 2000 + p.val := ⟨⟨t.val * 2000 + p.val, by have := t.isLt; have := p.isLt; omega⟩, rfl⟩
  show k0_pay1 (F := Ideal) (iblk0 V c 0 t) (iblk0 V c 1 t) (iblk0 V c 2 t) (iblk0 V c 3 t) (iblk0 V c 4 t) (ix2 p j)
    = (Cert.SageSpec.layerAll (a := 50000) (V c main_arg0) (V c main_v18) (V c main_v20) (V c main_v22) (V c main_v25)) (((cfg0.win 5).blk t).view.emb (ix2 p j))
  rw [outIdx0 t p j P hP]
  exact layerTile0 (V c main_arg0) (V c main_v18) (V c main_v20) (V c main_v22) (V c main_v25)
    (iblk0 V c 0 t) (iblk0 V c 1 t) (iblk0 V c 2 t) (iblk0 V c 3 t) (iblk0 V c 4 t) p j P
    (fun k => tile0_0 V c t p k P hP) (fun k => tile0_1 V c t p k P hP) (whole0_2 V c t) (whole0_3 V c t) (whole0_4 V c t)

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Every index of the output array is in some point's block: row `r` is in the block of point `r / 2000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  have hi := idxFacts0 t
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the region's run is the layer of the arrays as the region finds them. -/
theorem layer0 (V : (c : Dev nD) → (b : Ref sig .tc) → Buf (Elt Ideal) ((c : Thread nD τ).loc b)) (c : Dev nD) :
    (dat0 (F := Ideal) V c).arrAt 5 cfg0.N
      = Cert.SageSpec.layerAll (a := 50000) (V c main_arg0) (V c main_v18) (V c main_v20) (V c main_v22) (V c main_v25) :=
  (dat0 (F := Ideal) V c).arrAt_eq_of_cover 5 (Cert.SageSpec.layerAll (a := 50000) (V c main_arg0) (V c main_v18) (V c main_v20) (V c main_v22) (V c main_v25))
    (fun t _ => flushed0_eq V c t) cover0

end Cert.KernelIdeal.RegionValue

end
-- ==== Proof.RegionNorm1.lean ====
/-
  The output array of the normalisation region after the first graph layer, over the extended reals.

  The region runs the normalisation's body at 25 points. Point `t` loads rows `2000 t … 2000 t + 1999` of the layer's
  result and the four `[1, 128]` rows (mean, variance, scale, shift), stores one block of 2000 rows, and that block
  is written back as rows `2000 t …` of the output. In order: the stored block entry by entry (`normPay1`); the
  printed index maps over the grid (`idxFacts1`); each loaded block as rows of its array or as the whole array
  (`tile1_0`, `whole1_*`); the stored block as a block of the normalisation of the whole arrays (`normTile1`,
  `outIdx1`, `flushed1_eq`); the blocks cover the output (`mem_blk1`, `cover1`); the output after the run is the
  normalisation of the arrays the region finds (`norm1`).
-/
import proofs.«146949_j14173392077064_1_alg».proof.Proof.Gen.KernelIdeal.Frame
import proofs.«146949_j14173392077064_1_alg».proof.Proof.Spec
import proofs.«146949_j14173392077064_1_alg».proof.Proof.LibRowLayers
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- Entry `(p, j)` of what the normalisation's body stores, from the five blocks it loads: the entry minus the mean,
    times the reciprocal square root of the variance plus the offset, times the scale, plus the shift, and the
    maximum of that with zero; the four `[1, 128]` rows are read at column `j` whatever the row `p`. -/
theorem normPay1 (x0 : Vec Ideal S2000x128 .f32) (x1 x2 x3 x4 : Vec Ideal S1x128 .f32) (p : Fin 2000) (j : Fin 128) :
    k1_pay1 (F := Ideal) x0 x1 x2 x3 x4 (ix2 p j) = Cert.SageSpec.normAt (a := 2000) x0 x1 x2 x3 x4 p j := by
  unfold k1_pay1
  simp only [shapeCast_self]
  have b1 := broadcastTo_1b_ab_apply (a := 2000) x1 broadcasts_S1x128_S2000x128 p j
  have b2 := broadcastTo_1b_ab_apply (a := 2000)
    (rsqrt (addf x2 (broadcast S1x128 (Scalar.ofBits (F := Ideal) .f32 0x3727C5AC#32))) : FVec Ideal S1x128 .f32) broadcasts_S1x128_S2000x128 p j
  have b3 := broadcastTo_1b_ab_apply (a := 2000) x3 broadcasts_S1x128_S2000x128 p j
  have b4 := broadcastTo_1b_ab_apply (a := 2000) x4 broadcasts_S1x128_S2000x128 p j
  unfold Cert.SageSpec.normAt
  exact congrArg₂ max (congrArg₂ (· + ·) (congrArg₂ (· * ·) (congrArg₂ (· * ·) (congrArg₂ (· - ·) rfl b1) b2) b3) b4) rfl

theorem hz1 : (![0, 0] : Fin 2 → Nat) = fun _ => 0 := funext fun a => by fin_cases a <;> rfl

/-- The printed index maps, decided over the grid: the row-tiled windows sit at block `(t, 0)` at point `t`, the small
    whole-array windows at block `(0, 0)`. -/
theorem idxFacts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Row `p` of window 0's block at point `t` is row `t · 2000 + p` of its array. -/
theorem tile1_0 (V : (c : Dev nD) → (b : Ref sig .tc) → Buf (Elt Ideal) ((c : Thread nD τ).loc b)) (c : Dev nD) (t : Fin cfg1.N)
    (p : Fin 2000) (k : Fin 128) (P : Fin 50000) (hP : P.val = t.val * 2000 + p.val) :
    (iblk1 V c 0 t : Vec Ideal S2000x128 .f32) (ix2 p k) = (V c main_v26 : Vec Ideal S50000x128 .f32) (ix2 P k) := by
  have hi := idxFacts1 t
  unfold iblk1
  rw [View.read_apply]
  show V c main_v26 _ = V c main_v26 _
  congr 1
  funext a
  apply Fin.ext
  match a with
  | ⟨0, _⟩ => show win1_0.index t (0 : Fin 2) * 2000 + 1 * p.val = P.val; omega
  | ⟨1, _⟩ => show win1_0.index t (1 : Fin 2) * 128 + 1 * k.val = k.val; omega

/-- Window 1's block at every point is its whole array. -/
theorem whole1_1 (V : (c : Dev nD) → (b : Ref sig .tc) → Buf (Elt Ideal) ((c : Thread nD τ).loc b)) (c : Dev nD) (t : Fin cfg1.N) :
    (iblk1 V c 1 t : Vec Ideal S1x128 .f32) = (V c main_v35 : Vec Ideal S1x128 .f32) := by
  have hi := idxFacts1 t
  funext y
  unfold iblk1
  rw [View.read_apply]
  show V c main_v35 _ = V c main_v35 _
  congr 1
  funext a
  apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Window 2's block at every point is its whole array. -/
theorem whole1_2 (V : (c : Dev nD) → (b : Ref sig .tc) → Buf (Elt Ideal) ((c : Thread nD τ).loc b)) (c : Dev nD) (t : Fin cfg1.N) :
    (iblk1 V c 2 t : Vec Ideal S1x128 .f32) = (V c main_v36 : Vec Ideal S1x128 .f32) := by
  have hi := idxFacts1 t
  funext y
  unfold iblk1
  rw [View.read_apply]
  show V c main_v36 _ = V c main_v36 _
  congr 1
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 3's block at every point is its whole array. -/
theorem whole1_3 (V : (c : Dev nD) → (b : Ref sig .tc) → Buf (Elt Ideal) ((c : Thread nD τ).loc b)) (c : Dev nD) (t : Fin cfg1.N) :
    (iblk1 V c 3 t : Vec Ideal S1x128 .f32) = (V c main_v37 : Vec Ideal S1x128 .f32) := by
  have hi := idxFacts1 t
  funext y
  unfold iblk1
  rw [View.read_apply]
  show V c main_v37 _ = V c main_v37 _
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block at every point is its whole array. -/
theorem whole1_4 (V : (c : Dev nD) → (b : Ref sig .tc) → Buf (Elt Ideal) ((c : Thread nD τ).loc b)) (c : Dev nD) (t : Fin cfg1.N) :
    (iblk1 V c 4 t : Vec Ideal S1x128 .f32) = (V c main_v38 : Vec Ideal S1x128 .f32) := by
  have hi := idxFacts1 t
  funext y
  unfold iblk1
  rw [View.read_apply]
  show V c main_v38 _ = V c main_v38 _
  congr 1
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The body's payload on a tile of rows: if the row block holds rows of `A0` from row `P` on and the four small blocks
    are the whole arrays, entry `(p, j)` of the payload is entry `(P, j)` of the normalisation of the whole arrays. -/
theorem normTile1 (A0 : Vec Ideal S50000x128 .f32) (A1 A2 A3 A4 : Vec Ideal S1x128 .f32)
    (x0 : Vec Ideal S2000x128 .f32) (x1 x2 x3 x4 : Vec Ideal S1x128 .f32)
    (p : Fin 2000) (j : Fin 128) (P : Fin 50000)
    (h0 : ∀ k : Fin 128, x0 (ix2 p k) = A0 (ix2 P k))
    (h1 : x1 = A1) (h2 : x2 = A2) (h3 : x3 = A3) (h4 : x4 = A4) :
    k1_pay1 (F := Ideal) x0 x1 x2 x3 x4 (ix2 p j) = Cert.SageSpec.normAll (a := 50000) A0 A1 A2 A3 A4 (ix2 P j) := by
  rw [normPay1, Cert.SageSpec.normAll_ix2]
  subst h1 h2 h3 h4
  unfold Cert.SageSpec.normAt
  rw [h0 j]

/-- Where an element of the output's block at point `t` sits in the array: row `t · 2000 + p`, the same column. -/
theorem outIdx1 (t : Fin cfg1.N) (p : Fin 2000) (j : Fin 128) (P : Fin 50000) (hP : P.val = t.val * 2000 + p.val) :
    ((cfg1.win 5).blk t).view.emb (ix2 p j) = (ix2 P j : S50000x128.Idx) := by
  have hi := idxFacts1 t
  funext a
  apply Fin.ext
  match a with
  | ⟨0, _⟩ => show win1_5.index t (0 : Fin 2) * 2000 + 1 * p.val = P.val; omega
  | ⟨1, _⟩ => show win1_5.index t (1 : Fin 2) * 128 + 1 * j.val = j.val; omega

/-- What point `t` writes back is block `t` of the normalisation of the arrays as the region finds them. -/
theorem flushed1_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (Cert.SageSpec.normAll (a := 50000) (V c main_v26) (V c main_v35) (V c main_v36) (V c main_v37) (V c main_v38)) := by
  show (cfg1.win 5).cut (grid1.coords t) ((dat1 (F := Ideal) V c).after 5 t) = _
  rw [after1_5]
  unfold out1_5
  rw [View.canon_unit_zero hz1]
  simp only [View.ld_unit_zero (S := S2000x128) hz1, View.ld_unit_zero (S := S1x128) hz1]
  refine funext fun (y : S2000x128.Idx) => ?_
  obtain ⟨p, j, rfl⟩ : ∃ (p : Fin 2000) (j : Fin 128), y = ix2 p j := ⟨y 0, y 1, eq_ix2 y⟩
  have hN : cfg1.N = 25 := N_1
  obtain ⟨P, hP⟩ : ∃ P : Fin 50000, P.val = t.val * 2000 + p.val := ⟨⟨t.val * 2000 + p.val, by have := t.isLt; have := p.isLt; omega⟩, rfl⟩
  show k1_pay1 (F := Ideal) (iblk1 V c 0 t) (iblk1 V c 1 t) (iblk1 V c 2 t) (iblk1 V c 3 t) (iblk1 V c 4 t) (ix2 p j)
    = (Cert.SageSpec.normAll (a := 50000) (V c main_v26) (V c main_v35) (V c main_v36) (V c main_v37) (V c main_v38)) (((cfg1.win 5).blk t).view.emb (ix2 p j))
  rw [outIdx1 t p j P hP]
  exact normTile1 (V c main_v26) (V c main_v35) (V c main_v36) (V c main_v37) (V c main_v38)
    (iblk1 V c 0 t) (iblk1 V c 1 t) (iblk1 V c 2 t) (iblk1 V c 3 t) (iblk1 V c 4 t) p j P
    (fun k => tile1_0 V c t p k P hP) (whole1_1 V c t) (whole1_2 V c t) (whole1_3 V c t) (whole1_4 V c t)

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- Every index of the output array is in some point's block: row `r` is in the block of point `r / 2000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  have hi := idxFacts1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the region's run is the normalisation of the arrays as the region finds them. -/
theorem norm1 (V : (c : Dev nD) → (b : Ref sig .tc) → Buf (Elt Ideal) ((c : Thread nD τ).loc b)) (c : Dev nD) :
    (dat1 (F := Ideal) V c).arrAt 5 cfg1.N
      = Cert.SageSpec.normAll (a := 50000) (V c main_v26) (V c main_v35) (V c main_v36) (V c main_v37) (V c main_v38) :=
  (dat1 (F := Ideal) V c).arrAt_eq_of_cover 5 (Cert.SageSpec.normAll (a := 50000) (V c main_v26) (V c main_v35) (V c main_v36) (V c main_v37) (V c main_v38))
    (fun t _ => flushed1_eq V c t) cover1

end Cert.KernelIdeal.RegionValue

end
-- ==== Proof.RegionLayer2.lean ====
/-
  The output array of the second graph layer's region, over the extended reals.

  The region runs the layer's body at 25 points. Point `t` loads rows `2000 t … 2000 t + 1999` of the node table and
  of the neighbour average, the two weight matrices and the bias row, stores one block of 2000 rows, and that block
  is written back as rows `2000 t …` of the output. In order: the products' dimension numbers say "rows times
  columns" (`dotRows2`); the stored block entry by entry (`layerPay2`); the printed index maps over the grid
  (`idxFacts2`); each loaded block as rows of its array or as the whole array (`tile2_*`, `whole2_*`); the stored
  block as a block of the layer of the whole arrays (`layerTile2`, `outIdx2`, `flushed2_eq`); the blocks cover the
  output (`mem_blk2`, `cover2`); the output after the run is the layer of the arrays the region finds (`layer2`).
-/
import proofs.«146949_j14173392077064_1_alg».proof.Proof.Gen.KernelIdeal.Frame
import proofs.«146949_j14173392077064_1_alg».proof.Proof.Spec
import proofs.«146949_j14173392077064_1_alg».proof.Proof.LibRowLayers
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The dimension numbers of the layer's two products say "rows times columns": one contracted axis of extent 128,
    the left operand read at (row, position), the right one at (position, column). -/
theorem dotRows2 : Cert.RowLayers.RowsTimesCols dot_S2000x128_S128x128_S2000x128_1_0_0_1_n_n where
  rank := rfl
  size := rfl
  lhs0 := fun j q => rfl
  lhs1 := fun j q => DotDims.lhsIdx_val_of_single (d := dot_S2000x128_S128x128_S2000x128_1_0_0_1_n_n) (cl := 1) rfl j q
  rhs0 := fun j q => DotDims.rhsIdx_val_of_single (d := dot_S2000x128_S128x128_S2000x128_1_0_0_1_n_n) (cr := 0) rfl j q
  rhs1 := fun j q => rfl

/-- Entry `(p, j)` of what the layer's body stores, from the five blocks it loads: over the extended reals the two
    changes of float format are identities and each product into a zero accumulator is the plain sum of products,
    so the entry is both products, the bias row and the residual added in that order. -/
theorem layerPay2 (x0 x1 : Vec Ideal S2000x128 .f32) (x2 x3 : Vec Ideal S128x128 .f32) (x4 : Vec Ideal S1x128 .f32)
    (p : Fin 2000) (j : Fin 128) :
    k2_pay1 (F := Ideal) x0 x1 x2 x3 x4 (ix2 p j) = Cert.SageSpec.layerAt (a := 2000) x0 x1 x2 x3 x4 p j := by
  unfold k2_pay1
  simp only [shapeCast_self]
  have e1 := congrFun (Cert.RowLayers.rowOf_matmul_zero dotRows2 none
    (truncf .bf16 x0 bitsLt_bf16_f32 : FVec Ideal S2000x128 .bf16) (truncf .bf16 x2 bitsLt_bf16_f32 : FVec Ideal S128x128 .bf16) p) j
  have e2 := congrFun (Cert.RowLayers.rowOf_matmul_zero dotRows2 none
    (truncf .bf16 x1 bitsLt_bf16_f32 : FVec Ideal S2000x128 .bf16) (truncf .bf16 x3 bitsLt_bf16_f32 : FVec Ideal S128x128 .bf16) p) j
  have e3 := broadcastTo_1b_ab_apply (a := 2000) x4 broadcasts_S1x128_S2000x128 p j
  unfold Cert.SageSpec.layerAt
  exact congrArg₂ (· + ·) (congrArg₂ (· + ·) (congrArg₂ (· + ·) e1 e2) e3) rfl

theorem hz2 : (![0, 0] : Fin 2 → Nat) = fun _ => 0 := funext fun a => by fin_cases a <;> rfl

/-- The printed index maps, decided over the grid: the row-tiled windows sit at block `(t, 0)` at point `t`, the small
    whole-array windows at block `(0, 0)`. -/
theorem idxFacts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Row `p` of window 0's block at point `t` is row `t · 2000 + p` of its array. -/
theorem tile2_0 (V : (c : Dev nD) → (b : Ref sig .tc) → Buf (Elt Ideal) ((c : Thread nD τ).loc b)) (c : Dev nD) (t : Fin cfg2.N)
    (p : Fin 2000) (k : Fin 128) (P : Fin 50000) (hP : P.val = t.val * 2000 + p.val) :
    (iblk2 V c 0 t : Vec Ideal S2000x128 .f32) (ix2 p k) = (V c main_v39 : Vec Ideal S50000x128 .f32) (ix2 P k) := by
  have hi := idxFacts2 t
  unfold iblk2
  rw [View.read_apply]
  show V c main_v39 _ = V c main_v39 _
  congr 1
  funext a
  apply Fin.ext
  match a with
  | ⟨0, _⟩ => show win2_0.index t (0 : Fin 2) * 2000 + 1 * p.val = P.val; omega
  | ⟨1, _⟩ => show win2_0.index t (1 : Fin 2) * 128 + 1 * k.val = k.val; omega

/-- Row `p` of window 1's block at point `t` is row `t · 2000 + p` of its array. -/
theorem tile2_1 (V : (c : Dev nD) → (b : Ref sig .tc) → Buf (Elt Ideal) ((c : Thread nD τ).loc b)) (c : Dev nD) (t : Fin cfg2.N)
    (p : Fin 2000) (k : Fin 128) (P : Fin 50000) (hP : P.val = t.val * 2000 + p.val) :
    (iblk2 V c 1 t : Vec Ideal S2000x128 .f32) (ix2 p k) = (V c main_v51 : Vec Ideal S50000x128 .f32) (ix2 P k) := by
  have hi := idxFacts2 t
  unfold iblk2
  rw [View.read_apply]
  show V c main_v51 _ = V c main_v51 _
  congr 1
  funext a
  apply Fin.ext
  match a with
  | ⟨0, _⟩ => show win2_1.index t (0 : Fin 2) * 2000 + 1 * p.val = P.val; omega
  | ⟨1, _⟩ => show win2_1.index t (1 : Fin 2) * 128 + 1 * k.val = k.val; omega

/-- Window 2's block at every point is its whole array. -/
theorem whole2_2 (V : (c : Dev nD) → (b : Ref sig .tc) → Buf (Elt Ideal) ((c : Thread nD τ).loc b)) (c : Dev nD) (t : Fin cfg2.N) :
    (iblk2 V c 2 t : Vec Ideal S128x128 .f32) = (V c main_v53 : Vec Ideal S128x128 .f32) := by
  have hi := idxFacts2 t
  funext y
  unfold iblk2
  rw [View.read_apply]
  show V c main_v53 _ = V c main_v53 _
  congr 1
  funext a
  apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's block at every point is its whole array. -/
theorem whole2_3 (V : (c : Dev nD) → (b : Ref sig .tc) → Buf (Elt Ideal) ((c : Thread nD τ).loc b)) (c : Dev nD) (t : Fin cfg2.N) :
    (iblk2 V c 3 t : Vec Ideal S128x128 .f32) = (V c main_v55 : Vec Ideal S128x128 .f32) := by
  have hi := idxFacts2 t
  funext y
  unfold iblk2
  rw [View.read_apply]
  show V c main_v55 _ = V c main_v55 _
  congr 1
  funext a
  apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block at every point is its whole array. -/
theorem whole2_4 (V : (c : Dev nD) → (b : Ref sig .tc) → Buf (Elt Ideal) ((c : Thread nD τ).loc b)) (c : Dev nD) (t : Fin cfg2.N) :
    (iblk2 V c 4 t : Vec Ideal S1x128 .f32) = (V c main_v58 : Vec Ideal S1x128 .f32) := by
  have hi := idxFacts2 t
  funext y
  unfold iblk2
  rw [View.read_apply]
  show V c main_v58 _ = V c main_v58 _
  congr 1
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The body's payload on a tile of rows: if the two row blocks hold rows of `A0`, `A1` from row `P` on and the three
    small blocks are the whole arrays, entry `(p, j)` of the payload is entry `(P, j)` of the layer of the whole arrays. -/
theorem layerTile2 (A0 A1 : Vec Ideal S50000x128 .f32) (A2 A3 : Vec Ideal S128x128 .f32) (A4 : Vec Ideal S1x128 .f32)
    (x0 x1 : Vec Ideal S2000x128 .f32) (x2 x3 : Vec Ideal S128x128 .f32) (x4 : Vec Ideal S1x128 .f32)
    (p : Fin 2000) (j : Fin 128) (P : Fin 50000)
    (h0 : ∀ k : Fin 128, x0 (ix2 p k) = A0 (ix2 P k)) (h1 : ∀ k : Fin 128, x1 (ix2 p k) = A1 (ix2 P k))
    (h2 : x2 = A2) (h3 : x3 = A3) (h4 : x4 = A4) :
    k2_pay1 (F := Ideal) x0 x1 x2 x3 x4 (ix2 p j) = Cert.SageSpec.layerAll (a := 50000) A0 A1 A2 A3 A4 (ix2 P j) := by
  rw [layerPay2, Cert.SageSpec.layerAll_ix2]
  subst h2 h3 h4
  unfold Cert.SageSpec.layerAt
  rw [h0 j]
  refine congrArg₂ (· + ·) (congrArg₂ (· + ·) (congrArg₂ (· + ·) ?_ ?_) rfl) rfl
  · exact Finset.sum_congr rfl fun k _ => by rw [h0 k]
  · exact Finset.sum_congr rfl fun k _ => by rw [h1 k]

/-- Where an element of the output's block at point `t` sits in the array: row `t · 2000 + p`, the same column. -/
theorem outIdx2 (t : Fin cfg2.N) (p : Fin 2000) (j : Fin 128) (P : Fin 50000) (hP : P.val = t.val * 2000 + p.val) :
    ((cfg2.win 5).blk t).view.emb (ix2 p j) = (ix2 P j : S50000x128.Idx) := by
  have hi := idxFacts2 t
  funext a
  apply Fin.ext
  match a with
  | ⟨0, _⟩ => show win2_5.index t (0 : Fin 2) * 2000 + 1 * p.val = P.val; omega
  | ⟨1, _⟩ => show win2_5.index t (1 : Fin 2) * 128 + 1 * j.val = j.val; omega

/-- What point `t` writes back is block `t` of the layer of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal) (Cert.SageSpec.layerAll (a := 50000) (V c main_v39) (V c main_v51) (V c main_v53) (V c main_v55) (V c main_v58)) := by
  show (cfg2.win 5).cut (grid2.coords t) ((dat2 (F := Ideal) V c).after 5 t) = _
  rw [after2_5]
  unfold out2_5
  rw [View.canon_unit_zero hz2]
  simp only [View.ld_unit_zero (S := S2000x128) hz2, View.ld_unit_zero (S := S128x128) hz2, View.ld_unit_zero (S := S1x128) hz2]
  refine funext fun (y : S2000x128.Idx) => ?_
  obtain ⟨p, j, rfl⟩ : ∃ (p : Fin 2000) (j : Fin 128), y = ix2 p j := ⟨y 0, y 1, eq_ix2 y⟩
  have hN : cfg2.N = 25 := N_2
  obtain ⟨P, hP⟩ : ∃ P : Fin 50000, P.val = t.val * 2000 + p.val := ⟨⟨t.val * 2000 + p.val, by have := t.isLt; have := p.isLt; omega⟩, rfl⟩
  show k2_pay1 (F := Ideal) (iblk2 V c 0 t) (iblk2 V c 1 t) (iblk2 V c 2 t) (iblk2 V c 3 t) (iblk2 V c 4 t) (ix2 p j)
    = (Cert.SageSpec.layerAll (a := 50000) (V c main_v39) (V c main_v51) (V c main_v53) (V c main_v55) (V c main_v58)) (((cfg2.win 5).blk t).view.emb (ix2 p j))
  rw [outIdx2 t p j P hP]
  exact layerTile2 (V c main_v39) (V c main_v51) (V c main_v53) (V c main_v55) (V c main_v58)
    (iblk2 V c 0 t) (iblk2 V c 1 t) (iblk2 V c 2 t) (iblk2 V c 3 t) (iblk2 V c 4 t) p j P
    (fun k => tile2_0 V c t p k P hP) (fun k => tile2_1 V c t p k P hP) (whole2_2 V c t) (whole2_3 V c t) (whole2_4 V c t)

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v59).slice (win2_5.rect t)).set ↔ _
  rw [View.set_slice_whole, Rect.mem_set_unit]
  exact Iff.rfl

/-- Every index of the output array is in some point's block: row `r` is in the block of point `r / 2000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by omega⟩, rfl⟩
  have hi := idxFacts2 t
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The output array after the region's run is the layer of the arrays as the region finds them. -/
theorem layer2 (V : (c : Dev nD) → (b : Ref sig .tc) → Buf (Elt Ideal) ((c : Thread nD τ).loc b)) (c : Dev nD) :
    (dat2 (F := Ideal) V c).arrAt 5 cfg2.N
      = Cert.SageSpec.layerAll (a := 50000) (V c main_v39) (V c main_v51) (V c main_v53) (V c main_v55) (V c main_v58) :=
  (dat2 (F := Ideal) V c).arrAt_eq_of_cover 5 (Cert.SageSpec.layerAll (a := 50000) (V c main_v39) (V c main_v51) (V c main_v53) (V c main_v55) (V c main_v58))
    (fun t _ => flushed2_eq V c t) cover2

end Cert.KernelIdeal.RegionValue

end
-- ==== Proof.RegionNorm3.lean ====
/-
  The output array of the normalisation region after the second graph layer, over the extended reals.

  The region runs the normalisation's body at 25 points. Point `t` loads rows `2000 t … 2000 t + 1999` of the layer's
  result and the four `[1, 128]` rows (mean, variance, scale, shift), stores one block of 2000 rows, and that block
  is written back as rows `2000 t …` of the output. In order: the stored block entry by entry (`normPay3`); the
  printed index maps over the grid (`idxFacts3`); each loaded block as rows of its array or as the whole array
  (`tile3_0`, `whole3_*`); the stored block as a block of the normalisation of the whole arrays (`normTile3`,
  `outIdx3`, `flushed3_eq`); the blocks cover the output (`mem_blk3`, `cover3`); the output after the run is the
  normalisation of the arrays the region finds (`norm3`).
-/
import proofs.«146949_j14173392077064_1_alg».proof.Proof.Gen.KernelIdeal.Frame
import proofs.«146949_j14173392077064_1_alg».proof.Proof.Spec
import proofs.«146949_j14173392077064_1_alg».proof.Proof.LibRowLayers
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- Entry `(p, j)` of what the normalisation's body stores, from the five blocks it loads: the entry minus the mean,
    times the reciprocal square root of the variance plus the offset, times the scale, plus the shift, and the
    maximum of that with zero; the four `[1, 128]` rows are read at column `j` whatever the row `p`. -/
theorem normPay3 (x0 : Vec Ideal S2000x128 .f32) (x1 x2 x3 x4 : Vec Ideal S1x128 .f32) (p : Fin 2000) (j : Fin 128) :
    k3_pay1 (F := Ideal) x0 x1 x2 x3 x4 (ix2 p j) = Cert.SageSpec.normAt (a := 2000) x0 x1 x2 x3 x4 p j := by
  unfold k3_pay1
  simp only [shapeCast_self]
  have b1 := broadcastTo_1b_ab_apply (a := 2000) x1 broadcasts_S1x128_S2000x128 p j
  have b2 := broadcastTo_1b_ab_apply (a := 2000)
    (rsqrt (addf x2 (broadcast S1x128 (Scalar.ofBits (F := Ideal) .f32 0x3727C5AC#32))) : FVec Ideal S1x128 .f32) broadcasts_S1x128_S2000x128 p j
  have b3 := broadcastTo_1b_ab_apply (a := 2000) x3 broadcasts_S1x128_S2000x128 p j
  have b4 := broadcastTo_1b_ab_apply (a := 2000) x4 broadcasts_S1x128_S2000x128 p j
  unfold Cert.SageSpec.normAt
  exact congrArg₂ max (congrArg₂ (· + ·) (congrArg₂ (· * ·) (congrArg₂ (· * ·) (congrArg₂ (· - ·) rfl b1) b2) b3) b4) rfl

theorem hz3 : (![0, 0] : Fin 2 → Nat) = fun _ => 0 := funext fun a => by fin_cases a <;> rfl

/-- The printed index maps, decided over the grid: the row-tiled windows sit at block `(t, 0)` at point `t`, the small
    whole-array windows at block `(0, 0)`. -/
theorem idxFacts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- Row `p` of window 0's block at point `t` is row `t · 2000 + p` of its array. -/
theorem tile3_0 (V : (c : Dev nD) → (b : Ref sig .tc) → Buf (Elt Ideal) ((c : Thread nD τ).loc b)) (c : Dev nD) (t : Fin cfg3.N)
    (p : Fin 2000) (k : Fin 128) (P : Fin 50000) (hP : P.val = t.val * 2000 + p.val) :
    (iblk3 V c 0 t : Vec Ideal S2000x128 .f32) (ix2 p k) = (V c main_v59 : Vec Ideal S50000x128 .f32) (ix2 P k) := by
  have hi := idxFacts3 t
  unfold iblk3
  rw [View.read_apply]
  show V c main_v59 _ = V c main_v59 _
  congr 1
  funext a
  apply Fin.ext
  match a with
  | ⟨0, _⟩ => show win3_0.index t (0 : Fin 2) * 2000 + 1 * p.val = P.val; omega
  | ⟨1, _⟩ => show win3_0.index t (1 : Fin 2) * 128 + 1 * k.val = k.val; omega

/-- Window 1's block at every point is its whole array. -/
theorem whole3_1 (V : (c : Dev nD) → (b : Ref sig .tc) → Buf (Elt Ideal) ((c : Thread nD τ).loc b)) (c : Dev nD) (t : Fin cfg3.N) :
    (iblk3 V c 1 t : Vec Ideal S1x128 .f32) = (V c main_v68 : Vec Ideal S1x128 .f32) := by
  have hi := idxFacts3 t
  funext y
  unfold iblk3
  rw [View.read_apply]
  show V c main_v68 _ = V c main_v68 _
  congr 1
  funext a
  apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Window 2's block at every point is its whole array. -/
theorem whole3_2 (V : (c : Dev nD) → (b : Ref sig .tc) → Buf (Elt Ideal) ((c : Thread nD τ).loc b)) (c : Dev nD) (t : Fin cfg3.N) :
    (iblk3 V c 2 t : Vec Ideal S1x128 .f32) = (V c main_v69 : Vec Ideal S1x128 .f32) := by
  have hi := idxFacts3 t
  funext y
  unfold iblk3
  rw [View.read_apply]
  show V c main_v69 _ = V c main_v69 _
  congr 1
  funext a
  apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3's block at every point is its whole array. -/
theorem whole3_3 (V : (c : Dev nD) → (b : Ref sig .tc) → Buf (Elt Ideal) ((c : Thread nD τ).loc b)) (c : Dev nD) (t : Fin cfg3.N) :
    (iblk3 V c 3 t : Vec Ideal S1x128 .f32) = (V c main_v70 : Vec Ideal S1x128 .f32) := by
  have hi := idxFacts3 t
  funext y
  unfold iblk3
  rw [View.read_apply]
  show V c main_v70 _ = V c main_v70 _
  congr 1
  funext a
  apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block at every point is its whole array. -/
theorem whole3_4 (V : (c : Dev nD) → (b : Ref sig .tc) → Buf (Elt Ideal) ((c : Thread nD τ).loc b)) (c : Dev nD) (t : Fin cfg3.N) :
    (iblk3 V c 4 t : Vec Ideal S1x128 .f32) = (V c main_v71 : Vec Ideal S1x128 .f32) := by
  have hi := idxFacts3 t
  funext y
  unfold iblk3
  rw [View.read_apply]
  show V c main_v71 _ = V c main_v71 _
  congr 1
  funext a
  apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- The body's payload on a tile of rows: if the row block holds rows of `A0` from row `P` on and the four small blocks
    are the whole arrays, entry `(p, j)` of the payload is entry `(P, j)` of the normalisation of the whole arrays. -/
theorem normTile3 (A0 : Vec Ideal S50000x128 .f32) (A1 A2 A3 A4 : Vec Ideal S1x128 .f32)
    (x0 : Vec Ideal S2000x128 .f32) (x1 x2 x3 x4 : Vec Ideal S1x128 .f32)
    (p : Fin 2000) (j : Fin 128) (P : Fin 50000)
    (h0 : ∀ k : Fin 128, x0 (ix2 p k) = A0 (ix2 P k))
    (h1 : x1 = A1) (h2 : x2 = A2) (h3 : x3 = A3) (h4 : x4 = A4) :
    k3_pay1 (F := Ideal) x0 x1 x2 x3 x4 (ix2 p j) = Cert.SageSpec.normAll (a := 50000) A0 A1 A2 A3 A4 (ix2 P j) := by
  rw [normPay3, Cert.SageSpec.normAll_ix2]
  subst h1 h2 h3 h4
  unfold Cert.SageSpec.normAt
  rw [h0 j]

/-- Where an element of the output's block at point `t` sits in the array: row `t · 2000 + p`, the same column. -/
theorem outIdx3 (t : Fin cfg3.N) (p : Fin 2000) (j : Fin 128) (P : Fin 50000) (hP : P.val = t.val * 2000 + p.val) :
    ((cfg3.win 5).blk t).view.emb (ix2 p j) = (ix2 P j : S50000x128.Idx) := by
  have hi := idxFacts3 t
  funext a
  apply Fin.ext
  match a with
  | ⟨0, _⟩ => show win3_5.index t (0 : Fin 2) * 2000 + 1 * p.val = P.val; omega
  | ⟨1, _⟩ => show win3_5.index t (1 : Fin 2) * 128 + 1 * j.val = j.val; omega

/-- What point `t` writes back is block `t` of the normalisation of the arrays as the region finds them. -/
theorem flushed3_eq (V : (c : Dev nD) → (b : Ref sig .tc) → Buf (Elt Ideal) ((c : Thread nD τ).loc b)) (c : Dev nD) (t : Fin cfg3.N) :
    (dat3 (F := Ideal) V c).flushed 5 t = ((cfg3.win 5).blk t).view.read (Elt Ideal) (Cert.SageSpec.normAll (a := 50000) (V c main_v59) (V c main_v68) (V c main_v69) (V c main_v70) (V c main_v71)) := by
  show (cfg3.win 5).cut (grid3.coords t) ((dat3 (F := Ideal) V c).after 5 t) = _
  rw [after3_5]
  unfold out3_5
  rw [View.canon_unit_zero hz3]
  simp only [View.ld_unit_zero (S := S2000x128) hz3, View.ld_unit_zero (S := S1x128) hz3]
  refine funext fun (y : S2000x128.Idx) => ?_
  obtain ⟨p, j, rfl⟩ : ∃ (p : Fin 2000) (j : Fin 128), y = ix2 p j := ⟨y 0, y 1, eq_ix2 y⟩
  have hN : cfg3.N = 25 := N_3
  obtain ⟨P, hP⟩ : ∃ P : Fin 50000, P.val = t.val * 2000 + p.val := ⟨⟨t.val * 2000 + p.val, by have := t.isLt; have := p.isLt; omega⟩, rfl⟩
  show k3_pay1 (F := Ideal) (iblk3 V c 0 t) (iblk3 V c 1 t) (iblk3 V c 2 t) (iblk3 V c 3 t) (iblk3 V c 4 t) (ix2 p j)
    = (Cert.SageSpec.normAll (a := 50000) (V c main_v59) (V c main_v68) (V c main_v69) (V c main_v70) (V c main_v71)) (((cfg3.win 5).blk t).view.emb (ix2 p j))
  rw [outIdx3 t p j P hP]
  exact normTile3 (V c main_v59) (V c main_v68) (V c main_v69) (V c main_v70) (V c main_v71)
    (iblk3 V c 0 t) (iblk3 V c 1 t) (iblk3 V c 2 t) (iblk3 V c 3 t) (iblk3 V c 4 t) p j P
    (fun k => tile3_0 V c t p k P hP) (whole3_1 V c t) (whole3_2 V c t) (whole3_3 V c t) (whole3_4 V c t)

/-- An index of the output array is in point `t`'s block iff each coordinate is in the block's range on its axis. -/
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v72).slice (win3_5.rect t)).set ↔ _
  rw [View.set_slice_whole, Rect.mem_set_unit]
  exact Iff.rfl

/-- Every index of the output array is in some point's block: row `r` is in the block of point `r / 2000`. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by omega⟩, rfl⟩
  have hi := idxFacts3 t
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The output array after the region's run is the normalisation of the arrays as the region finds them. -/
theorem norm3 (V : (c : Dev nD) → (b : Ref sig .tc) → Buf (Elt Ideal) ((c : Thread nD τ).loc b)) (c : Dev nD) :
    (dat3 (F := Ideal) V c).arrAt 5 cfg3.N
      = Cert.SageSpec.normAll (a := 50000) (V c main_v59) (V c main_v68) (V c main_v69) (V c main_v70) (V c main_v71) :=
  (dat3 (F := Ideal) V c).arrAt_eq_of_cover 5 (Cert.SageSpec.normAll (a := 50000) (V c main_v59) (V c main_v68) (V c main_v69) (V c main_v70) (V c main_v71))
    (fun t _ => flushed3_eq V c t) cover3

end Cert.KernelIdeal.RegionValue

end
-- ==== Proof.RegionLayer4.lean ====
/-
  The output array of the third graph layer's region, over the extended reals.

  The region runs the layer's body at 25 points. Point `t` loads rows `2000 t … 2000 t + 1999` of the node table and
  of the neighbour average, the two weight matrices and the bias row, stores one block of 2000 rows, and that block
  is written back as rows `2000 t …` of the output. In order: the products' dimension numbers say "rows times
  columns" (`dotRows4`); the stored block entry by entry (`layerPay4`); the printed index maps over the grid
  (`idxFacts4`); each loaded block as rows of its array or as the whole array (`tile4_*`, `whole4_*`); the stored
  block as a block of the layer of the whole arrays (`layerTile4`, `outIdx4`, `flushed4_eq`); the blocks cover the
  output (`mem_blk4`, `cover4`); the output after the run is the layer of the arrays the region finds (`layer4`).
-/
import proofs.«146949_j14173392077064_1_alg».proof.Proof.Gen.KernelIdeal.Frame
import proofs.«146949_j14173392077064_1_alg».proof.Proof.Spec
import proofs.«146949_j14173392077064_1_alg».proof.Proof.LibRowLayers
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The dimension numbers of the layer's two products say "rows times columns": one contracted axis of extent 128,
    the left operand read at (row, position), the right one at (position, column). -/
theorem dotRows4 : Cert.RowLayers.RowsTimesCols dot_S2000x128_S128x128_S2000x128_1_0_0_1_n_n where
  rank := rfl
  size := rfl
  lhs0 := fun j q => rfl
  lhs1 := fun j q => DotDims.lhsIdx_val_of_single (d := dot_S2000x128_S128x128_S2000x128_1_0_0_1_n_n) (cl := 1) rfl j q
  rhs0 := fun j q => DotDims.rhsIdx_val_of_single (d := dot_S2000x128_S128x128_S2000x128_1_0_0_1_n_n) (cr := 0) rfl j q
  rhs1 := fun j q => rfl

/-- Entry `(p, j)` of what the layer's body stores, from the five blocks it loads: over the extended reals the two
    changes of float format are identities and each product into a zero accumulator is the plain sum of products,
    so the entry is both products, the bias row and the residual added in that order. -/
theorem layerPay4 (x0 x1 : Vec Ideal S2000x128 .f32) (x2 x3 : Vec Ideal S128x128 .f32) (x4 : Vec Ideal S1x128 .f32)
    (p : Fin 2000) (j : Fin 128) :
    k4_pay1 (F := Ideal) x0 x1 x2 x3 x4 (ix2 p j) = Cert.SageSpec.layerAt (a := 2000) x0 x1 x2 x3 x4 p j := by
  unfold k4_pay1
  simp only [shapeCast_self]
  have e1 := congrFun (Cert.RowLayers.rowOf_matmul_zero dotRows4 none
    (truncf .bf16 x0 bitsLt_bf16_f32 : FVec Ideal S2000x128 .bf16) (truncf .bf16 x2 bitsLt_bf16_f32 : FVec Ideal S128x128 .bf16) p) j
  have e2 := congrFun (Cert.RowLayers.rowOf_matmul_zero dotRows4 none
    (truncf .bf16 x1 bitsLt_bf16_f32 : FVec Ideal S2000x128 .bf16) (truncf .bf16 x3 bitsLt_bf16_f32 : FVec Ideal S128x128 .bf16) p) j
  have e3 := broadcastTo_1b_ab_apply (a := 2000) x4 broadcasts_S1x128_S2000x128 p j
  unfold Cert.SageSpec.layerAt
  exact congrArg₂ (· + ·) (congrArg₂ (· + ·) (congrArg₂ (· + ·) e1 e2) e3) rfl

theorem hz4 : (![0, 0] : Fin 2 → Nat) = fun _ => 0 := funext fun a => by fin_cases a <;> rfl

/-- The printed index maps, decided over the grid: the row-tiled windows sit at block `(t, 0)` at point `t`, the small
    whole-array windows at block `(0, 0)`. -/
theorem idxFacts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- Row `p` of window 0's block at point `t` is row `t · 2000 + p` of its array. -/
theorem tile4_0 (V : (c : Dev nD) → (b : Ref sig .tc) → Buf (Elt Ideal) ((c : Thread nD τ).loc b)) (c : Dev nD) (t : Fin cfg4.N)
    (p : Fin 2000) (k : Fin 128) (P : Fin 50000) (hP : P.val = t.val * 2000 + p.val) :
    (iblk4 V c 0 t : Vec Ideal S2000x128 .f32) (ix2 p k) = (V c main_v72 : Vec Ideal S50000x128 .f32) (ix2 P k) := by
  have hi := idxFacts4 t
  unfold iblk4
  rw [View.read_apply]
  show V c main_v72 _ = V c main_v72 _
  congr 1
  funext a
  apply Fin.ext
  match a with
  | ⟨0, _⟩ => show win4_0.index t (0 : Fin 2) * 2000 + 1 * p.val = P.val; omega
  | ⟨1, _⟩ => show win4_0.index t (1 : Fin 2) * 128 + 1 * k.val = k.val; omega

/-- Row `p` of window 1's block at point `t` is row `t · 2000 + p` of its array. -/
theorem tile4_1 (V : (c : Dev nD) → (b : Ref sig .tc) → Buf (Elt Ideal) ((c : Thread nD τ).loc b)) (c : Dev nD) (t : Fin cfg4.N)
    (p : Fin 2000) (k : Fin 128) (P : Fin 50000) (hP : P.val = t.val * 2000 + p.val) :
    (iblk4 V c 1 t : Vec Ideal S2000x128 .f32) (ix2 p k) = (V c main_v84 : Vec Ideal S50000x128 .f32) (ix2 P k) := by
  have hi := idxFacts4 t
  unfold iblk4
  rw [View.read_apply]
  show V c main_v84 _ = V c main_v84 _
  congr 1
  funext a
  apply Fin.ext
  match a with
  | ⟨0, _⟩ => show win4_1.index t (0 : Fin 2) * 2000 + 1 * p.val = P.val; omega
  | ⟨1, _⟩ => show win4_1.index t (1 : Fin 2) * 128 + 1 * k.val = k.val; omega

/-- Window 2's block at every point is its whole array. -/
theorem whole4_2 (V : (c : Dev nD) → (b : Ref sig .tc) → Buf (Elt Ideal) ((c : Thread nD τ).loc b)) (c : Dev nD) (t : Fin cfg4.N) :
    (iblk4 V c 2 t : Vec Ideal S128x128 .f32) = (V c main_v86 : Vec Ideal S128x128 .f32) := by
  have hi := idxFacts4 t
  funext y
  unfold iblk4
  rw [View.read_apply]
  show V c main_v86 _ = V c main_v86 _
  congr 1
  funext a
  apply Fin.ext
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- Window 3's block at every point is its whole array. -/
theorem whole4_3 (V : (c : Dev nD) → (b : Ref sig .tc) → Buf (Elt Ideal) ((c : Thread nD τ).loc b)) (c : Dev nD) (t : Fin cfg4.N) :
    (iblk4 V c 3 t : Vec Ideal S128x128 .f32) = (V c main_v88 : Vec Ideal S128x128 .f32) := by
  have hi := idxFacts4 t
  funext y
  unfold iblk4
  rw [View.read_apply]
  show V c main_v88 _ = V c main_v88 _
  congr 1
  funext a
  apply Fin.ext
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4's block at every point is its whole array. -/
theorem whole4_4 (V : (c : Dev nD) → (b : Ref sig .tc) → Buf (Elt Ideal) ((c : Thread nD τ).loc b)) (c : Dev nD) (t : Fin cfg4.N) :
    (iblk4 V c 4 t : Vec Ideal S1x128 .f32) = (V c main_v91 : Vec Ideal S1x128 .f32) := by
  have hi := idxFacts4 t
  funext y
  unfold iblk4
  rw [View.read_apply]
  show V c main_v91 _ = V c main_v91 _
  congr 1
  funext a
  apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- The body's payload on a tile of rows: if the two row blocks hold rows of `A0`, `A1` from row `P` on and the three
    small blocks are the whole arrays, entry `(p, j)` of the payload is entry `(P, j)` of the layer of the whole arrays. -/
theorem layerTile4 (A0 A1 : Vec Ideal S50000x128 .f32) (A2 A3 : Vec Ideal S128x128 .f32) (A4 : Vec Ideal S1x128 .f32)
    (x0 x1 : Vec Ideal S2000x128 .f32) (x2 x3 : Vec Ideal S128x128 .f32) (x4 : Vec Ideal S1x128 .f32)
    (p : Fin 2000) (j : Fin 128) (P : Fin 50000)
    (h0 : ∀ k : Fin 128, x0 (ix2 p k) = A0 (ix2 P k)) (h1 : ∀ k : Fin 128, x1 (ix2 p k) = A1 (ix2 P k))
    (h2 : x2 = A2) (h3 : x3 = A3) (h4 : x4 = A4) :
    k4_pay1 (F := Ideal) x0 x1 x2 x3 x4 (ix2 p j) = Cert.SageSpec.layerAll (a := 50000) A0 A1 A2 A3 A4 (ix2 P j) := by
  rw [layerPay4, Cert.SageSpec.layerAll_ix2]
  subst h2 h3 h4
  unfold Cert.SageSpec.layerAt
  rw [h0 j]
  refine congrArg₂ (· + ·) (congrArg₂ (· + ·) (congrArg₂ (· + ·) ?_ ?_) rfl) rfl
  · exact Finset.sum_congr rfl fun k _ => by rw [h0 k]
  · exact Finset.sum_congr rfl fun k _ => by rw [h1 k]

/-- Where an element of the output's block at point `t` sits in the array: row `t · 2000 + p`, the same column. -/
theorem outIdx4 (t : Fin cfg4.N) (p : Fin 2000) (j : Fin 128) (P : Fin 50000) (hP : P.val = t.val * 2000 + p.val) :
    ((cfg4.win 5).blk t).view.emb (ix2 p j) = (ix2 P j : S50000x128.Idx) := by
  have hi := idxFacts4 t
  funext a
  apply Fin.ext
  match a with
  | ⟨0, _⟩ => show win4_5.index t (0 : Fin 2) * 2000 + 1 * p.val = P.val; omega
  | ⟨1, _⟩ => show win4_5.index t (1 : Fin 2) * 128 + 1 * j.val = j.val; omega

/-- What point `t` writes back is block `t` of the layer of the arrays as the region finds them. -/
theorem flushed4_eq (V : (c : Dev nD) → (b : Ref sig .tc) → Buf (Elt Ideal) ((c : Thread nD τ).loc b)) (c : Dev nD) (t : Fin cfg4.N) :
    (dat4 (F := Ideal) V c).flushed 5 t = ((cfg4.win 5).blk t).view.read (Elt Ideal) (Cert.SageSpec.layerAll (a := 50000) (V c main_v72) (V c main_v84) (V c main_v86) (V c main_v88) (V c main_v91)) := by
  show (cfg4.win 5).cut (grid4.coords t) ((dat4 (F := Ideal) V c).after 5 t) = _
  rw [after4_5]
  unfold out4_5
  rw [View.canon_unit_zero hz4]
  simp only [View.ld_unit_zero (S := S2000x128) hz4, View.ld_unit_zero (S := S128x128) hz4, View.ld_unit_zero (S := S1x128) hz4]
  refine funext fun (y : S2000x128.Idx) => ?_
  obtain ⟨p, j, rfl⟩ : ∃ (p : Fin 2000) (j : Fin 128), y = ix2 p j := ⟨y 0, y 1, eq_ix2 y⟩
  have hN : cfg4.N = 25 := N_4
  obtain ⟨P, hP⟩ : ∃ P : Fin 50000, P.val = t.val * 2000 + p.val := ⟨⟨t.val * 2000 + p.val, by have := t.isLt; have := p.isLt; omega⟩, rfl⟩
  show k4_pay1 (F := Ideal) (iblk4 V c 0 t) (iblk4 V c 1 t) (iblk4 V c 2 t) (iblk4 V c 3 t) (iblk4 V c 4 t) (ix2 p j)
    = (Cert.SageSpec.layerAll (a := 50000) (V c main_v72) (V c main_v84) (V c main_v86) (V c main_v88) (V c main_v91)) (((cfg4.win 5).blk t).view.emb (ix2 p j))
  rw [outIdx4 t p j P hP]
  exact layerTile4 (V c main_v72) (V c main_v84) (V c main_v86) (V c main_v88) (V c main_v91)
    (iblk4 V c 0 t) (iblk4 V c 1 t) (iblk4 V c 2 t) (iblk4 V c 3 t) (iblk4 V c 4 t) p j P
    (fun k => tile4_0 V c t p k P hP) (fun k => tile4_1 V c t p k P hP) (whole4_2 V c t) (whole4_3 V c t) (whole4_4 V c t)

/-- An index of the output array is in point `t`'s block iff each coordinate is in the block's range on its axis. -/
theorem mem_blk4 (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v92).slice (win4_5.rect t)).set ↔ _
  rw [View.set_slice_whole, Rect.mem_set_unit]
  exact Iff.rfl

/-- Every index of the output array is in some point's block: row `r` is in the block of point `r / 2000`. -/
theorem cover4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by omega⟩, rfl⟩
  have hi := idxFacts4 t
  refine ⟨t, flush4_5 t, ?_⟩
  rw [mem_blk4]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega

/-- The output array after the region's run is the layer of the arrays as the region finds them. -/
theorem layer4 (V : (c : Dev nD) → (b : Ref sig .tc) → Buf (Elt Ideal) ((c : Thread nD τ).loc b)) (c : Dev nD) :
    (dat4 (F := Ideal) V c).arrAt 5 cfg4.N
      = Cert.SageSpec.layerAll (a := 50000) (V c main_v72) (V c main_v84) (V c main_v86) (V c main_v88) (V c main_v91) :=
  (dat4 (F := Ideal) V c).arrAt_eq_of_cover 5 (Cert.SageSpec.layerAll (a := 50000) (V c main_v72) (V c main_v84) (V c main_v86) (V c main_v88) (V c main_v91))
    (fun t _ => flushed4_eq V c t) cover4

end Cert.KernelIdeal.RegionValue

end
-- ==== Proof.Bridge.lean ====
/-
  The host's layer and normalisation are the point-wise formulas.

  Entry `(p, j)` of the layer as the host writes it — two matrix products, the bias vector broadcast down the rows, the
  residual — is `((∑ k, h[p,k]·w[k,j]) + (∑ k, agg[p,k]·wn[k,j]) + b[j]) + h[p,j]`: each product contracts the one
  shared axis, and a vector given a unit leading axis and broadcast down the rows reads, at `(p, j)`, its entry `j`.
  Entry `(p, j)` of the normalisation is `max (((x[p,j] − μ[j]) · rsqrt (σ²[j] + ε)) · γ[j] + β[j]) 0` for the same
  reason. A vector cast to a one-row matrix reads, at `(0, j)`, its entry `j`; so both are the formulas of the
  specification at the vectors cast to one-row matrices — the form in which the kernels receive them.
-/
import proofs.«146949_j14173392077064_1_alg».proof.Proof.Stages
import proofs.«146949_j14173392077064_1_alg».proof.Proof.Spec
import proofs.«146949_j14173392077064_1_alg».proof.Proof.LibRowLayers
import Idealize.ShloMosaic.Lib.ValueLayout

noncomputable section

namespace Cert.SageBridge

open Idealize.ShloMosaic Idealize.ShloMosaic.ValueIdx Cert.RowLayers Cert.SageSpec Cert.SageStages
open Cert.ReferenceIdeal Cert.ReferenceIdeal.Facts₀

/-- The host's product record contracts the second axis of the left operand with the first of the right one. -/
theorem dot_rows : RowsTimesCols (a := 50000) (K := 128) (b := 128) dot_S50000x128_S128x128_S50000x128_1_0_0_1_n_n where
  rank := rfl
  size := rfl
  lhs0 := fun j q => rfl
  lhs1 := fun j q => DotDims.lhsIdx_val_of_single dot_S50000x128_S128x128_S50000x128_1_0_0_1_n_n (cl := 1) rfl j q
  rhs0 := fun j q => DotDims.rhsIdx_val_of_single dot_S50000x128_S128x128_S50000x128_1_0_0_1_n_n (cr := 0) rfl j q
  rhs1 := fun j q => rfl

/-- Entry `(p, j)` of the host's product. -/
theorem dot_at (l : FVec Ideal S50000x128 .f32) (r : FVec Ideal S128x128 .f32) (p : Fin 50000) (j : Fin 128) :
    Host.dotGeneral (F := Ideal) dot_S50000x128_S128x128_S50000x128_1_0_0_1_n_n none l r (ix2 p j)
      = ∑ k : Fin 128, l (ix2 p k) * r (ix2 k j) :=
  congrFun (rowOf_dotGeneral dot_rows none l r p) j

/-- A vector given a unit leading axis and broadcast down the rows reads, at `(p, j)`, its entry `j`. -/
theorem vec_rows_at {α : Type} (x : S128.Idx → α) (p : Fin 50000) (j : Fin 128) :
    broadcastInDim S50000x128 ![0, 1] bcast_S1x128_S50000x128_0_1 (broadcastInDim S1x128 ![1] bcast_S128_S1x128_1 x) (ix2 p j)
      = x (ix1 j) :=
  congrFun (rowOf_broadcastInDim_vec (a := 50000) (b := 128) x bcast_S128_S1x128_1 bcast_S1x128_S50000x128_0_1 p) j

/-- The host's layer is the layer formula at the bias vector cast to a one-row matrix. -/
theorem layerRef_eq (hc : S128.ShapeCasts S1x128) (h agg : FVec Ideal S50000x128 .f32) (w wn : FVec Ideal S128x128 .f32)
    (b1 : FVec Ideal S128 .f32) :
    layerRef (F := Ideal) h agg w wn b1 = layerAll (a := 50000) h agg w wn (shapeCast S1x128 b1 hc) := by
  funext i
  obtain ⟨p, j, rfl⟩ : ∃ (p : Fin 50000) (j : Fin 128), i = ix2 p j := ⟨i 0, i 1, eq_ix2 i⟩
  rw [layerAll_ix2]
  unfold layerAt
  rw [shapeCast_a_1a_apply]
  simp only [layerRef, addf]
  rw [dot_at, dot_at, vec_rows_at]
  rfl

/-- The host's normalisation is the normalisation formula at the four vectors cast to one-row matrices. -/
theorem normRef_eq (hc : S128.ShapeCasts S1x128) (raw : FVec Ideal S50000x128 .f32) (mu var g1 be1 : FVec Ideal S128 .f32) :
    normRef (F := Ideal) raw mu var g1 be1
      = normAll (a := 50000) raw (shapeCast S1x128 mu hc) (shapeCast S1x128 var hc) (shapeCast S1x128 g1 hc) (shapeCast S1x128 be1 hc) := by
  funext i
  obtain ⟨p, j, rfl⟩ : ∃ (p : Fin 50000) (j : Fin 128), i = ix2 p j := ⟨i 0, i 1, eq_ix2 i⟩
  rw [normAll_ix2]
  unfold normAt
  rw [shapeCast_a_1a_apply, shapeCast_a_1a_apply, shapeCast_a_1a_apply, shapeCast_a_1a_apply]
  simp only [normRef, maximumf, addf, mulf, subf]
  rw [vec_rows_at, vec_rows_at, vec_rows_at, vec_rows_at]
  rfl

end Cert.SageBridge

end
-- ==== Proof.KChain.lean ====
/-
  The idealised kernel program's result, as the network of the specification applied to the launch arrays.

  The buffer contents at each boundary of @main are followed from the launch: a buffer no earlier stretch and no
  earlier launch writes still holds its launch contents (the edge lists, the stacked weight, bias, scale and shift
  tables), and the degree column holds what the first stretch computed. At each launch the staged buffers are then
  stage terms of the previous launch's output, and that launch's output array is the layer (or normalisation) formula
  of them; the host's own form of the same layer (normalisation) is that formula, so five launches in a row give the
  whole network.
-/
import proofs.«146949_j14173392077064_1_alg».proof.Proof.Gen.KernelIdeal.Frame
import proofs.«146949_j14173392077064_1_alg».proof.Proof.KHost0
import proofs.«146949_j14173392077064_1_alg».proof.Proof.KHost1
import proofs.«146949_j14173392077064_1_alg».proof.Proof.KHost2
import proofs.«146949_j14173392077064_1_alg».proof.Proof.KHost3
import proofs.«146949_j14173392077064_1_alg».proof.Proof.KHost4
import proofs.«146949_j14173392077064_1_alg».proof.Proof.RegionLayer0
import proofs.«146949_j14173392077064_1_alg».proof.Proof.RegionNorm1
import proofs.«146949_j14173392077064_1_alg».proof.Proof.RegionLayer2
import proofs.«146949_j14173392077064_1_alg».proof.Proof.RegionNorm3
import proofs.«146949_j14173392077064_1_alg».proof.Proof.RegionLayer4
import proofs.«146949_j14173392077064_1_alg».proof.Proof.Bridge

set_option maxRecDepth 16384

noncomputable section

namespace Cert.KernelIdeal.Chain

open Cert.KernelIdeal Cert.KernelIdeal.Gen Cert.KernelIdeal.HostRead
open Idealize.ShloMosaic Idealize.ShloMosaic.StableHlo Idealize.ShloMosaic.TcCoe Idealize.SL.Sem
open Cert.SageStages Cert.SageSpec

variable (m : (ℓ : Loc nD τ sig) → Buf (Elt Ideal) ℓ) (ρ : Dev nD → PrngReg) (c : Dev nD)

/-! ## Buffers that keep their launch contents -/

/-- After the first stretch. -/
theorem kept1 (r : Ref sig .tc) (h0 : r ∉ hostOps0_W) : W1 m ρ c (Proc.devRef .tc r) = m ((c : Thread nD τ).loc r) :=
  (hostOps0_keep (W0 m ρ c) r h0).trans rfl

/-- After the first launch. -/
theorem kept2 (r : Ref sig .tc) (h0 : r ∉ hostOps0_W) (n0 : ∀ w, Pipeline.arrRef spec0 w ≠ r) :
    W2 m ρ c (Proc.devRef .tc r) = m ((c : Thread nD τ).loc r) :=
  (W2_of_ne m ρ c r n0).trans (kept1 m ρ c r h0)

/-- Before the second launch. -/
theorem kept5 (r : Ref sig .tc) (h0 : r ∉ hostOps0_W) (n0 : ∀ w, Pipeline.arrRef spec0 w ≠ r)
    (h1 : r ∉ hostOps1_W) (h2 : r ∉ hostOps1_1_W) (h3 : r ∉ hostOps1_2_W) : W5 m ρ c (Proc.devRef .tc r) = m ((c : Thread nD τ).loc r) :=
  (keepN0 (W2 m ρ c) r h1 h2 h3).trans (kept2 m ρ c r h0 n0)

/-- After the second launch. -/
theorem kept6 (r : Ref sig .tc) (h0 : r ∉ hostOps0_W) (n0 : ∀ w, Pipeline.arrRef spec0 w ≠ r)
    (h1 : r ∉ hostOps1_W) (h2 : r ∉ hostOps1_1_W) (h3 : r ∉ hostOps1_2_W) (n1 : ∀ w, Pipeline.arrRef spec1 w ≠ r) :
    W6 m ρ c (Proc.devRef .tc r) = m ((c : Thread nD τ).loc r) :=
  (W6_of_ne m ρ c r n1).trans (kept5 m ρ c r h0 n0 h1 h2 h3)

/-- After the third launch. -/
theorem kept8 (r : Ref sig .tc) (h0 : r ∉ hostOps0_W) (n0 : ∀ w, Pipeline.arrRef spec0 w ≠ r)
    (h1 : r ∉ hostOps1_W) (h2 : r ∉ hostOps1_1_W) (h3 : r ∉ hostOps1_2_W) (n1 : ∀ w, Pipeline.arrRef spec1 w ≠ r)
    (h4 : r ∉ hostOps2_W) (n2 : ∀ w, Pipeline.arrRef spec2 w ≠ r) : W8 m ρ c (Proc.devRef .tc r) = m ((c : Thread nD τ).loc r) :=
  (W8_of_ne m ρ c r n2).trans ((hostOps2_keep (W6 m ρ c) r h4).trans (kept6 m ρ c r h0 n0 h1 h2 h3 n1))

/-- After the fourth launch. -/
theorem kept12 (r : Ref sig .tc) (h0 : r ∉ hostOps0_W) (n0 : ∀ w, Pipeline.arrRef spec0 w ≠ r)
    (h1 : r ∉ hostOps1_W) (h2 : r ∉ hostOps1_1_W) (h3 : r ∉ hostOps1_2_W) (n1 : ∀ w, Pipeline.arrRef spec1 w ≠ r)
    (h4 : r ∉ hostOps2_W) (n2 : ∀ w, Pipeline.arrRef spec2 w ≠ r)
    (h5 : r ∉ hostOps3_W) (h6 : r ∉ hostOps3_1_W) (h7 : r ∉ hostOps3_2_W) (n3 : ∀ w, Pipeline.arrRef spec3 w ≠ r) :
    W12 m ρ c (Proc.devRef .tc r) = m ((c : Thread nD τ).loc r) :=
  (W12_of_ne m ρ c r n3).trans ((keepN1 (W8 m ρ c) r h5 h6 h7).trans (kept8 m ρ c r h0 n0 h1 h2 h3 n1 h4 n2))

/-! ## The degree column, computed by the first stretch and read by every layer -/

theorem deg1 : W1 m ρ c (Proc.devRef .tc main_v6) = degOf (m ((c : Thread nD τ).loc main_arg2)) :=
  (read0_deg (W0 m ρ c)).trans rfl

theorem deg6 : W6 m ρ c (Proc.devRef .tc main_v6) = degOf (m ((c : Thread nD τ).loc main_arg2)) :=
  (W6_of_ne m ρ c main_v6 (by decide)).trans ((keepN0 (W2 m ρ c) main_v6 (by decide) (by decide) (by decide)).trans
    ((W2_of_ne m ρ c main_v6 (by decide)).trans (deg1 m ρ c)))

theorem deg12 : W12 m ρ c (Proc.devRef .tc main_v6) = degOf (m ((c : Thread nD τ).loc main_arg2)) :=
  (W12_of_ne m ρ c main_v6 (by decide)).trans ((keepN1 (W8 m ρ c) main_v6 (by decide) (by decide) (by decide)).trans
    ((W8_of_ne m ρ c main_v6 (by decide)).trans ((hostOps2_keep (W6 m ρ c) main_v6 (by decide)).trans (deg6 m ρ c))))

/-! ## The five launches -/

/-- The first layer's output. -/
theorem raw0 : W2 m ρ c (Proc.devRef .tc main_v26)
    = layerRef (m ((c : Thread nD τ).loc main_arg0)) (aggOf (m ((c : Thread nD τ).loc main_arg0)) (m ((c : Thread nD τ).loc main_arg1)) (m ((c : Thread nD τ).loc main_arg2)) (degOf (m ((c : Thread nD τ).loc main_arg2))))
        (wOf0 (m ((c : Thread nD τ).loc main_arg3))) (wOf0 (m ((c : Thread nD τ).loc main_arg4))) (bOf0 (m ((c : Thread nD τ).loc main_arg5))) := by
  rw [Cert.SageBridge.layerRef_eq Gen.shapeCasts_S128_S1x128]
  refine (W2_arr m ρ c 5).trans ((Cert.KernelIdeal.RegionValue.layer0 (V1 m ρ) c).trans ?_)
  have e0 : V1 m ρ c main_arg0 = m ((c : Thread nD τ).loc main_arg0) := kept1 m ρ c main_arg0 (by decide)
  have e1 : V1 m ρ c main_v18 = aggOf (m ((c : Thread nD τ).loc main_arg0)) (m ((c : Thread nD τ).loc main_arg1)) (m ((c : Thread nD τ).loc main_arg2)) (degOf (m ((c : Thread nD τ).loc main_arg2))) :=
    (read0_agg (W0 m ρ c)).trans rfl
  have e2 : V1 m ρ c main_v20 = wOf0 (m ((c : Thread nD τ).loc main_arg3)) := (read0_w (W0 m ρ c)).trans rfl
  have e3 : V1 m ρ c main_v22 = wOf0 (m ((c : Thread nD τ).loc main_arg4)) := (read0_wn (W0 m ρ c)).trans rfl
  have e4 : V1 m ρ c main_v25 = shapeCast S1x128 (bOf0 (m ((c : Thread nD τ).loc main_arg5))) Gen.shapeCasts_S128_S1x128 := (read0_b (W0 m ρ c)).trans rfl
  rw [e0, e1, e2, e3, e4]

/-- The first hidden table. -/
theorem hid1 : W6 m ρ c (Proc.devRef .tc main_v39)
    = normRef (W2 m ρ c (Proc.devRef .tc main_v26)) (meanOf (W2 m ρ c (Proc.devRef .tc main_v26))) (varOf (W2 m ρ c (Proc.devRef .tc main_v26)))
        (gOf0 (m ((c : Thread nD τ).loc main_arg6))) (gOf0 (m ((c : Thread nD τ).loc main_arg7))) := by
  rw [Cert.SageBridge.normRef_eq Gen.shapeCasts_S128_S1x128]
  refine (W6_arr m ρ c 5).trans ((Cert.KernelIdeal.RegionValue.norm1 (V5 m ρ) c).trans ?_)
  have e0 : V5 m ρ c main_v26 = W2 m ρ c (Proc.devRef .tc main_v26) := keepN0 (W2 m ρ c) main_v26 (by decide) (by decide) (by decide)
  have e1 : V5 m ρ c main_v35 = shapeCast S1x128 (meanOf (W2 m ρ c (Proc.devRef .tc main_v26))) Gen.shapeCasts_S128_S1x128 := readN0_mean (W2 m ρ c)
  have e2 : V5 m ρ c main_v36 = shapeCast S1x128 (varOf (W2 m ρ c (Proc.devRef .tc main_v26))) Gen.shapeCasts_S128_S1x128 := readN0_var (W2 m ρ c)
  have e3 : V5 m ρ c main_v37 = shapeCast S1x128 (gOf0 (m ((c : Thread nD τ).loc main_arg6))) Gen.shapeCasts_S128_S1x128 :=
    (readN0_gamma (W2 m ρ c)).trans (by rw [kept2 m ρ c main_arg6 (by decide) (by decide)])
  have e4 : V5 m ρ c main_v38 = shapeCast S1x128 (gOf0 (m ((c : Thread nD τ).loc main_arg7))) Gen.shapeCasts_S128_S1x128 :=
    (readN0_beta (W2 m ρ c)).trans (by rw [kept2 m ρ c main_arg7 (by decide) (by decide)])
  rw [e0, e1, e2, e3, e4]

/-- The second layer's output. -/
theorem raw1 : W8 m ρ c (Proc.devRef .tc main_v59)
    = layerRef (W6 m ρ c (Proc.devRef .tc main_v39)) (aggOf (W6 m ρ c (Proc.devRef .tc main_v39)) (m ((c : Thread nD τ).loc main_arg1)) (m ((c : Thread nD τ).loc main_arg2)) (degOf (m ((c : Thread nD τ).loc main_arg2))))
        (wOf1 (m ((c : Thread nD τ).loc main_arg3))) (wOf1 (m ((c : Thread nD τ).loc main_arg4))) (bOf1 (m ((c : Thread nD τ).loc main_arg5))) := by
  rw [Cert.SageBridge.layerRef_eq Gen.shapeCasts_S128_S1x128]
  refine (W8_arr m ρ c 5).trans ((Cert.KernelIdeal.RegionValue.layer2 (V7 m ρ) c).trans ?_)
  have e0 : V7 m ρ c main_v39 = W6 m ρ c (Proc.devRef .tc main_v39) := hostOps2_keep (W6 m ρ c) main_v39 (by decide)
  have e1 : V7 m ρ c main_v51 = aggOf (W6 m ρ c (Proc.devRef .tc main_v39)) (m ((c : Thread nD τ).loc main_arg1)) (m ((c : Thread nD τ).loc main_arg2)) (degOf (m ((c : Thread nD τ).loc main_arg2))) :=
    (readL1_agg (W6 m ρ c)).trans (by
      rw [kept6 m ρ c main_arg1 (by decide) (by decide) (by decide) (by decide) (by decide) (by decide),
        kept6 m ρ c main_arg2 (by decide) (by decide) (by decide) (by decide) (by decide) (by decide), deg6 m ρ c])
  have e2 : V7 m ρ c main_v53 = wOf1 (m ((c : Thread nD τ).loc main_arg3)) :=
    (readL1_w (W6 m ρ c)).trans (by rw [kept6 m ρ c main_arg3 (by decide) (by decide) (by decide) (by decide) (by decide) (by decide)])
  have e3 : V7 m ρ c main_v55 = wOf1 (m ((c : Thread nD τ).loc main_arg4)) :=
    (readL1_wn (W6 m ρ c)).trans (by rw [kept6 m ρ c main_arg4 (by decide) (by decide) (by decide) (by decide) (by decide) (by decide)])
  have e4 : V7 m ρ c main_v58 = shapeCast S1x128 (bOf1 (m ((c : Thread nD τ).loc main_arg5))) Gen.shapeCasts_S128_S1x128 :=
    (readL1_b (W6 m ρ c)).trans (by rw [kept6 m ρ c main_arg5 (by decide) (by decide) (by decide) (by decide) (by decide) (by decide)])
  rw [e0, e1, e2, e3, e4]

/-- The second hidden table. -/
theorem hid2 : W12 m ρ c (Proc.devRef .tc main_v72)
    = normRef (W8 m ρ c (Proc.devRef .tc main_v59)) (meanOf (W8 m ρ c (Proc.devRef .tc main_v59))) (varOf (W8 m ρ c (Proc.devRef .tc main_v59)))
        (gOf1 (m ((c : Thread nD τ).loc main_arg6))) (gOf1 (m ((c : Thread nD τ).loc main_arg7))) := by
  rw [Cert.SageBridge.normRef_eq Gen.shapeCasts_S128_S1x128]
  refine (W12_arr m ρ c 5).trans ((Cert.KernelIdeal.RegionValue.norm3 (V11 m ρ) c).trans ?_)
  have e0 : V11 m ρ c main_v59 = W8 m ρ c (Proc.devRef .tc main_v59) := keepN1 (W8 m ρ c) main_v59 (by decide) (by decide) (by decide)
  have e1 : V11 m ρ c main_v68 = shapeCast S1x128 (meanOf (W8 m ρ c (Proc.devRef .tc main_v59))) Gen.shapeCasts_S128_S1x128 := readN1_mean (W8 m ρ c)
  have e2 : V11 m ρ c main_v69 = shapeCast S1x128 (varOf (W8 m ρ c (Proc.devRef .tc main_v59))) Gen.shapeCasts_S128_S1x128 := readN1_var (W8 m ρ c)
  have e3 : V11 m ρ c main_v70 = shapeCast S1x128 (gOf1 (m ((c : Thread nD τ).loc main_arg6))) Gen.shapeCasts_S128_S1x128 :=
    (readN1_gamma (W8 m ρ c)).trans (by
      rw [kept8 m ρ c main_arg6 (by decide) (by decide) (by decide) (by decide) (by decide) (by decide) (by decide) (by decide)])
  have e4 : V11 m ρ c main_v71 = shapeCast S1x128 (gOf1 (m ((c : Thread nD τ).loc main_arg7))) Gen.shapeCasts_S128_S1x128 :=
    (readN1_beta (W8 m ρ c)).trans (by
      rw [kept8 m ρ c main_arg7 (by decide) (by decide) (by decide) (by decide) (by decide) (by decide) (by decide) (by decide)])
  rw [e0, e1, e2, e3, e4]

/-- The last layer's output: the program's result. -/
theorem out2 : W14 m ρ c (Proc.devRef .tc main_v92)
    = layerRef (W12 m ρ c (Proc.devRef .tc main_v72)) (aggOf (W12 m ρ c (Proc.devRef .tc main_v72)) (m ((c : Thread nD τ).loc main_arg1)) (m ((c : Thread nD τ).loc main_arg2)) (degOf (m ((c : Thread nD τ).loc main_arg2))))
        (wOf2 (m ((c : Thread nD τ).loc main_arg3))) (wOf2 (m ((c : Thread nD τ).loc main_arg4))) (bOf2 (m ((c : Thread nD τ).loc main_arg5))) := by
  rw [Cert.SageBridge.layerRef_eq Gen.shapeCasts_S128_S1x128]
  refine (W14_arr m ρ c 5).trans ((Cert.KernelIdeal.RegionValue.layer4 (V13 m ρ) c).trans ?_)
  have e0 : V13 m ρ c main_v72 = W12 m ρ c (Proc.devRef .tc main_v72) := hostOps4_keep (W12 m ρ c) main_v72 (by decide)
  have k (r : Ref sig .tc) (h0 : r ∉ hostOps0_W) (n0 : ∀ w, Pipeline.arrRef spec0 w ≠ r)
      (h1 : r ∉ hostOps1_W) (h2 : r ∉ hostOps1_1_W) (h3 : r ∉ hostOps1_2_W) (n1 : ∀ w, Pipeline.arrRef spec1 w ≠ r)
      (h4 : r ∉ hostOps2_W) (n2 : ∀ w, Pipeline.arrRef spec2 w ≠ r)
      (h5 : r ∉ hostOps3_W) (h6 : r ∉ hostOps3_1_W) (h7 : r ∉ hostOps3_2_W) (n3 : ∀ w, Pipeline.arrRef spec3 w ≠ r) :=
    kept12 m ρ c r h0 n0 h1 h2 h3 n1 h4 n2 h5 h6 h7 n3
  have e1 : V13 m ρ c main_v84 = aggOf (W12 m ρ c (Proc.devRef .tc main_v72)) (m ((c : Thread nD τ).loc main_arg1)) (m ((c : Thread nD τ).loc main_arg2)) (degOf (m ((c : Thread nD τ).loc main_arg2))) :=
    (readL2_agg (W12 m ρ c)).trans (by
      rw [k main_arg1 (by decide) (by decide) (by decide) (by decide) (by decide) (by decide) (by decide) (by decide) (by decide) (by decide) (by decide) (by decide),
        k main_arg2 (by decide) (by decide) (by decide) (by decide) (by decide) (by decide) (by decide) (by decide) (by decide) (by decide) (by decide) (by decide), deg12 m ρ c])
  have e2 : V13 m ρ c main_v86 = wOf2 (m ((c : Thread nD τ).loc main_arg3)) :=
    (readL2_w (W12 m ρ c)).trans (by rw [k main_arg3 (by decide) (by decide) (by decide) (by decide) (by decide) (by decide) (by decide) (by decide) (by decide) (by decide) (by decide) (by decide)])
  have e3 : V13 m ρ c main_v88 = wOf2 (m ((c : Thread nD τ).loc main_arg4)) :=
    (readL2_wn (W12 m ρ c)).trans (by rw [k main_arg4 (by decide) (by decide) (by decide) (by decide) (by decide) (by decide) (by decide) (by decide) (by decide) (by decide) (by decide) (by decide)])
  have e4 : V13 m ρ c main_v91 = shapeCast S1x128 (bOf2 (m ((c : Thread nD τ).loc main_arg5))) Gen.shapeCasts_S128_S1x128 :=
    (readL2_b (W12 m ρ c)).trans (by rw [k main_arg5 (by decide) (by decide) (by decide) (by decide) (by decide) (by decide) (by decide) (by decide) (by decide) (by decide) (by decide) (by decide)])
  rw [e0, e1, e2, e3, e4]

/-- The result buffer holds the whole network applied to the launch arrays. -/
theorem result_eq : W14 m ρ c (Proc.devRef .tc main_v92)
    = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) := by
  rw [out2 m ρ c, hid2 m ρ c, raw1 m ρ c, hid1 m ρ c, raw0 m ρ c]
  rfl

end Cert.KernelIdeal.Chain

end
-- ==== Proof.RefOps.lean ====
/-
  The reference's @main as a straight line of host operations, in program order, in seven consecutive lists: three
  graph layers (`opsL0`, `opsL1`, `opsL2`) and, after the first two, a batch normalisation in two halves — the
  column statistics (`opsN0a`, `opsN1a`) and the affine map followed by the clamp at zero (`opsN0b`, `opsN1b`).
  Where @main calls a function (the variance, inside it the guarded selection, and the clamp) the callee's
  operations stand in its place over the buffers of that call. Every buffer is written by exactly one operation.
  `ops` is the concatenation; each list touches TensorCore references only (`…_sub`).
-/
import proofs.«146949_j14173392077064_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- Layer 0: the in-degree count clamped below by one, the neighbour sum gathered and scattered and divided by it, the two weight slices, the two products, the bias row and the residual; ends at the raw output `main_v31`. 38 operations. -/
abbrev opsL0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (maximumf : (⟨S50000, .f32⟩ : BufTy).Contents (Elt F) → (⟨S50000, .f32⟩ : BufTy).Contents (Elt F) → (⟨S50000, .f32⟩ : BufTy).Contents (Elt F)),
    StableHlo.unary main_v5 main_v6 (broadcastInDim S50000x1 ![0] bcast_S50000_S50000x1_0 : (⟨S50000, .f32⟩ : BufTy).Contents (Elt F) → (⟨S50000x1, .f32⟩ : BufTy).Contents (Elt F)),
    StableHlo.nullary main_c (constantI S_ 32 0#32),
    StableHlo.unary main_c main_v7 (broadcastInDim S800000 ![] bcast_S_S800000 : (⟨S_, .i32⟩ : BufTy).Contents (Elt F) → (⟨S800000, .i32⟩ : BufTy).Contents (Elt F)),
    StableHlo.binary main_arg1 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v9 (broadcastInDim S800000 ![] bcast_S_S800000 : (⟨S_, .i32⟩ : BufTy).Contents (Elt F) → (⟨S800000, .i32⟩ : BufTy).Contents (Elt F)),
    StableHlo.binary main_arg1 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_arg1 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.binary main_arg0 main_v12 main_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_3 (constant S_ .f32 0x00000000#32),
    StableHlo.unary main_cst_3 main_v14 (broadcastInDim S50000x128 ![] bcast_S_S50000x128 : (⟨S_, .f32⟩ : BufTy).Contents (Elt F) → (⟨S50000x128, .f32⟩ : BufTy).Contents (Elt F)),
    StableHlo.unary main_arg2 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v13 main_v16 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v17 (broadcastInDim S50000x128 ![0, 1] bcast_S50000x1_S50000x128_0_1 : (⟨S50000x1, .f32⟩ : BufTy).Contents (Elt F) → (⟨S50000x128, .f32⟩ : BufTy).Contents (Elt F)),
    StableHlo.binary main_v16 main_v17 main_v18 (Host.divf : (⟨S50000x128, .f32⟩ : BufTy).Contents (Elt F) → (⟨S50000x128, .f32⟩ : BufTy).Contents (Elt F) → (⟨S50000x128, .f32⟩ : BufTy).Contents (Elt F)),
    StableHlo.unary main_arg3 main_v19 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v19 main_v20 rfl shapeCasts_S1x128x128_S128x128,
    StableHlo.binary main_arg0 main_v20 main_v21 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v22 main_v23 rfl shapeCasts_S1x128x128_S128x128,
    StableHlo.binary main_v18 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v21 main_v24 main_v25 (addf : (⟨S50000x128, .f32⟩ : BufTy).Contents (Elt F) → (⟨S50000x128, .f32⟩ : BufTy).Contents (Elt F) → (⟨S50000x128, .f32⟩ : BufTy).Contents (Elt F)),
    StableHlo.unary main_arg5 main_v26 ((extractStridedSlice S1x128 ![0, 0] · slices_S3x128_S1x128_0_0) : (⟨S3x128, .f32⟩ : BufTy).Contents (Elt F) → (⟨S1x128, .f32⟩ : BufTy).Contents (Elt F)),
    StableHlo.reshape main_v26 main_v27 rfl shapeCasts_S1x128_S128,
    StableHlo.unary main_v27 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v25 main_v29 main_v30 (addf : (⟨S50000x128, .f32⟩ : BufTy).Contents (Elt F) → (⟨S50000x128, .f32⟩ : BufTy).Contents (Elt F) → (⟨S50000x128, .f32⟩ : BufTy).Contents (Elt F)),
    StableHlo.binary main_v30 main_arg0 main_v31 (addf : (⟨S50000x128, .f32⟩ : BufTy).Contents (Elt F) → (⟨S50000x128, .f32⟩ : BufTy).Contents (Elt F) → (⟨S50000x128, .f32⟩ : BufTy).Contents (Elt F)) ]

theorem opsL0_sub : (opsL0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.unary_bufs_sub .., StableHlo.ternary_bufs_sub .., StableHlo.unary_bufs_sub ..,
    StableHlo.binary_bufs_sub .., StableHlo.unary_bufs_sub .., StableHlo.reshape_bufs_sub .., StableHlo.binary_bufs_sub .., StableHlo.unary_bufs_sub .., StableHlo.reshape_bufs_sub ..,
    StableHlo.binary_bufs_sub .., StableHlo.binary_bufs_sub .., StableHlo.unary_bufs_sub .., StableHlo.reshape_bufs_sub .., StableHlo.unary_bufs_sub .., StableHlo.unary_bufs_sub ..,
    StableHlo.binary_bufs_sub .., StableHlo.binary_bufs_sub ..⟩

/-- Normalisation 0, first half: the column mean `main_v34` of `main_v31` and its column variance `main_v35` (the centred squares summed and divided by the count less the correction, kept where that divisor is positive). 28 operations. -/
abbrev opsN0a : List (HloOp τ sig (Elt F)) :=
  [ StableHlo.nullary main_cst_4 (constant S_ .f32 0x00000000#32),
    StableHlo.binary main_v31 main_cst_4 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v33 (broadcastInDim S128 ![] bcast_S_S128 : (⟨S_, .f32⟩ : BufTy).Contents (Elt F) → (⟨S128, .f32⟩ : BufTy).Contents (Elt F)),
    StableHlo.binary main_v32 main_v33 main_v34 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary (.of main_call0_cst : StableHlo.TRef sig ⟨S_, .f32⟩) (constant S_ .f32 0x00000000#32),
    StableHlo.TRef.binary (.of main_v31 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1),
    StableHlo.TRef.binary (.of main_v31 : StableHlo.TRef sig ⟨S50000x128, .f32⟩) (.of main_call0_v4 : StableHlo.TRef sig ⟨S50000x128, .f32⟩) (.of main_call0_v5 : StableHlo.TRef sig ⟨S50000x128, .f32⟩) subf,
    StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf,
    StableHlo.TRef.unary (.of main_c_6 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v35 : StableHlo.TRef sig ⟨S128, .f32⟩) (fun p a b => select (broadcastInDim S128 ![] bcast_S_S128 p) a b) ]

theorem opsN0a_sub : (opsN0a : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub ..⟩

/-- Normalisation 0, second half: centre by the mean, scale by the reciprocal root of the variance plus the small constant, then by the gain row, add the offset row, and clamp below at zero; ends at `main_v55`. 23 operations. -/
abbrev opsN0b : List (HloOp τ sig (Elt F)) :=
  [ StableHlo.unary main_v34 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v37 main_v38 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v39 (broadcastInDim S128 ![] bcast_S_S128 : (⟨S_, .f32⟩ : BufTy).Contents (Elt F) → (⟨S128, .f32⟩ : BufTy).Contents (Elt F)),
    StableHlo.binary main_v35 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg6 main_v45 ((extractStridedSlice S1x128 ![0, 0] · slices_S2x128_S1x128_0_0) : (⟨S2x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v48 main_v49 (mulf : (⟨S50000x128, .f32⟩ : BufTy).Contents (Elt F) → (⟨S50000x128, .f32⟩ : BufTy).Contents (Elt F) → (⟨S50000x128, .f32⟩ : BufTy).Contents (Elt F)),
    StableHlo.unary main_arg7 main_v50 ((extractStridedSlice S1x128 ![0, 0] · slices_S2x128_S1x128_0_0) : (⟨S2x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v54 : StableHlo.TRef sig ⟨S50000x128, .f32⟩) (.of main_call1_v0 : StableHlo.TRef sig ⟨S50000x128, .f32⟩) (.of main_v55 : StableHlo.TRef sig ⟨S50000x128, .f32⟩) maximumf ]

theorem opsN0b_sub : (opsN0b : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.reshape_bufs_sub ..,
    StableHlo.unary_bufs_sub .., StableHlo.unary_bufs_sub .., StableHlo.binary_bufs_sub .., StableHlo.unary_bufs_sub .., StableHlo.reshape_bufs_sub .., StableHlo.unary_bufs_sub ..,
    StableHlo.unary_bufs_sub .., StableHlo.binary_bufs_sub .., StableHlo.nullary_bufs_sub .., StableHlo.unary_bufs_sub .., StableHlo.binary_bufs_sub ..⟩

/-- Layer 1, on `main_v55`, with the in-degree of layer 0 (`main_v6`) read again; ends at the raw output `main_v80`. 28 operations. -/
abbrev opsL1 : List (HloOp τ sig (Elt F)) :=
  [ StableHlo.nullary main_c_8 (constantI S_ 32 0#32),
    StableHlo.unary main_c_8 main_v56 (broadcastInDim S800000 ![] bcast_S_S800000 : (⟨S_, .i32⟩ : BufTy).Contents (Elt F) → (⟨S800000, .i32⟩ : BufTy).Contents (Elt F)),
    StableHlo.binary main_arg1 main_v56 main_v57 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v58 (broadcastInDim S800000 ![] bcast_S_S800000 : (⟨S_, .i32⟩ : BufTy).Contents (Elt F) → (⟨S800000, .i32⟩ : BufTy).Contents (Elt F)),
    StableHlo.binary main_arg1 main_v58 main_v59 (addi : (⟨S800000, .i32⟩ : BufTy).Contents (Elt F) → (⟨S800000, .i32⟩ : BufTy).Contents (Elt F) → (⟨S800000, .i32⟩ : BufTy).Contents (Elt F)),
    StableHlo.ternary main_v57 main_v59 main_arg1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v60 main_v61 (broadcastInDim S800000x1 ![0] bcast_S800000_S800000x1_0 : (⟨S800000, .i32⟩ : BufTy).Contents (Elt F) → (⟨S800000x1, .i32⟩ : BufTy).Contents (Elt F)),
    StableHlo.binary main_v55 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v63 (broadcastInDim S50000x128 ![] bcast_S_S50000x128 : (⟨S_, .f32⟩ : BufTy).Contents (Elt F) → (⟨S50000x128, .f32⟩ : BufTy).Contents (Elt F)),
    StableHlo.unary main_arg2 main_v64 (broadcastInDim S800000x1 ![0] bcast_S800000_S800000x1_0 : (⟨S800000, .i32⟩ : BufTy).Contents (Elt F) → (⟨S800000x1, .i32⟩ : BufTy).Contents (Elt F)),
    StableHlo.ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v66 (broadcastInDim S50000x128 ![0, 1] bcast_S50000x1_S50000x128_0_1 : (⟨S50000x1, .f32⟩ : BufTy).Contents (Elt F) → (⟨S50000x128, .f32⟩ : BufTy).Contents (Elt F)),
    StableHlo.binary main_v65 main_v66 main_v67 (Host.divf : (⟨S50000x128, .f32⟩ : BufTy).Contents (Elt F) → (⟨S50000x128, .f32⟩ : BufTy).Contents (Elt F) → (⟨S50000x128, .f32⟩ : BufTy).Contents (Elt F)),
    StableHlo.unary main_arg3 main_v68 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v68 main_v69 rfl shapeCasts_S1x128x128_S128x128,
    StableHlo.binary main_v55 main_v69 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v71 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v71 main_v72 rfl shapeCasts_S1x128x128_S128x128,
    StableHlo.binary main_v67 main_v72 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v70 main_v73 main_v74 (addf : (⟨S50000x128, .f32⟩ : BufTy).Contents (Elt F) → (⟨S50000x128, .f32⟩ : BufTy).Contents (Elt F) → (⟨S50000x128, .f32⟩ : BufTy).Contents (Elt F)),
    StableHlo.unary main_arg5 main_v75 ((extractStridedSlice S1x128 ![1, 0] · slices_S3x128_S1x128_1_0) : (⟨S3x128, .f32⟩ : BufTy).Contents (Elt F) → (⟨S1x128, .f32⟩ : BufTy).Contents (Elt F)),
    StableHlo.reshape main_v75 main_v76 rfl shapeCasts_S1x128_S128,
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v78 main_v79 (addf : (⟨S50000x128, .f32⟩ : BufTy).Contents (Elt F) → (⟨S50000x128, .f32⟩ : BufTy).Contents (Elt F) → (⟨S50000x128, .f32⟩ : BufTy).Contents (Elt F)),
    StableHlo.binary main_v79 main_v55 main_v80 (addf : (⟨S50000x128, .f32⟩ : BufTy).Contents (Elt F) → (⟨S50000x128, .f32⟩ : BufTy).Contents (Elt F) → (⟨S50000x128, .f32⟩ : BufTy).Contents (Elt F)) ]

theorem opsL1_sub : (opsL1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.binary_bufs_sub .., StableHlo.unary_bufs_sub .., StableHlo.reshape_bufs_sub .., StableHlo.binary_bufs_sub ..,
    StableHlo.unary_bufs_sub .., StableHlo.reshape_bufs_sub .., StableHlo.binary_bufs_sub .., StableHlo.binary_bufs_sub .., StableHlo.unary_bufs_sub .., StableHlo.reshape_bufs_sub ..,
    StableHlo.unary_bufs_sub .., StableHlo.unary_bufs_sub .., StableHlo.binary_bufs_sub .., StableHlo.binary_bufs_sub ..⟩

/-- Normalisation 1, first half: the column mean `main_v83` and column variance `main_v84` of `main_v80`. 28 operations. -/
abbrev opsN1a : List (HloOp τ sig (Elt F)) :=
  [ StableHlo.nullary main_cst_11 (constant S_ .f32 0x00000000#32),
    StableHlo.binary main_v80 main_cst_11 main_v81 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_12 (constant S_ .f32 0x47435000#32),
    StableHlo.unary main_cst_12 main_v82 (broadcastInDim S128 ![] bcast_S_S128 : (⟨S_, .f32⟩ : BufTy).Contents (Elt F) → (⟨S128, .f32⟩ : BufTy).Contents (Elt F)),
    StableHlo.binary main_v81 main_v82 main_v83 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary (.of main_call2_cst : StableHlo.TRef sig ⟨S_, .f32⟩) (constant S_ .f32 0x00000000#32),
    StableHlo.TRef.binary (.of main_v80 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1),
    StableHlo.TRef.binary (.of main_v80 : StableHlo.TRef sig ⟨S50000x128, .f32⟩) (.of main_call2_v4 : StableHlo.TRef sig ⟨S50000x128, .f32⟩) (.of main_call2_v5 : StableHlo.TRef sig ⟨S50000x128, .f32⟩) subf,
    StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf,
    StableHlo.TRef.unary (.of main_c_13 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v84 : StableHlo.TRef sig ⟨S128, .f32⟩) (fun p a b => select (broadcastInDim S128 ![] bcast_S_S128 p) a b) ]

theorem opsN1a_sub : (opsN1a : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub ..⟩

/-- Normalisation 1, second half; ends at `main_v104`. 23 operations. -/
abbrev opsN1b : List (HloOp τ sig (Elt F)) :=
  [ StableHlo.unary main_v83 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v86 main_v87 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v88 (broadcastInDim S128 ![] bcast_S_S128 : (⟨S_, .f32⟩ : BufTy).Contents (Elt F) → (⟨S128, .f32⟩ : BufTy).Contents (Elt F)),
    StableHlo.binary main_v84 main_v88 main_v89 (addf : (⟨S128, .f32⟩ : BufTy).Contents (Elt F) → (⟨S128, .f32⟩ : BufTy).Contents (Elt F) → (⟨S128, .f32⟩ : BufTy).Contents (Elt F)),
    StableHlo.unary main_v89 main_v90 (Host.rsqrt : (⟨S128, .f32⟩ : BufTy).Contents (Elt F) → (⟨S128, .f32⟩ : BufTy).Contents (Elt F)),
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v92 main_v93 (mulf : (⟨S50000x128, .f32⟩ : BufTy).Contents (Elt F) → (⟨S50000x128, .f32⟩ : BufTy).Contents (Elt F) → (⟨S50000x128, .f32⟩ : BufTy).Contents (Elt F)),
    StableHlo.unary main_arg6 main_v94 ((extractStridedSlice S1x128 ![1, 0] · slices_S2x128_S1x128_1_0) : (⟨S2x128, .f32⟩ : BufTy).Contents (Elt F) → (⟨S1x128, .f32⟩ : BufTy).Contents (Elt F)),
    StableHlo.reshape main_v94 main_v95 rfl shapeCasts_S1x128_S128,
    StableHlo.unary main_v95 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v97 main_v98 (mulf : (⟨S50000x128, .f32⟩ : BufTy).Contents (Elt F) → (⟨S50000x128, .f32⟩ : BufTy).Contents (Elt F) → (⟨S50000x128, .f32⟩ : BufTy).Contents (Elt F)),
    StableHlo.unary main_arg7 main_v99 ((extractStridedSlice S1x128 ![1, 0] · slices_S2x128_S1x128_1_0) : (⟨S2x128, .f32⟩ : BufTy).Contents (Elt F) → (⟨S1x128, .f32⟩ : BufTy).Contents (Elt F)),
    StableHlo.reshape main_v99 main_v100 rfl shapeCasts_S1x128_S128,
    StableHlo.unary main_v100 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v102 main_v103 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v103 : StableHlo.TRef sig ⟨S50000x128, .f32⟩) (.of main_call3_v0 : StableHlo.TRef sig ⟨S50000x128, .f32⟩) (.of main_v104 : StableHlo.TRef sig ⟨S50000x128, .f32⟩) maximumf ]

theorem opsN1b_sub : (opsN1b : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.reshape_bufs_sub ..,
    StableHlo.unary_bufs_sub .., StableHlo.unary_bufs_sub .., StableHlo.binary_bufs_sub .., StableHlo.unary_bufs_sub .., StableHlo.reshape_bufs_sub .., StableHlo.unary_bufs_sub ..,
    StableHlo.unary_bufs_sub .., StableHlo.binary_bufs_sub .., StableHlo.nullary_bufs_sub .., StableHlo.unary_bufs_sub .., StableHlo.binary_bufs_sub ..⟩

/-- Layer 2, on `main_v104`; ends at the result `main_v129`. 28 operations. -/
abbrev opsL2 : List (HloOp τ sig (Elt F)) :=
  [ StableHlo.nullary main_c_15 (constantI S_ 32 0#32),
    StableHlo.unary main_c_15 main_v105 (broadcastInDim S800000 ![] bcast_S_S800000 : (⟨S_, .i32⟩ : BufTy).Contents (Elt F) → (⟨S800000, .i32⟩ : BufTy).Contents (Elt F)),
    StableHlo.binary main_arg1 main_v105 main_v106 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v107 (broadcastInDim S800000 ![] bcast_S_S800000 : (⟨S_, .i32⟩ : BufTy).Contents (Elt F) → (⟨S800000, .i32⟩ : BufTy).Contents (Elt F)),
    StableHlo.binary main_arg1 main_v107 main_v108 (addi : (⟨S800000, .i32⟩ : BufTy).Contents (Elt F) → (⟨S800000, .i32⟩ : BufTy).Contents (Elt F) → (⟨S800000, .i32⟩ : BufTy).Contents (Elt F)),
    StableHlo.ternary main_v106 main_v108 main_arg1 main_v109 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v109 main_v110 (broadcastInDim S800000x1 ![0] bcast_S800000_S800000x1_0 : (⟨S800000, .i32⟩ : BufTy).Contents (Elt F) → (⟨S800000x1, .i32⟩ : BufTy).Contents (Elt F)),
    StableHlo.binary main_v104 main_v110 main_v111 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_17 (constant S_ .f32 0x00000000#32),
    StableHlo.unary main_cst_17 main_v112 (broadcastInDim S50000x128 ![] bcast_S_S50000x128 : (⟨S_, .f32⟩ : BufTy).Contents (Elt F) → (⟨S50000x128, .f32⟩ : BufTy).Contents (Elt F)),
    StableHlo.unary main_arg2 main_v113 (broadcastInDim S800000x1 ![0] bcast_S800000_S800000x1_0 : (⟨S800000, .i32⟩ : BufTy).Contents (Elt F) → (⟨S800000x1, .i32⟩ : BufTy).Contents (Elt F)),
    StableHlo.ternary main_v112 main_v113 main_v111 main_v114 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v115 (broadcastInDim S50000x128 ![0, 1] bcast_S50000x1_S50000x128_0_1 : (⟨S50000x1, .f32⟩ : BufTy).Contents (Elt F) → (⟨S50000x128, .f32⟩ : BufTy).Contents (Elt F)),
    StableHlo.binary main_v114 main_v115 main_v116 (Host.divf : (⟨S50000x128, .f32⟩ : BufTy).Contents (Elt F) → (⟨S50000x128, .f32⟩ : BufTy).Contents (Elt F) → (⟨S50000x128, .f32⟩ : BufTy).Contents (Elt F)),
    StableHlo.unary main_arg3 main_v117 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v117 main_v118 rfl shapeCasts_S1x128x128_S128x128,
    StableHlo.binary main_v104 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v120 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v120 main_v121 rfl shapeCasts_S1x128x128_S128x128,
    StableHlo.binary main_v116 main_v121 main_v122 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v119 main_v122 main_v123 (addf : (⟨S50000x128, .f32⟩ : BufTy).Contents (Elt F) → (⟨S50000x128, .f32⟩ : BufTy).Contents (Elt F) → (⟨S50000x128, .f32⟩ : BufTy).Contents (Elt F)),
    StableHlo.unary main_arg5 main_v124 ((extractStridedSlice S1x128 ![2, 0] · slices_S3x128_S1x128_2_0) : (⟨S3x128, .f32⟩ : BufTy).Contents (Elt F) → (⟨S1x128, .f32⟩ : BufTy).Contents (Elt F)),
    StableHlo.reshape main_v124 main_v125 rfl shapeCasts_S1x128_S128,
    StableHlo.unary main_v125 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v127 main_v128 (addf : (⟨S50000x128, .f32⟩ : BufTy).Contents (Elt F) → (⟨S50000x128, .f32⟩ : BufTy).Contents (Elt F) → (⟨S50000x128, .f32⟩ : BufTy).Contents (Elt F)),
    StableHlo.binary main_v128 main_v104 main_v129 (addf : (⟨S50000x128, .f32⟩ : BufTy).Contents (Elt F) → (⟨S50000x128, .f32⟩ : BufTy).Contents (Elt F) → (⟨S50000x128, .f32⟩ : BufTy).Contents (Elt F)) ]

theorem opsL2_sub : (opsL2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.binary_bufs_sub .., StableHlo.unary_bufs_sub .., StableHlo.reshape_bufs_sub .., StableHlo.binary_bufs_sub ..,
    StableHlo.unary_bufs_sub .., StableHlo.reshape_bufs_sub .., StableHlo.binary_bufs_sub .., StableHlo.binary_bufs_sub .., StableHlo.unary_bufs_sub .., StableHlo.reshape_bufs_sub ..,
    StableHlo.unary_bufs_sub .., StableHlo.unary_bufs_sub .., StableHlo.binary_bufs_sub .., StableHlo.binary_bufs_sub ..⟩

/-- @main's 196 operations, in order. -/
abbrev ops : List (HloOp τ sig (Elt F)) :=
  opsL0 ++ opsN0a ++ opsN0b ++ opsL1 ++ opsN1a ++ opsN1b ++ opsL2

end Cert.ReferenceIdeal.HandRun

end
-- ==== Proof.RefRun.lean ====
/-
  The reference's @main is the straight line `ops`, and its run: every weakly fair execution from a memory with zero
  counters terminates with each TensorCore buffer at the fold of the operations' results over the launch contents.

  @main is printed in three windows. Each window is the line of its own operations (`win0`, `win1`, `win2`: the
  same operations as `ops`, cut at the windows' ends instead of the stages'), both sides being one chain of
  `hlo` steps once the called functions are unfolded at their calls and their buffer records at their fields; the
  three lists concatenated are `ops`, and a line of a concatenation is the lines in sequence (`seq_append`).
  The fold over a concatenation is the fold over the second list after the fold over the first (`after_append`),
  which is what lets a reading of the result be taken stage by stage.
-/
import proofs.«146949_j14173392077064_1_alg».proof.Proof.RefOps
import Idealize.ShloMosaic.Lib.Pipeline.Regions

-- the enumerations over every reference of the signature recurse past the default depth
set_option maxRecDepth 4096

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- Window 0 of @main: its 81 operations, in order. -/
abbrev win0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (maximumf : (⟨S50000, .f32⟩ : BufTy).Contents (Elt F) → (⟨S50000, .f32⟩ : BufTy).Contents (Elt F) → (⟨S50000, .f32⟩ : BufTy).Contents (Elt F)),
    StableHlo.unary main_v5 main_v6 (broadcastInDim S50000x1 ![0] bcast_S50000_S50000x1_0 : (⟨S50000, .f32⟩ : BufTy).Contents (Elt F) → (⟨S50000x1, .f32⟩ : BufTy).Contents (Elt F)),
    StableHlo.nullary main_c (constantI S_ 32 0#32),
    StableHlo.unary main_c main_v7 (broadcastInDim S800000 ![] bcast_S_S800000 : (⟨S_, .i32⟩ : BufTy).Contents (Elt F) → (⟨S800000, .i32⟩ : BufTy).Contents (Elt F)),
    StableHlo.binary main_arg1 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v9 (broadcastInDim S800000 ![] bcast_S_S800000 : (⟨S_, .i32⟩ : BufTy).Contents (Elt F) → (⟨S800000, .i32⟩ : BufTy).Contents (Elt F)),
    StableHlo.binary main_arg1 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_arg1 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.binary main_arg0 main_v12 main_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_3 (constant S_ .f32 0x00000000#32),
    StableHlo.unary main_cst_3 main_v14 (broadcastInDim S50000x128 ![] bcast_S_S50000x128 : (⟨S_, .f32⟩ : BufTy).Contents (Elt F) → (⟨S50000x128, .f32⟩ : BufTy).Contents (Elt F)),
    StableHlo.unary main_arg2 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v13 main_v16 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v17 (broadcastInDim S50000x128 ![0, 1] bcast_S50000x1_S50000x128_0_1 : (⟨S50000x1, .f32⟩ : BufTy).Contents (Elt F) → (⟨S50000x128, .f32⟩ : BufTy).Contents (Elt F)),
    StableHlo.binary main_v16 main_v17 main_v18 (Host.divf : (⟨S50000x128, .f32⟩ : BufTy).Contents (Elt F) → (⟨S50000x128, .f32⟩ : BufTy).Contents (Elt F) → (⟨S50000x128, .f32⟩ : BufTy).Contents (Elt F)),
    StableHlo.unary main_arg3 main_v19 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v19 main_v20 rfl shapeCasts_S1x128x128_S128x128,
    StableHlo.binary main_arg0 main_v20 main_v21 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v22 main_v23 rfl shapeCasts_S1x128x128_S128x128,
    StableHlo.binary main_v18 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v21 main_v24 main_v25 (addf : (⟨S50000x128, .f32⟩ : BufTy).Contents (Elt F) → (⟨S50000x128, .f32⟩ : BufTy).Contents (Elt F) → (⟨S50000x128, .f32⟩ : BufTy).Contents (Elt F)),
    StableHlo.unary main_arg5 main_v26 ((extractStridedSlice S1x128 ![0, 0] · slices_S3x128_S1x128_0_0) : (⟨S3x128, .f32⟩ : BufTy).Contents (Elt F) → (⟨S1x128, .f32⟩ : BufTy).Contents (Elt F)),
    StableHlo.reshape main_v26 main_v27 rfl shapeCasts_S1x128_S128,
    StableHlo.unary main_v27 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v25 main_v29 main_v30 (addf : (⟨S50000x128, .f32⟩ : BufTy).Contents (Elt F) → (⟨S50000x128, .f32⟩ : BufTy).Contents (Elt F) → (⟨S50000x128, .f32⟩ : BufTy).Contents (Elt F)),
    StableHlo.binary main_v30 main_arg0 main_v31 (addf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.binary main_v31 main_cst_4 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v33 (broadcastInDim S128 ![] bcast_S_S128 : (⟨S_, .f32⟩ : BufTy).Contents (Elt F) → (⟨S128, .f32⟩ : BufTy).Contents (Elt F)),
    StableHlo.binary main_v32 main_v33 main_v34 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary (.of main_call0_cst : StableHlo.TRef sig ⟨S_, .f32⟩) (constant S_ .f32 0x00000000#32),
    StableHlo.TRef.binary (.of main_v31 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1),
    StableHlo.TRef.binary (.of main_v31 : StableHlo.TRef sig ⟨S50000x128, .f32⟩) (.of main_call0_v4 : StableHlo.TRef sig ⟨S50000x128, .f32⟩) (.of main_call0_v5 : StableHlo.TRef sig ⟨S50000x128, .f32⟩) subf,
    StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf,
    StableHlo.TRef.unary (.of main_c_6 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v35 : StableHlo.TRef sig ⟨S128, .f32⟩) (fun p a b => select (broadcastInDim S128 ![] bcast_S_S128 p) a b),
    StableHlo.unary main_v34 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v37 main_v38 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v39 (broadcastInDim S128 ![] bcast_S_S128 : (⟨S_, .f32⟩ : BufTy).Contents (Elt F) → (⟨S128, .f32⟩ : BufTy).Contents (Elt F)),
    StableHlo.binary main_v35 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg6 main_v45 ((extractStridedSlice S1x128 ![0, 0] · slices_S2x128_S1x128_0_0) : (⟨S2x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v48 main_v49 (mulf : (⟨S50000x128, .f32⟩ : BufTy).Contents (Elt F) → (⟨S50000x128, .f32⟩ : BufTy).Contents (Elt F) → (⟨S50000x128, .f32⟩ : BufTy).Contents (Elt F)) ]

/-- Window 1 of @main: its 83 operations, in order. -/
abbrev win1 : List (HloOp τ sig (Elt F)) :=
  [ StableHlo.unary main_arg7 main_v50 ((extractStridedSlice S1x128 ![0, 0] · slices_S2x128_S1x128_0_0) : (⟨S2x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v54 : StableHlo.TRef sig ⟨S50000x128, .f32⟩) (.of main_call1_v0 : StableHlo.TRef sig ⟨S50000x128, .f32⟩) (.of main_v55 : StableHlo.TRef sig ⟨S50000x128, .f32⟩) maximumf,
    StableHlo.nullary main_c_8 (constantI S_ 32 0#32),
    StableHlo.unary main_c_8 main_v56 (broadcastInDim S800000 ![] bcast_S_S800000 : (⟨S_, .i32⟩ : BufTy).Contents (Elt F) → (⟨S800000, .i32⟩ : BufTy).Contents (Elt F)),
    StableHlo.binary main_arg1 main_v56 main_v57 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v58 (broadcastInDim S800000 ![] bcast_S_S800000 : (⟨S_, .i32⟩ : BufTy).Contents (Elt F) → (⟨S800000, .i32⟩ : BufTy).Contents (Elt F)),
    StableHlo.binary main_arg1 main_v58 main_v59 (addi : (⟨S800000, .i32⟩ : BufTy).Contents (Elt F) → (⟨S800000, .i32⟩ : BufTy).Contents (Elt F) → (⟨S800000, .i32⟩ : BufTy).Contents (Elt F)),
    StableHlo.ternary main_v57 main_v59 main_arg1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v60 main_v61 (broadcastInDim S800000x1 ![0] bcast_S800000_S800000x1_0 : (⟨S800000, .i32⟩ : BufTy).Contents (Elt F) → (⟨S800000x1, .i32⟩ : BufTy).Contents (Elt F)),
    StableHlo.binary main_v55 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v63 (broadcastInDim S50000x128 ![] bcast_S_S50000x128 : (⟨S_, .f32⟩ : BufTy).Contents (Elt F) → (⟨S50000x128, .f32⟩ : BufTy).Contents (Elt F)),
    StableHlo.unary main_arg2 main_v64 (broadcastInDim S800000x1 ![0] bcast_S800000_S800000x1_0 : (⟨S800000, .i32⟩ : BufTy).Contents (Elt F) → (⟨S800000x1, .i32⟩ : BufTy).Contents (Elt F)),
    StableHlo.ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v66 (broadcastInDim S50000x128 ![0, 1] bcast_S50000x1_S50000x128_0_1 : (⟨S50000x1, .f32⟩ : BufTy).Contents (Elt F) → (⟨S50000x128, .f32⟩ : BufTy).Contents (Elt F)),
    StableHlo.binary main_v65 main_v66 main_v67 (Host.divf : (⟨S50000x128, .f32⟩ : BufTy).Contents (Elt F) → (⟨S50000x128, .f32⟩ : BufTy).Contents (Elt F) → (⟨S50000x128, .f32⟩ : BufTy).Contents (Elt F)),
    StableHlo.unary main_arg3 main_v68 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v68 main_v69 rfl shapeCasts_S1x128x128_S128x128,
    StableHlo.binary main_v55 main_v69 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v71 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v71 main_v72 rfl shapeCasts_S1x128x128_S128x128,
    StableHlo.binary main_v67 main_v72 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v70 main_v73 main_v74 (addf : (⟨S50000x128, .f32⟩ : BufTy).Contents (Elt F) → (⟨S50000x128, .f32⟩ : BufTy).Contents (Elt F) → (⟨S50000x128, .f32⟩ : BufTy).Contents (Elt F)),
    StableHlo.unary main_arg5 main_v75 ((extractStridedSlice S1x128 ![1, 0] · slices_S3x128_S1x128_1_0) : (⟨S3x128, .f32⟩ : BufTy).Contents (Elt F) → (⟨S1x128, .f32⟩ : BufTy).Contents (Elt F)),
    StableHlo.reshape main_v75 main_v76 rfl shapeCasts_S1x128_S128,
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v78 main_v79 (addf : (⟨S50000x128, .f32⟩ : BufTy).Contents (Elt F) → (⟨S50000x128, .f32⟩ : BufTy).Contents (Elt F) → (⟨S50000x128, .f32⟩ : BufTy).Contents (Elt F)),
    StableHlo.binary main_v79 main_v55 main_v80 (addf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.binary main_v80 main_cst_11 main_v81 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_12 (constant S_ .f32 0x47435000#32),
    StableHlo.unary main_cst_12 main_v82 (broadcastInDim S128 ![] bcast_S_S128 : (⟨S_, .f32⟩ : BufTy).Contents (Elt F) → (⟨S128, .f32⟩ : BufTy).Contents (Elt F)),
    StableHlo.binary main_v81 main_v82 main_v83 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary (.of main_call2_cst : StableHlo.TRef sig ⟨S_, .f32⟩) (constant S_ .f32 0x00000000#32),
    StableHlo.TRef.binary (.of main_v80 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1),
    StableHlo.TRef.binary (.of main_v80 : StableHlo.TRef sig ⟨S50000x128, .f32⟩) (.of main_call2_v4 : StableHlo.TRef sig ⟨S50000x128, .f32⟩) (.of main_call2_v5 : StableHlo.TRef sig ⟨S50000x128, .f32⟩) subf,
    StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf,
    StableHlo.TRef.unary (.of main_c_13 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v84 : StableHlo.TRef sig ⟨S128, .f32⟩) (fun p a b => select (broadcastInDim S128 ![] bcast_S_S128 p) a b),
    StableHlo.unary main_v83 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v86 main_v87 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v88 (broadcastInDim S128 ![] bcast_S_S128 : (⟨S_, .f32⟩ : BufTy).Contents (Elt F) → (⟨S128, .f32⟩ : BufTy).Contents (Elt F)),
    StableHlo.binary main_v84 main_v88 main_v89 (addf : (⟨S128, .f32⟩ : BufTy).Contents (Elt F) → (⟨S128, .f32⟩ : BufTy).Contents (Elt F) → (⟨S128, .f32⟩ : BufTy).Contents (Elt F)),
    StableHlo.unary main_v89 main_v90 (Host.rsqrt : (⟨S128, .f32⟩ : BufTy).Contents (Elt F) → (⟨S128, .f32⟩ : BufTy).Contents (Elt F)),
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v92 main_v93 (mulf : (⟨S50000x128, .f32⟩ : BufTy).Contents (Elt F) → (⟨S50000x128, .f32⟩ : BufTy).Contents (Elt F) → (⟨S50000x128, .f32⟩ : BufTy).Contents (Elt F)),
    StableHlo.unary main_arg6 main_v94 ((extractStridedSlice S1x128 ![1, 0] · slices_S2x128_S1x128_1_0) : (⟨S2x128, .f32⟩ : BufTy).Contents (Elt F) → (⟨S1x128, .f32⟩ : BufTy).Contents (Elt F)),
    StableHlo.reshape main_v94 main_v95 rfl shapeCasts_S1x128_S128,
    StableHlo.unary main_v95 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v97 main_v98 (mulf : (⟨S50000x128, .f32⟩ : BufTy).Contents (Elt F) → (⟨S50000x128, .f32⟩ : BufTy).Contents (Elt F) → (⟨S50000x128, .f32⟩ : BufTy).Contents (Elt F)),
    StableHlo.unary main_arg7 main_v99 ((extractStridedSlice S1x128 ![1, 0] · slices_S2x128_S1x128_1_0) : (⟨S2x128, .f32⟩ : BufTy).Contents (Elt F) → (⟨S1x128, .f32⟩ : BufTy).Contents (Elt F)),
    StableHlo.reshape main_v99 main_v100 rfl shapeCasts_S1x128_S128,
    StableHlo.unary main_v100 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)) ]

/-- Window 2 of @main: its 32 operations, in order. -/
abbrev win2 : List (HloOp τ sig (Elt F)) :=
  [ StableHlo.binary main_v98 main_v102 main_v103 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v103 : StableHlo.TRef sig ⟨S50000x128, .f32⟩) (.of main_call3_v0 : StableHlo.TRef sig ⟨S50000x128, .f32⟩) (.of main_v104 : StableHlo.TRef sig ⟨S50000x128, .f32⟩) maximumf,
    StableHlo.nullary main_c_15 (constantI S_ 32 0#32),
    StableHlo.unary main_c_15 main_v105 (broadcastInDim S800000 ![] bcast_S_S800000 : (⟨S_, .i32⟩ : BufTy).Contents (Elt F) → (⟨S800000, .i32⟩ : BufTy).Contents (Elt F)),
    StableHlo.binary main_arg1 main_v105 main_v106 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v107 (broadcastInDim S800000 ![] bcast_S_S800000 : (⟨S_, .i32⟩ : BufTy).Contents (Elt F) → (⟨S800000, .i32⟩ : BufTy).Contents (Elt F)),
    StableHlo.binary main_arg1 main_v107 main_v108 (addi : (⟨S800000, .i32⟩ : BufTy).Contents (Elt F) → (⟨S800000, .i32⟩ : BufTy).Contents (Elt F) → (⟨S800000, .i32⟩ : BufTy).Contents (Elt F)),
    StableHlo.ternary main_v106 main_v108 main_arg1 main_v109 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v109 main_v110 (broadcastInDim S800000x1 ![0] bcast_S800000_S800000x1_0 : (⟨S800000, .i32⟩ : BufTy).Contents (Elt F) → (⟨S800000x1, .i32⟩ : BufTy).Contents (Elt F)),
    StableHlo.binary main_v104 main_v110 main_v111 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_17 (constant S_ .f32 0x00000000#32),
    StableHlo.unary main_cst_17 main_v112 (broadcastInDim S50000x128 ![] bcast_S_S50000x128 : (⟨S_, .f32⟩ : BufTy).Contents (Elt F) → (⟨S50000x128, .f32⟩ : BufTy).Contents (Elt F)),
    StableHlo.unary main_arg2 main_v113 (broadcastInDim S800000x1 ![0] bcast_S800000_S800000x1_0 : (⟨S800000, .i32⟩ : BufTy).Contents (Elt F) → (⟨S800000x1, .i32⟩ : BufTy).Contents (Elt F)),
    StableHlo.ternary main_v112 main_v113 main_v111 main_v114 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v115 (broadcastInDim S50000x128 ![0, 1] bcast_S50000x1_S50000x128_0_1 : (⟨S50000x1, .f32⟩ : BufTy).Contents (Elt F) → (⟨S50000x128, .f32⟩ : BufTy).Contents (Elt F)),
    StableHlo.binary main_v114 main_v115 main_v116 (Host.divf : (⟨S50000x128, .f32⟩ : BufTy).Contents (Elt F) → (⟨S50000x128, .f32⟩ : BufTy).Contents (Elt F) → (⟨S50000x128, .f32⟩ : BufTy).Contents (Elt F)),
    StableHlo.unary main_arg3 main_v117 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v117 main_v118 rfl shapeCasts_S1x128x128_S128x128,
    StableHlo.binary main_v104 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v120 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v120 main_v121 rfl shapeCasts_S1x128x128_S128x128,
    StableHlo.binary main_v116 main_v121 main_v122 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v119 main_v122 main_v123 (addf : (⟨S50000x128, .f32⟩ : BufTy).Contents (Elt F) → (⟨S50000x128, .f32⟩ : BufTy).Contents (Elt F) → (⟨S50000x128, .f32⟩ : BufTy).Contents (Elt F)),
    StableHlo.unary main_arg5 main_v124 ((extractStridedSlice S1x128 ![2, 0] · slices_S3x128_S1x128_2_0) : (⟨S3x128, .f32⟩ : BufTy).Contents (Elt F) → (⟨S1x128, .f32⟩ : BufTy).Contents (Elt F)),
    StableHlo.reshape main_v124 main_v125 rfl shapeCasts_S1x128_S128,
    StableHlo.unary main_v125 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v127 main_v128 (addf : (⟨S50000x128, .f32⟩ : BufTy).Contents (Elt F) → (⟨S50000x128, .f32⟩ : BufTy).Contents (Elt F) → (⟨S50000x128, .f32⟩ : BufTy).Contents (Elt F)),
    StableHlo.binary main_v128 main_v104 main_v129 (addf : (⟨S50000x128, .f32⟩ : BufTy).Contents (Elt F) → (⟨S50000x128, .f32⟩ : BufTy).Contents (Elt F) → (⟨S50000x128, .f32⟩ : BufTy).Contents (Elt F)) ]

/-- Window 0 is the line of its operations. -/
theorem main_part0_eq (c : Dev nD) : main_part0 (F := F) c = StableHlo.seq win0 := by
  chain_rfl

/-- Window 1 is the line of its operations. -/
theorem main_part1_eq (c : Dev nD) : main_part1 (F := F) c = StableHlo.seq win1 := by
  chain_rfl

/-- Window 2 is the line of its operations. -/
theorem main_part2_eq (c : Dev nD) : main_part2 (F := F) c = StableHlo.seq win2 := by
  chain_rfl

/-- The stage lists and the window lists hold the same operations in the same order. -/
theorem ops_eq_wins : (ops : List (HloOp τ sig (Elt F))) = win0 ++ (win1 ++ win2) := rfl

/-- @main is the line `ops`. -/
theorem main_eq (c : Dev nD) : main (F := F) c = StableHlo.seq ops := by
  rw [ops_eq_wins, StableHlo.seq_append, StableHlo.seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ StableHlo.tcRefs τ sig := by
  refine List.forall_iff_forall_mem.mpr fun op h => ?_
  simp only [List.mem_append] at h
  rcases h with (((((h | h) | h) | h) | h) | h) | h
  · exact List.forall_iff_forall_mem.mp opsL0_sub op h
  · exact List.forall_iff_forall_mem.mp opsN0a_sub op h
  · exact List.forall_iff_forall_mem.mp opsN0b_sub op h
  · exact List.forall_iff_forall_mem.mp opsL1_sub op h
  · exact List.forall_iff_forall_mem.mp opsN1a_sub op h
  · exact List.forall_iff_forall_mem.mp opsN1b_sub op h
  · exact List.forall_iff_forall_mem.mp opsL2_sub op h

theorem opsL0_fresh : ∀ op ∈ (opsL0 : List (HloOp τ sig (Elt F))), op.fresh = ∅ := by
  intro _ h; (repeat (cases h with | head => rfl | tail _ h => ?_)); exact nomatch h
theorem opsN0a_fresh : ∀ op ∈ (opsN0a : List (HloOp τ sig (Elt F))), op.fresh = ∅ := by
  intro _ h; (repeat (cases h with | head => rfl | tail _ h => ?_)); exact nomatch h
theorem opsN0b_fresh : ∀ op ∈ (opsN0b : List (HloOp τ sig (Elt F))), op.fresh = ∅ := by
  intro _ h; (repeat (cases h with | head => rfl | tail _ h => ?_)); exact nomatch h
theorem opsL1_fresh : ∀ op ∈ (opsL1 : List (HloOp τ sig (Elt F))), op.fresh = ∅ := by
  intro _ h; (repeat (cases h with | head => rfl | tail _ h => ?_)); exact nomatch h
theorem opsN1a_fresh : ∀ op ∈ (opsN1a : List (HloOp τ sig (Elt F))), op.fresh = ∅ := by
  intro _ h; (repeat (cases h with | head => rfl | tail _ h => ?_)); exact nomatch h
theorem opsN1b_fresh : ∀ op ∈ (opsN1b : List (HloOp τ sig (Elt F))), op.fresh = ∅ := by
  intro _ h; (repeat (cases h with | head => rfl | tail _ h => ?_)); exact nomatch h
theorem opsL2_fresh : ∀ op ∈ (opsL2 : List (HloOp τ sig (Elt F))), op.fresh = ∅ := by
  intro _ h; (repeat (cases h with | head => rfl | tail _ h => ?_)); exact nomatch h

/-- No operation of the line allocates: each determines its result. -/
theorem ops_fresh : ∀ op ∈ (ops : List (HloOp τ sig (Elt F))), op.fresh = ∅ := by
  intro op h
  simp only [List.mem_append] at h
  rcases h with (((((h | h) | h) | h) | h) | h) | h
  · exact opsL0_fresh op h
  · exact opsN0a_fresh op h
  · exact opsN0b_fresh op h
  · exact opsL1_fresh op h
  · exact opsN1a_fresh op h
  · exact opsN1b_fresh op h
  · exact opsL2_fresh op h

/-- The fold over a concatenation is the fold over the second list, started from the fold over the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- At the compiled mesh, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (b : DevRef τ sig) :=
  StableHlo.run_seq scopedRefs_eq scopedSems_eq defs main (fun _ => ops) main_eq (fun _ => ops_sub) m ρ
    (fun _ => ops_fresh)

end Cert.ReferenceIdeal.HandRun

end
-- ==== Proof.RefStages.lean ====
/-
  The reference's result, read stage by stage.

  Each of the seven lists is read at an ARBITRARY valuation `V`: its output buffers as the stage functions of
  `Cert.SageStages` applied to `V` at the buffers the list reads, and every buffer it does not write unchanged
  (`…_keep`, from the list `…_W` of the references it writes). The fold over `ops` is the seven folds in turn
  (`after_append`), so the result buffer `main_v129` is the three-layer composition `refOut` of the eight
  arguments, and no argument is written.
-/
import proofs.«146949_j14173392077064_1_alg».proof.Proof.RefRun
import proofs.«146949_j14173392077064_1_alg».proof.Proof.Stages

set_option maxRecDepth 8192

noncomputable section

namespace Cert.ReferenceIdeal.HandRun

open Cert.ReferenceIdeal Cert.ReferenceIdeal.Gen Idealize.ShloMosaic Idealize.ShloMosaic.TcCoe Idealize.SL.Sem
open Idealize.ShloMosaic.StableHlo Cert.SageStages

variable {F : FTy → Type} [FloatOps F]

/-! ## What each list writes, and what it leaves alone -/

/-- The references `opsL0` writes, in order. -/
abbrev opsL0_W : List (Ref sig .tc) := [main_cst, main_v0, main_cst_0, main_v1, main_v2, main_v3, main_cst_1, main_v4, main_v5, main_v6, main_c, main_v7, main_v8, main_c_2, main_v9, main_v10, main_v11, main_v12, main_v13, main_cst_3, main_v14, main_v15, main_v16, main_v17, main_v18, main_v19, main_v20, main_v21, main_v22, main_v23, main_v24, main_v25, main_v26, main_v27, main_v28, main_v29, main_v30, main_v31]
theorem opsL0_writes : (opsL0 : List (HloOp τ sig (Elt F))).Forall fun op => op.writes ⊆ (opsL0_W.map (Proc.devRef (τ := τ) .tc)).toFinset := by
  simp only [List.Forall]
  exact ⟨(by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide))⟩
/-- A buffer `opsL0` does not write keeps its contents through it. -/
theorem opsL0_keep (V : Valuation τ sig (Elt F)) (r : Ref sig .tc) (h : r ∉ opsL0_W) :
    after opsL0 V (Proc.devRef .tc r) = V (Proc.devRef .tc r) :=
  after_of_writes_sub opsL0 V opsL0_writes h

/-- The references `opsN0a` writes, in order. -/
abbrev opsN0a_W : List (Ref sig .tc) := [main_cst_4, main_v32, main_cst_5, main_v33, main_v34, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v35]
theorem opsN0a_writes : (opsN0a : List (HloOp τ sig (Elt F))).Forall fun op => op.writes ⊆ (opsN0a_W.map (Proc.devRef (τ := τ) .tc)).toFinset := by
  simp only [List.Forall]
  exact ⟨(by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide))⟩
/-- A buffer `opsN0a` does not write keeps its contents through it. -/
theorem opsN0a_keep (V : Valuation τ sig (Elt F)) (r : Ref sig .tc) (h : r ∉ opsN0a_W) :
    after opsN0a V (Proc.devRef .tc r) = V (Proc.devRef .tc r) :=
  after_of_writes_sub opsN0a V opsN0a_writes h

/-- The references `opsN0b` writes, in order. -/
abbrev opsN0b_W : List (Ref sig .tc) := [main_v36, main_v37, main_v38, main_cst_7, main_v39, main_v40, main_v41, main_v42, main_v43, main_v44, main_v45, main_v46, main_v47, main_v48, main_v49, main_v50, main_v51, main_v52, main_v53, main_v54, main_call1_cst, main_call1_v0, main_v55]
theorem opsN0b_writes : (opsN0b : List (HloOp τ sig (Elt F))).Forall fun op => op.writes ⊆ (opsN0b_W.map (Proc.devRef (τ := τ) .tc)).toFinset := by
  simp only [List.Forall]
  exact ⟨(by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide))⟩
/-- A buffer `opsN0b` does not write keeps its contents through it. -/
theorem opsN0b_keep (V : Valuation τ sig (Elt F)) (r : Ref sig .tc) (h : r ∉ opsN0b_W) :
    after opsN0b V (Proc.devRef .tc r) = V (Proc.devRef .tc r) :=
  after_of_writes_sub opsN0b V opsN0b_writes h

/-- The references `opsL1` writes, in order. -/
abbrev opsL1_W : List (Ref sig .tc) := [main_c_8, main_v56, main_v57, main_c_9, main_v58, main_v59, main_v60, main_v61, main_v62, main_cst_10, main_v63, main_v64, main_v65, main_v66, main_v67, main_v68, main_v69, main_v70, main_v71, main_v72, main_v73, main_v74, main_v75, main_v76, main_v77, main_v78, main_v79, main_v80]
theorem opsL1_writes : (opsL1 : List (HloOp τ sig (Elt F))).Forall fun op => op.writes ⊆ (opsL1_W.map (Proc.devRef (τ := τ) .tc)).toFinset := by
  simp only [List.Forall]
  exact ⟨(by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide))⟩
/-- A buffer `opsL1` does not write keeps its contents through it. -/
theorem opsL1_keep (V : Valuation τ sig (Elt F)) (r : Ref sig .tc) (h : r ∉ opsL1_W) :
    after opsL1 V (Proc.devRef .tc r) = V (Proc.devRef .tc r) :=
  after_of_writes_sub opsL1 V opsL1_writes h

/-- The references `opsN1a` writes, in order. -/
abbrev opsN1a_W : List (Ref sig .tc) := [main_cst_11, main_v81, main_cst_12, main_v82, main_v83, main_c_13, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v84]
theorem opsN1a_writes : (opsN1a : List (HloOp τ sig (Elt F))).Forall fun op => op.writes ⊆ (opsN1a_W.map (Proc.devRef (τ := τ) .tc)).toFinset := by
  simp only [List.Forall]
  exact ⟨(by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide))⟩
/-- A buffer `opsN1a` does not write keeps its contents through it. -/
theorem opsN1a_keep (V : Valuation τ sig (Elt F)) (r : Ref sig .tc) (h : r ∉ opsN1a_W) :
    after opsN1a V (Proc.devRef .tc r) = V (Proc.devRef .tc r) :=
  after_of_writes_sub opsN1a V opsN1a_writes h

/-- The references `opsN1b` writes, in order. -/
abbrev opsN1b_W : List (Ref sig .tc) := [main_v85, main_v86, main_v87, main_cst_14, main_v88, main_v89, main_v90, main_v91, main_v92, main_v93, main_v94, main_v95, main_v96, main_v97, main_v98, main_v99, main_v100, main_v101, main_v102, main_v103, main_call3_cst, main_call3_v0, main_v104]
theorem opsN1b_writes : (opsN1b : List (HloOp τ sig (Elt F))).Forall fun op => op.writes ⊆ (opsN1b_W.map (Proc.devRef (τ := τ) .tc)).toFinset := by
  simp only [List.Forall]
  exact ⟨(by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide))⟩
/-- A buffer `opsN1b` does not write keeps its contents through it. -/
theorem opsN1b_keep (V : Valuation τ sig (Elt F)) (r : Ref sig .tc) (h : r ∉ opsN1b_W) :
    after opsN1b V (Proc.devRef .tc r) = V (Proc.devRef .tc r) :=
  after_of_writes_sub opsN1b V opsN1b_writes h

/-- The references `opsL2` writes, in order. -/
abbrev opsL2_W : List (Ref sig .tc) := [main_c_15, main_v105, main_v106, main_c_16, main_v107, main_v108, main_v109, main_v110, main_v111, main_cst_17, main_v112, main_v113, main_v114, main_v115, main_v116, main_v117, main_v118, main_v119, main_v120, main_v121, main_v122, main_v123, main_v124, main_v125, main_v126, main_v127, main_v128, main_v129]
theorem opsL2_writes : (opsL2 : List (HloOp τ sig (Elt F))).Forall fun op => op.writes ⊆ (opsL2_W.map (Proc.devRef (τ := τ) .tc)).toFinset := by
  simp only [List.Forall]
  exact ⟨(by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide)),
    (by simp only [StableHlo.nullary_writes, StableHlo.unary_writes, StableHlo.binary_writes, StableHlo.ternary_writes, StableHlo.reshape_writes, Finset.singleton_subset_iff, List.mem_toFinset]; exact List.mem_map_of_mem (by decide))⟩
/-- A buffer `opsL2` does not write keeps its contents through it. -/
theorem opsL2_keep (V : Valuation τ sig (Elt F)) (r : Ref sig .tc) (h : r ∉ opsL2_W) :
    after opsL2 V (Proc.devRef .tc r) = V (Proc.devRef .tc r) :=
  after_of_writes_sub opsL2 V opsL2_writes h

/-! ## The stages' outputs -/

attribute [local irreducible] Host.reduceAdd Host.gather Host.scatterAdd

/-- Layer 0 leaves the clamped in-degree column in `main_v6`. -/
theorem opsL0_deg (V : Valuation τ sig (Elt F)) :
    after opsL0 V (main_v6 : DevRef τ sig) = degOf (V (main_arg2 : DevRef τ sig)) := by
  after_results_simp
  rfl

/-- Layer 0's raw output. -/
theorem opsL0_out (V : Valuation τ sig (Elt F)) :
    after opsL0 V (main_v31 : DevRef τ sig)
      = layerRef (V (main_arg0 : DevRef τ sig))
          (aggOf (V (main_arg0 : DevRef τ sig)) (V (main_arg1 : DevRef τ sig)) (V (main_arg2 : DevRef τ sig)) (degOf (V (main_arg2 : DevRef τ sig))))
          (wOf0 (V (main_arg3 : DevRef τ sig))) (wOf0 (V (main_arg4 : DevRef τ sig))) (bOf0 (V (main_arg5 : DevRef τ sig))) := by
  after_results_simp
  rfl

/-- Normalisation 0: the column mean of the raw output. -/
theorem opsN0a_mean (V : Valuation τ sig (Elt F)) :
    after opsN0a V (main_v34 : DevRef τ sig)
      = meanOf (V (main_v31 : DevRef τ sig)) := by
  after_results_simp
  rfl

/-- Normalisation 0: the column variance of the raw output. -/
theorem opsN0a_var (V : Valuation τ sig (Elt F)) :
    after opsN0a V (main_v35 : DevRef τ sig)
      = varOf (V (main_v31 : DevRef τ sig)) := by
  after_results_simp
  rfl

/-- Normalisation 0: the normalised, scaled, shifted and clamped table. -/
theorem opsN0b_out (V : Valuation τ sig (Elt F)) :
    after opsN0b V (main_v55 : DevRef τ sig)
      = normRef (V (main_v31 : DevRef τ sig)) (V (main_v34 : DevRef τ sig)) (V (main_v35 : DevRef τ sig)) (gOf0 (V (main_arg6 : DevRef τ sig))) (gOf0 (V (main_arg7 : DevRef τ sig))) := by
  after_results_simp
  rfl

/-- Layer 1's raw output, the degree column read from `main_v6`. -/
theorem opsL1_out (V : Valuation τ sig (Elt F)) :
    after opsL1 V (main_v80 : DevRef τ sig)
      = layerRef (V (main_v55 : DevRef τ sig))
          (aggOf (V (main_v55 : DevRef τ sig)) (V (main_arg1 : DevRef τ sig)) (V (main_arg2 : DevRef τ sig)) (V (main_v6 : DevRef τ sig)))
          (wOf1 (V (main_arg3 : DevRef τ sig))) (wOf1 (V (main_arg4 : DevRef τ sig))) (bOf1 (V (main_arg5 : DevRef τ sig))) := by
  after_results_simp
  rfl

/-- Normalisation 1: the column mean. -/
theorem opsN1a_mean (V : Valuation τ sig (Elt F)) :
    after opsN1a V (main_v83 : DevRef τ sig)
      = meanOf (V (main_v80 : DevRef τ sig)) := by
  after_results_simp
  rfl

/-- Normalisation 1: the column variance. -/
theorem opsN1a_var (V : Valuation τ sig (Elt F)) :
    after opsN1a V (main_v84 : DevRef τ sig)
      = varOf (V (main_v80 : DevRef τ sig)) := by
  after_results_simp
  rfl

/-- Normalisation 1: the normalised, scaled, shifted and clamped table. -/
theorem opsN1b_out (V : Valuation τ sig (Elt F)) :
    after opsN1b V (main_v104 : DevRef τ sig)
      = normRef (V (main_v80 : DevRef τ sig)) (V (main_v83 : DevRef τ sig)) (V (main_v84 : DevRef τ sig)) (gOf1 (V (main_arg6 : DevRef τ sig))) (gOf1 (V (main_arg7 : DevRef τ sig))) := by
  after_results_simp
  rfl

/-- Layer 2's output, the degree column read from `main_v6`. -/
theorem opsL2_out (V : Valuation τ sig (Elt F)) :
    after opsL2 V (main_v129 : DevRef τ sig)
      = layerRef (V (main_v104 : DevRef τ sig))
          (aggOf (V (main_v104 : DevRef τ sig)) (V (main_arg1 : DevRef τ sig)) (V (main_arg2 : DevRef τ sig)) (V (main_v6 : DevRef τ sig)))
          (wOf2 (V (main_arg3 : DevRef τ sig))) (wOf2 (V (main_arg4 : DevRef τ sig))) (bOf2 (V (main_arg5 : DevRef τ sig))) := by
  after_results_simp
  rfl

/-! ## The whole line -/

/-- A buffer none of the seven lists writes keeps its contents through the whole line. -/
theorem ops_keep (V : Valuation τ sig (Elt F)) (r : Ref sig .tc)
    (h0 : r ∉ opsL0_W) (h1 : r ∉ opsN0a_W) (h2 : r ∉ opsN0b_W) (h3 : r ∉ opsL1_W)
    (h4 : r ∉ opsN1a_W) (h5 : r ∉ opsN1b_W) (h6 : r ∉ opsL2_W) :
    after ops V (Proc.devRef .tc r) = V (Proc.devRef .tc r) := by
  simp only [ops, after_append]
  rw [opsL2_keep _ r h6, opsN1b_keep _ r h5, opsN1a_keep _ r h4, opsL1_keep _ r h3, opsN0b_keep _ r h2,
    opsN0a_keep _ r h1, opsL0_keep _ r h0]

/-- The result buffer after the whole line is the three-layer network of the eight arguments: each stage's
    output is the stage function of what the stage reads, and what a later stage still reads — the degree column,
    the raw output under its statistics, the arguments — passes unchanged through the stages between. -/
theorem out_eq (V : Valuation τ sig (Elt F)) :
    after ops V (main_v129 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp only [ops, after_append]
  rw [opsL2_out]
  rw [opsN1b_out, opsN1b_keep _ main_arg1 (by decide), opsN1b_keep _ main_arg2 (by decide), opsN1b_keep _ main_arg3 (by decide), opsN1b_keep _ main_arg4 (by decide), opsN1b_keep _ main_arg5 (by decide), opsN1b_keep _ main_v6 (by decide)]
  rw [opsN1a_mean, opsN1a_var, opsN1a_keep _ main_v80 (by decide), opsN1a_keep _ main_arg1 (by decide), opsN1a_keep _ main_arg2 (by decide), opsN1a_keep _ main_arg3 (by decide), opsN1a_keep _ main_arg4 (by decide), opsN1a_keep _ main_arg5 (by decide), opsN1a_keep _ main_arg6 (by decide), opsN1a_keep _ main_arg7 (by decide), opsN1a_keep _ main_v6 (by decide)]
  rw [opsL1_out, opsL1_keep _ main_arg1 (by decide), opsL1_keep _ main_arg2 (by decide), opsL1_keep _ main_arg3 (by decide), opsL1_keep _ main_arg4 (by decide), opsL1_keep _ main_arg5 (by decide), opsL1_keep _ main_arg6 (by decide), opsL1_keep _ main_arg7 (by decide), opsL1_keep _ main_v6 (by decide)]
  rw [opsN0b_out, opsN0b_keep _ main_arg1 (by decide), opsN0b_keep _ main_arg2 (by decide), opsN0b_keep _ main_arg3 (by decide), opsN0b_keep _ main_arg4 (by decide), opsN0b_keep _ main_arg5 (by decide), opsN0b_keep _ main_arg6 (by decide), opsN0b_keep _ main_arg7 (by decide), opsN0b_keep _ main_v6 (by decide)]
  rw [opsN0a_mean, opsN0a_var, opsN0a_keep _ main_v31 (by decide), opsN0a_keep _ main_arg1 (by decide), opsN0a_keep _ main_arg2 (by decide), opsN0a_keep _ main_arg3 (by decide), opsN0a_keep _ main_arg4 (by decide), opsN0a_keep _ main_arg5 (by decide), opsN0a_keep _ main_arg6 (by decide), opsN0a_keep _ main_arg7 (by decide), opsN0a_keep _ main_v6 (by decide)]
  rw [opsL0_out, opsL0_deg, opsL0_keep _ main_arg1 (by decide), opsL0_keep _ main_arg2 (by decide), opsL0_keep _ main_arg3 (by decide), opsL0_keep _ main_arg4 (by decide), opsL0_keep _ main_arg5 (by decide), opsL0_keep _ main_arg6 (by decide), opsL0_keep _ main_arg7 (by decide)]
  rfl

/-- Argument 0 is not written. -/
theorem arg0_eq (V : Valuation τ sig (Elt F)) :
    after ops V (main_arg0 : DevRef τ sig) = V (main_arg0 : DevRef τ sig) :=
  ops_keep V main_arg0 (by decide) (by decide) (by decide) (by decide) (by decide) (by decide) (by decide)

/-- Argument 1 is not written. -/
theorem arg1_eq (V : Valuation τ sig (Elt F)) :
    after ops V (main_arg1 : DevRef τ sig) = V (main_arg1 : DevRef τ sig) :=
  ops_keep V main_arg1 (by decide) (by decide) (by decide) (by decide) (by decide) (by decide) (by decide)

/-- Argument 2 is not written. -/
theorem arg2_eq (V : Valuation τ sig (Elt F)) :
    after ops V (main_arg2 : DevRef τ sig) = V (main_arg2 : DevRef τ sig) :=
  ops_keep V main_arg2 (by decide) (by decide) (by decide) (by decide) (by decide) (by decide) (by decide)

/-- Argument 3 is not written. -/
theorem arg3_eq (V : Valuation τ sig (Elt F)) :
    after ops V (main_arg3 : DevRef τ sig) = V (main_arg3 : DevRef τ sig) :=
  ops_keep V main_arg3 (by decide) (by decide) (by decide) (by decide) (by decide) (by decide) (by decide)

/-- Argument 4 is not written. -/
theorem arg4_eq (V : Valuation τ sig (Elt F)) :
    after ops V (main_arg4 : DevRef τ sig) = V (main_arg4 : DevRef τ sig) :=
  ops_keep V main_arg4 (by decide) (by decide) (by decide) (by decide) (by decide) (by decide) (by decide)

/-- Argument 5 is not written. -/
theorem arg5_eq (V : Valuation τ sig (Elt F)) :
    after ops V (main_arg5 : DevRef τ sig) = V (main_arg5 : DevRef τ sig) :=
  ops_keep V main_arg5 (by decide) (by decide) (by decide) (by decide) (by decide) (by decide) (by decide)

/-- Argument 6 is not written. -/
theorem arg6_eq (V : Valuation τ sig (Elt F)) :
    after ops V (main_arg6 : DevRef τ sig) = V (main_arg6 : DevRef τ sig) :=
  ops_keep V main_arg6 (by decide) (by decide) (by decide) (by decide) (by decide) (by decide) (by decide)

/-- Argument 7 is not written. -/
theorem arg7_eq (V : Valuation τ sig (Elt F)) :
    after ops V (main_arg7 : DevRef τ sig) = V (main_arg7 : DevRef τ sig) :=
  ops_keep V main_arg7 (by decide) (by decide) (by decide) (by decide) (by decide) (by decide) (by decide)

end Cert.ReferenceIdeal.HandRun

end
-- ==== Proof.lean ====
/-
  A three-layer graph network, tiled on the device, against its array-level definition: the claims.

  Each layer averages every node's in-neighbours (a gather along the edge sources, a scatter-add at the edge targets,
  a division by the clamped in-degree), applies two dense maps with a bias and a residual, and — for the first two
  layers — normalises every column by its own mean and variance, scales, shifts and rectifies. The device program
  computes the dense maps and the normalisation in launches over 25 tiles of 2000 rows; the averaging and the column
  statistics are host operations in both programs.

  Over the extended reals both programs compute ONE function of the eight argument arrays, `Cert.SageStages.refOut`:
  * the device program's result buffer holds it (`Cert.KernelIdeal.Chain.result_eq`): the tiles of a launch's output
    are restrictions of one whole-array formula, a tiled product into a zero accumulator is the whole product row by
    row, a change of float format is the identity, and the host stretches between the launches are the reference's
    own operations;
  * the reference's result buffer holds it by reading its operations in order (`Cert.ReferenceIdeal.HandRun.out_eq`).
  No law of the extended reals beyond reading sums and broadcasts at an index is used, so the finiteness of the inputs
  is never opened. The frames: the two device programs' are their launches' and host stretches' frames in sequence; the
  reference's is its run with the result dropped. The idealisation rewrote no operation, so it preserves trivially.
-/
import proofs.«146949_j14173392077064_1_alg».proof.Defs
import proofs.«146949_j14173392077064_1_alg».proof.Proof.Gen.Kernel
import proofs.«146949_j14173392077064_1_alg».proof.Proof.Gen.Kernel.Frame
import proofs.«146949_j14173392077064_1_alg».proof.Proof.Gen.KernelIdeal
import proofs.«146949_j14173392077064_1_alg».proof.Proof.Gen.KernelIdeal.Frame
import proofs.«146949_j14173392077064_1_alg».proof.Proof.Gen.ReferenceIdeal
import proofs.«146949_j14173392077064_1_alg».proof.Proof.Gen.Pre_finite_inputs
import proofs.«146949_j14173392077064_1_alg».proof.Proof.KRun
import proofs.«146949_j14173392077064_1_alg».proof.Proof.KChain
import proofs.«146949_j14173392077064_1_alg».proof.Proof.RefRun
import proofs.«146949_j14173392077064_1_alg».proof.Proof.RefStages
import Idealize.ShloMosaic.Adequacy
import Idealize.ShloMosaic.Init

set_option maxRecDepth 16384

noncomputable section

namespace Cert.Proof

open Idealize.ShloMosaic Idealize.SL.Sem

/-- The device program runs and leaves its arguments unchanged. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments unchanged: its run, read at the argument buffers. -/
theorem frame_referenceIdeal : Cert.frame_ReferenceIdeal := fun m ρ _ =>
  (θ_run Cert.ReferenceIdeal.defs _ _).mono
    (fun r h c => ⟨(h c Cert.ReferenceIdeal.main_arg0).trans (Cert.ReferenceIdeal.HandRun.arg0_eq _),
      (h c Cert.ReferenceIdeal.main_arg1).trans (Cert.ReferenceIdeal.HandRun.arg1_eq _),
      (h c Cert.ReferenceIdeal.main_arg2).trans (Cert.ReferenceIdeal.HandRun.arg2_eq _),
      (h c Cert.ReferenceIdeal.main_arg3).trans (Cert.ReferenceIdeal.HandRun.arg3_eq _),
      (h c Cert.ReferenceIdeal.main_arg4).trans (Cert.ReferenceIdeal.HandRun.arg4_eq _),
      (h c Cert.ReferenceIdeal.main_arg5).trans (Cert.ReferenceIdeal.HandRun.arg5_eq _),
      (h c Cert.ReferenceIdeal.main_arg6).trans (Cert.ReferenceIdeal.HandRun.arg6_eq _),
      (h c Cert.ReferenceIdeal.main_arg7).trans (Cert.ReferenceIdeal.HandRun.arg7_eq _)⟩)
    (Cert.ReferenceIdeal.HandRun.run_main (F := Ideal) m ρ)

/-- The idealisation rewrote nothing. -/
theorem preserves : Cert.preserves_Kernel_KernelIdeal := trivial

/-- Both idealised programs end with the network `refOut` of their argument arrays in the result buffer; the
    arguments agree, so the results are equal entry by entry. -/
theorem algebraic : Cert.algebraic_KernelIdeal_ReferenceIdeal := by
  intro m ρ m' ρ' _ hagree
  refine ⟨fun c => Cert.SageStages.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.ValueRun.run_result (F := Ideal) m ρ)
  · refine (θ_run Cert.ReferenceIdeal.defs _ _).mono (fun r h c => ⟨?_,
      (h c Cert.ReferenceIdeal.main_arg0).trans (Cert.ReferenceIdeal.HandRun.arg0_eq _),
      (h c Cert.ReferenceIdeal.main_arg1).trans (Cert.ReferenceIdeal.HandRun.arg1_eq _),
      (h c Cert.ReferenceIdeal.main_arg2).trans (Cert.ReferenceIdeal.HandRun.arg2_eq _),
      (h c Cert.ReferenceIdeal.main_arg3).trans (Cert.ReferenceIdeal.HandRun.arg3_eq _),
      (h c Cert.ReferenceIdeal.main_arg4).trans (Cert.ReferenceIdeal.HandRun.arg4_eq _),
      (h c Cert.ReferenceIdeal.main_arg5).trans (Cert.ReferenceIdeal.HandRun.arg5_eq _),
      (h c Cert.ReferenceIdeal.main_arg6).trans (Cert.ReferenceIdeal.HandRun.arg6_eq _),
      (h c Cert.ReferenceIdeal.main_arg7).trans (Cert.ReferenceIdeal.HandRun.arg7_eq _)⟩)
      (Cert.ReferenceIdeal.HandRun.run_main (F := Ideal) m' ρ')
    refine ((h c Cert.ReferenceIdeal.main_v129).trans (Cert.ReferenceIdeal.HandRun.out_eq _)).trans ?_
    show Cert.SageStages.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
